-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))

def preserves_Kernel_KernelIdeal : Prop :=
  IdealRules.sign_bit.Statement Cert.KernelIdeal.S16x11008 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v2_1)) (v2 : (c : Dev Cert.KernelIdeal.nD) → Buf (Elt Ideal) ((c.tc : Thread Cert.KernelIdeal.nD Cert.KernelIdeal.τ).loc Cert.KernelIdeal.main_v2_2)) (v3 : (c : Dev Cert.KernelIdeal.nD) → Buf (Elt Ideal) ((c.tc : Thread Cert.KernelIdeal.nD Cert.KernelIdeal.τ).loc Cert.KernelIdeal.main_v2_3)) (v4 : (c : Dev Cert.KernelIdeal.nD) → Buf (Elt Ideal) ((c.tc : Thread Cert.KernelIdeal.nD Cert.KernelIdeal.τ).loc Cert.KernelIdeal.main_v5)) (v5 : (c : Dev Cert.KernelIdeal.nD) → Buf (Elt Ideal) ((c.tc : Thread Cert.KernelIdeal.nD Cert.KernelIdeal.τ).loc Cert.KernelIdeal.main_v4)) (v6 : (c : Dev Cert.KernelIdeal.nD) → Buf (Elt Ideal) ((c.tc : Thread Cert.KernelIdeal.nD Cert.KernelIdeal.τ).loc Cert.KernelIdeal.main_v2_5)) (v7 : (c : Dev Cert.KernelIdeal.nD) → Buf (Elt Ideal) ((c.tc : Thread Cert.KernelIdeal.nD Cert.KernelIdeal.τ).loc Cert.KernelIdeal.main_v2_6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v2_1) = v1 c
          ∧ r.2.mem ((c.tc : Thread Cert.KernelIdeal.nD Cert.KernelIdeal.τ).loc Cert.KernelIdeal.main_v2_2) = v2 c
          ∧ r.2.mem ((c.tc : Thread Cert.KernelIdeal.nD Cert.KernelIdeal.τ).loc Cert.KernelIdeal.main_v2_3) = v3 c
          ∧ r.2.mem ((c.tc : Thread Cert.KernelIdeal.nD Cert.KernelIdeal.τ).loc Cert.KernelIdeal.main_v5) = v4 c
          ∧ r.2.mem ((c.tc : Thread Cert.KernelIdeal.nD Cert.KernelIdeal.τ).loc Cert.KernelIdeal.main_v4) = v5 c
          ∧ r.2.mem ((c.tc : Thread Cert.KernelIdeal.nD Cert.KernelIdeal.τ).loc Cert.KernelIdeal.main_v2_5) = v6 c
          ∧ r.2.mem ((c.tc : Thread Cert.KernelIdeal.nD Cert.KernelIdeal.τ).loc Cert.KernelIdeal.main_v2_6) = v7 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v44) = v0 c
          ∧ r.2.mem ((c.tc : Thread Cert.ReferenceIdeal.nD Cert.ReferenceIdeal.τ).loc Cert.ReferenceIdeal.main_v16) = v1 c
          ∧ r.2.mem ((c.tc : Thread Cert.ReferenceIdeal.nD Cert.ReferenceIdeal.τ).loc Cert.ReferenceIdeal.main_v31) = v2 c
          ∧ r.2.mem ((c.tc : Thread Cert.ReferenceIdeal.nD Cert.ReferenceIdeal.τ).loc Cert.ReferenceIdeal.main_v30) = v3 c
          ∧ r.2.mem ((c.tc : Thread Cert.ReferenceIdeal.nD Cert.ReferenceIdeal.τ).loc Cert.ReferenceIdeal.main_v32) = v4 c
          ∧ r.2.mem ((c.tc : Thread Cert.ReferenceIdeal.nD Cert.ReferenceIdeal.τ).loc Cert.ReferenceIdeal.main_v35) = v5 c
          ∧ r.2.mem ((c.tc : Thread Cert.ReferenceIdeal.nD Cert.ReferenceIdeal.τ).loc Cert.ReferenceIdeal.main_v37) = v6 c
          ∧ r.2.mem ((c.tc : Thread Cert.ReferenceIdeal.nD Cert.ReferenceIdeal.τ).loc Cert.ReferenceIdeal.main_v42) = v7 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x11008 : Shape := ⟨2, ![4096, 11008]⟩
abbrev S4096 : Shape := ⟨1, ![4096]⟩
abbrev S_ : Shape := ⟨0, ![]⟩

class Facts : Prop where
  bcast_S_S4096x11008 : S_.BroadcastsInDim S4096x11008 (![] : Fin 0 → Fin S4096x11008.rank)
  reducesTo_S4096x11008_S_d0_1 : S4096x11008.ReducesTo [0, 1] S_
  h_S_ : 0 < S_.numel
  bcast_S_S4096 : S_.BroadcastsInDim S4096 (![] : Fin 0 → Fin S4096.rank)
  reducesTo_S4096_S_d0 : S4096.ReducesTo [0] S_

variable [Facts]

def fn_part1 {F : FTy → Type} [FloatOps F] (main_arg4 : FVec F S4096x11008 .f32) (main_arg6 : FVec F S4096x11008 .f32) (main_arg7 : FVec F S4096x11008 .f32) (main_v13 : IVec S_ 1) (main_v16 : IVec S4096x11008 1) : IVec S_ 1 :=
  let main_c_5 : IVec S_ 1 := constantI S_ 1 1#1
  let main_v17 : IVec S_ 1 := (fun x v => Host.reduce IntOp.andi x v reducesTo_S4096x11008_S_d0_1 h_S_) main_v16 main_c_5
  let main_v18 : IVec S_ 1 := andi main_v13 main_v17
  let main_v19 : FVec F S4096x11008 .f32 := Host.absf main_arg4
  let main_cst_6 : FVec F S_ .f32 := constant S_ .f32 0x7F800000#32
  let main_v20 : FVec F S4096x11008 .f32 := broadcastInDim S4096x11008 ![] bcast_S_S4096x11008 main_cst_6
  let main_v21 : IVec S4096x11008 1 := cmpf .olt main_v19 main_v20
  let main_c_7 : IVec S_ 1 := constantI S_ 1 1#1
  let main_v22 : IVec S_ 1 := (fun x v => Host.reduce IntOp.andi x v reducesTo_S4096x11008_S_d0_1 h_S_) main_v21 main_c_7
  let main_v23 : IVec S_ 1 := andi main_v18 main_v22
  let main_v24 : FVec F S4096x11008 .f32 := Host.absf main_arg6
  let main_cst_8 : FVec F S_ .f32 := constant S_ .f32 0x7F800000#32
  let main_v25 : FVec F S4096x11008 .f32 := broadcastInDim S4096x11008 ![] bcast_S_S4096x11008 main_cst_8
  let main_v26 : IVec S4096x11008 1 := cmpf .olt main_v24 main_v25
  let main_c_9 : IVec S_ 1 := constantI S_ 1 1#1
  let main_v27 : IVec S_ 1 := (fun x v => Host.reduce IntOp.andi x v reducesTo_S4096x11008_S_d0_1 h_S_) main_v26 main_c_9
  let main_v28 : IVec S_ 1 := andi main_v23 main_v27
  let main_v29 : FVec F S4096x11008 .f32 := Host.absf main_arg7
  let main_cst_10 : FVec F S_ .f32 := constant S_ .f32 0x7F800000#32
  let main_v30 : FVec F S4096x11008 .f32 := broadcastInDim S4096x11008 ![] bcast_S_S4096x11008 main_cst_10
  let main_v31 : IVec S4096x11008 1 := cmpf .olt main_v29 main_v30
  let main_c_11 : IVec S_ 1 := constantI S_ 1 1#1
  let main_v32 : IVec S_ 1 := (fun x v => Host.reduce IntOp.andi x v reducesTo_S4096x11008_S_d0_1 h_S_) main_v31 main_c_11
  let main_v33 : IVec S_ 1 := andi main_v28 main_v32
  main_v33

def fn {F : FTy → Type} [FloatOps F] (main_arg0 : FVec F S4096x11008 .f32) (main_arg1 : FVec F S4096 .f32) (main_arg2 : FVec F S4096x11008 .f32) (main_arg3 : FVec F S4096x11008 .f32) (main_arg4 : FVec F S4096x11008 .f32) (main_arg5 : IVec S4096x11008 1) (main_arg6 : FVec F S4096x11008 .f32) (main_arg7 : FVec F S4096x11008 .f32) : IVec S_ 1 :=
  let main_v0 : FVec F S4096x11008 .f32 := Host.absf main_arg0
  let main_cst : FVec F S_ .f32 := constant S_ .f32 0x7F800000#32
  let main_v1 : FVec F S4096x11008 .f32 := broadcastInDim S4096x11008 ![] bcast_S_S4096x11008 main_cst
  let main_v2 : IVec S4096x11008 1 := cmpf .olt main_v0 main_v1
  let main_c : IVec S_ 1 := constantI S_ 1 1#1
  let main_v3 : IVec S_ 1 := (fun x v => Host.reduce IntOp.andi x v reducesTo_S4096x11008_S_d0_1 h_S_) main_v2 main_c
  let main_v4 : FVec F S4096 .f32 := Host.absf main_arg1
  let main_cst_0 : FVec F S_ .f32 := constant S_ .f32 0x7F800000#32
  let main_v5 : FVec F S4096 .f32 := broadcastInDim S4096 ![] bcast_S_S4096 main_cst_0
  let main_v6 : IVec S4096 1 := cmpf .olt main_v4 main_v5
  let main_c_1 : IVec S_ 1 := constantI S_ 1 1#1
  let main_v7 : IVec S_ 1 := (fun x v => Host.reduce IntOp.andi x v reducesTo_S4096_S_d0 h_S_) main_v6 main_c_1
  let main_v8 : IVec S_ 1 := andi main_v3 main_v7
  let main_v9 : FVec F S4096x11008 .f32 := Host.absf main_arg2
  let main_cst_2 : FVec F S_ .f32 := constant S_ .f32 0x7F800000#32
  let main_v10 : FVec F S4096x11008 .f32 := broadcastInDim S4096x11008 ![] bcast_S_S4096x11008 main_cst_2
  let main_v11 : IVec S4096x11008 1 := cmpf .olt main_v9 main_v10
  let main_c_3 : IVec S_ 1 := constantI S_ 1 1#1
  let main_v12 : IVec S_ 1 := (fun x v => Host.reduce IntOp.andi x v reducesTo_S4096x11008_S_d0_1 h_S_) main_v11 main_c_3
  let main_v13 : IVec S_ 1 := andi main_v8 main_v12
  let main_v14 : FVec F S4096x11008 .f32 := Host.absf main_arg3
  let main_cst_4 : FVec F S_ .f32 := constant S_ .f32 0x7F800000#32
  let main_v15 : FVec F S4096x11008 .f32 := broadcastInDim S4096x11008 ![] bcast_S_S4096x11008 main_cst_4
  let main_v16 : IVec S4096x11008 1 := cmpf .olt main_v14 main_v15
  fn_part1 (F := F) main_arg4 main_arg6 main_arg7 main_v13 main_v16
-- ==== Kernel.lean ====
abbrev S4096x11008 : Shape := ⟨2, ![4096, 11008]⟩
abbrev S4096 : Shape := ⟨1, ![4096]⟩
abbrev S4096x1 : Shape := ⟨2, ![4096, 1]⟩
abbrev S1x1 : Shape := ⟨2, ![1, 1]⟩
abbrev S16x11008 : Shape := ⟨2, ![16, 11008]⟩
abbrev S16x1 : Shape := ⟨2, ![16, 1]⟩
abbrev S1x16x11008 : Shape := ⟨3, ![1, 16, 11008]⟩
abbrev S1 : Shape := ⟨1, ![1]⟩
abbrev S1x1x1 : Shape := ⟨3, ![1, 1, 1]⟩
abbrev S_ : Shape := ⟨0, ![]⟩

abbrev nBuf : Space → Nat
  | .hbm => 22
  | .vmem => 32
  | .smem => 0
  | _ => 0

abbrev bufTy : (tb : Table) → Fin (tcTables nBuf tb) → BufTy
  | .hbm, ⟨0, _⟩ => ⟨S4096x11008, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S4096x11008, .f32⟩
  | .hbm, ⟨5, _⟩ => ⟨S4096x11008, .i1⟩
  | .hbm, ⟨6, _⟩ => ⟨S4096x11008, .f32⟩
  | .hbm, ⟨7, _⟩ => ⟨S4096x11008, .f32⟩
  | .hbm, ⟨8, _⟩ => ⟨S4096x1, .f32⟩
  | .hbm, ⟨9, _⟩ => ⟨S4096x11008, .f32⟩
  | .hbm, ⟨10, _⟩ => ⟨S4096x11008, .f32⟩
  | .hbm, ⟨11, _⟩ => ⟨S4096x11008, .f32⟩
  | .hbm, ⟨12, _⟩ => ⟨S4096x11008, .f32⟩
  | .hbm, ⟨13, _⟩ => ⟨S4096x11008, .f32⟩
  | .hbm, ⟨14, _⟩ => ⟨S4096x11008, .f32⟩
  | .hbm, ⟨15, _⟩ => ⟨S4096x11008, .f32⟩
  | .hbm, ⟨16, _⟩ => ⟨S4096x11008, .f32⟩
  | .hbm, ⟨17, _⟩ => ⟨S1x1, .f32⟩
  | .hbm, ⟨18, _⟩ => ⟨S_, .f32⟩
  | .hbm, ⟨19, _⟩ => ⟨S4096x11008, .f32⟩
  | .hbm, ⟨20, _⟩ => ⟨S4096x11008, .i1⟩
  | .hbm, ⟨21, _⟩ => ⟨S_, .f32⟩
  | .local _ .vmem, ⟨0, _⟩ => ⟨S16x11008, .f32⟩
  | .local _ .vmem, ⟨1, _⟩ => ⟨S16x11008, .f32⟩
  | .local _ .vmem, ⟨2, _⟩ => ⟨S16x1, .f32⟩
  | .local _ .vmem, ⟨3, _⟩ => ⟨S16x1, .f32⟩
  | .local _ .vmem, ⟨4, _⟩ => ⟨S16x11008, .f32⟩
  | .local _ .vmem, ⟨5, _⟩ => ⟨S16x11008, .f32⟩
  | .local _ .vmem, ⟨6, _⟩ => ⟨S16x11008, .f32⟩
  | .local _ .vmem, ⟨7, _⟩ => ⟨S16x11008, .f32⟩
  | .local _ .vmem, ⟨8, _⟩ => ⟨S16x11008, .f32⟩
  | .local _ .vmem, ⟨9, _⟩ => ⟨S16x11008, .f32⟩
  | .local _ .vmem, ⟨10, _⟩ => ⟨S16x11008, .f32⟩
  | .local _ .vmem, ⟨11, _⟩ => ⟨S16x11008, .f32⟩
  | .local _ .vmem, ⟨12, _⟩ => ⟨S16x11008, .f32⟩
  | .local _ .vmem, ⟨13, _⟩ => ⟨S16x11008, .f32⟩
  | .local _ .vmem, ⟨14, _⟩ => ⟨S16x11008, .f32⟩
  | .local _ .vmem, ⟨15, _⟩ => ⟨S16x11008, .f32⟩
  | .local _ .vmem, ⟨16, _⟩ => ⟨S16x11008, .f32⟩
  | .local _ .vmem, ⟨17, _⟩ => ⟨S16x11008, .f32⟩
  | .local _ .vmem, ⟨18, _⟩ => ⟨S16x11008, .f32⟩
  | .local _ .vmem, ⟨19, _⟩ => ⟨S16x11008, .f32⟩
  | .local _ .vmem, ⟨20, _⟩ => ⟨S16x11008, .f32⟩
  | .local _ .vmem, ⟨21, _⟩ => ⟨S16x11008, .f32⟩
  | .local _ .vmem, ⟨22, _⟩ => ⟨S16x11008, .f32⟩
  | .local _ .vmem, ⟨23, _⟩ => ⟨S16x11008, .f32⟩
  | .local _ .vmem, ⟨24, _⟩ => ⟨S16x11008, .f32⟩
  | .local _ .vmem, ⟨25, _⟩ => ⟨S16x11008, .f32⟩
  | .local _ .vmem, ⟨26, _⟩ => ⟨S16x11008, .f32⟩
  | .local _ .vmem, ⟨27, _⟩ => ⟨S16x11008, .f32⟩
  | .local _ .vmem, ⟨28, _⟩ => ⟨S16x11008, .f32⟩
  | .local _ .vmem, ⟨29, _⟩ => ⟨S16x11008, .f32⟩
  | .local _ .vmem, ⟨30, _⟩ => ⟨S1x1, .f32⟩
  | .local _ .vmem, ⟨31, _⟩ => ⟨S1x1, .f32⟩
  | _, _ => ⟨S4096x11008, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2_0 : Ref sig .tc := ⟨.hbm, 10, rfl⟩
abbrev main_v2_1 : Ref sig .tc := ⟨.hbm, 11, rfl⟩
abbrev main_v2_2 : Ref sig .tc := ⟨.hbm, 12, rfl⟩
abbrev main_v2_3 : Ref sig .tc := ⟨.hbm, 13, rfl⟩
abbrev main_v2_4 : Ref sig .tc := ⟨.hbm, 14, rfl⟩
abbrev main_v2_5 : Ref sig .tc := ⟨.hbm, 15, rfl⟩
abbrev main_v2_6 : Ref sig .tc := ⟨.hbm, 16, rfl⟩
abbrev main_v2_7 : Ref sig .tc := ⟨.hbm, 17, rfl⟩
abbrev main_cst : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_stg12_0 : Ref sig .tc := ⟨.vmem, 24, rfl⟩
abbrev cc0_stg12_1 : Ref sig .tc := ⟨.vmem, 25, rfl⟩
abbrev cc0_stg13_0 : Ref sig .tc := ⟨.vmem, 26, rfl⟩
abbrev cc0_stg13_1 : Ref sig .tc := ⟨.vmem, 27, rfl⟩
abbrev cc0_stg14_0 : Ref sig .tc := ⟨.vmem, 28, rfl⟩
abbrev cc0_stg14_1 : Ref sig .tc := ⟨.vmem, 29, rfl⟩
abbrev cc0_stg15_0 : Ref sig .tc := ⟨.vmem, 30, rfl⟩
abbrev cc0_scratch0 : Ref sig .tc := ⟨.vmem, 31, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23
abbrev cc0_sem12_0 : DmaSem sig := 24
abbrev cc0_sem12_1 : DmaSem sig := 25
abbrev cc0_sem13_0 : DmaSem sig := 26
abbrev cc0_sem13_1 : DmaSem sig := 27
abbrev cc0_sem14_0 : DmaSem sig := 28
abbrev cc0_sem14_1 : DmaSem sig := 29
abbrev cc0_sem15_0 : DmaSem sig := 30

abbrev nD : Nat := 1
abbrev τ : Topo := Topo.v7x

variable {F : FTy → Type} [BitOps F]

abbrev grid0 : Pipeline.Grid := ⟨1, ![256], ![false]⟩

def k0_cond2 (i : grid0.Coords) : BitVec 1 :=
  let arg0 : BitVec 32 := BitVec.ofNat 32 (i 0).val
  let c255_i32 : BitVec 32 := 255#32
  let v87 : BitVec 1 := Scalar.cmpi .eq arg0 c255_i32
  let v88 : BitVec 32 := Scalar.extui v87
  let c0_i32_56 : BitVec 32 := 0#32
  let v89 : BitVec 1 := Scalar.cmpi .ne v88 c0_i32_56
  v89

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S16x11008 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S16x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S16x11008 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S16x11008 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S16x11008 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S16x11008 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S16x11008 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S16x11008 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S16x11008 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S16x11008 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S16x11008 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S16x11008 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S16x11008 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S16x11008 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]

abbrev stage0_14 : Fin 2 → Memref sig .tc .vmem S16x11008 .f32 := fun | 0 => Memref.whole cc0_stg14_0 | 1 => Memref.whole cc0_stg14_1 | ⟨_ + 2, h⟩ => absurd h (Nat.not_lt.2 (Nat.le_add_left _ _))
abbrev sem0_14 : Fin 2 → DmaSem sig := fun | 0 => cc0_sem14_0 | 1 => cc0_sem14_1 | ⟨_ + 2, h⟩ => absurd h (Nat.not_lt.2 (Nat.le_add_left _ _))
abbrev reads0_14 : Fin grid0.rank → Bool := ![true]

abbrev stage0_15 : Fin 1 → Memref sig .tc .vmem S1x1 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))
abbrev reads0_15 : Fin grid0.rank → Bool := ![false]

class Facts₀ : Prop where
  shapeCasts_S4096_S4096x1 : S4096.ShapeCasts S4096x1
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S16x1_S16x1_0_0 : ∀ a, (![0, 0] : Fin 2 → Nat) a + S16x1.size a ≤ S16x1.size a
  h_S16x1 : 0 < S16x1.numel
  shapeCasts_S16x1_S16x1 : S16x1.ShapeCasts S16x1
  broadcasts_S16x1_S16x11008 : S16x1.Broadcasts S16x11008
  inb_S16x11008_S16x11008_0_0 : ∀ a, (![0, 0] : Fin 2 → Nat) a + S16x11008.size a ≤ S16x11008.size a
  h_S16x11008 : 0 < S16x11008.numel
  shapeCasts_S16x11008_S16x11008 : S16x11008.ShapeCasts S16x11008
  natLt_1_32 : 1 < 32
  shapeCasts_S16x11008_S1x16x11008 : S16x11008.ShapeCasts S1x16x11008
  reduces_S1x16x11008_S1 : S1x16x11008.Reduces [1, 2] S1
  shapeCasts_S1_S1x1x1 : S1.ShapeCasts S1x1x1
  inpos_S1x1x1_p0_0_0 : ∀ a, (![0, 0, 0] : Fin 3 → Nat) a < S1x1x1.size a
  bcast_S_S4096x11008 : S_.BroadcastsInDim S4096x11008 (![] : Fin 0 → Fin S4096x11008.rank)
  shapeCasts_S1x1_S_ : S1x1.ShapeCasts S_
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S16x11008.size a ≤ S4096x11008.size a
  hwx0_0 : ∀ i : grid0.Coords, EltTy.bits .f32 = 32 ∨ (Rect.block (s := S4096x11008) S16x11008.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S16x1.size a ≤ S4096x1.size a
  hwx0_1 : ∀ i : grid0.Coords, EltTy.bits .f32 = 32 ∨ (Rect.block (s := S4096x1) S16x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S16x11008.size a ≤ S4096x11008.size a
  hwx0_2 : ∀ i : grid0.Coords, EltTy.bits .f32 = 32 ∨ (Rect.block (s := S4096x11008) S16x11008.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S16x11008.size a ≤ S4096x11008.size a
  hwx0_3 : ∀ i : grid0.Coords, EltTy.bits .f32 = 32 ∨ (Rect.block (s := S4096x11008) S16x11008.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S16x11008.size a ≤ S4096x11008.size a
  hwx0_4 : ∀ i : grid0.Coords, EltTy.bits .f32 = 32 ∨ (Rect.block (s := S4096x11008) S16x11008.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S16x11008.size a ≤ S4096x11008.size a
  hwx0_5 : ∀ i : grid0.Coords, EltTy.bits .f32 = 32 ∨ (Rect.block (s := S4096x11008) S16x11008.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S16x11008.size a ≤ S4096x11008.size a
  hwx0_6 : ∀ i : grid0.Coords, EltTy.bits .f32 = 32 ∨ (Rect.block (s := S4096x11008) S16x11008.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S16x11008.size a ≤ S4096x11008.size a
  hwx0_7 : ∀ i : grid0.Coords, EltTy.bits .f32 = 32 ∨ (Rect.block (s := S4096x11008) S16x11008.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S16x11008.size a ≤ S4096x11008.size a
  hwx0_8 : ∀ i : grid0.Coords, EltTy.bits .f32 = 32 ∨ (Rect.block (s := S4096x11008) S16x11008.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S16x11008.size a ≤ S4096x11008.size a
  hwx0_9 : ∀ i : grid0.Coords, EltTy.bits .f32 = 32 ∨ (Rect.block (s := S4096x11008) S16x11008.size (cc0_transform_9 i) (hinb0_9 i)).WholeWords (EltTy.packing .f32)
  hstage0_10 : ∀ j, (stage0_10 j).IsWhole
  nbuf0_10 : grid0.bufCount reads0_10 false = 2
  hreads0_10 : ∀ i i' : grid0.Coords, (∀ a, reads0_10 a = true → i a = i' a) → cc0_transform_10 i = cc0_transform_10 i'
  hinb0_10 : ∀ (i : grid0.Coords) a, (cc0_transform_10 i a + 1) * S16x11008.size a ≤ S4096x11008.size a
  hwx0_10 : ∀ i : grid0.Coords, EltTy.bits .f32 = 32 ∨ (Rect.block (s := S4096x11008) S16x11008.size (cc0_transform_10 i) (hinb0_10 i)).WholeWords (EltTy.packing .f32)
  hstage0_11 : ∀ j, (stage0_11 j).IsWhole
  nbuf0_11 : grid0.bufCount reads0_11 false = 2
  hreads0_11 : ∀ i i' : grid0.Coords, (∀ a, reads0_11 a = true → i a = i' a) → cc0_transform_11 i = cc0_transform_11 i'
  hinb0_11 : ∀ (i : grid0.Coords) a, (cc0_transform_11 i a + 1) * S16x11008.size a ≤ S4096x11008.size a
  hwx0_11 : ∀ i : grid0.Coords, EltTy.bits .f32 = 32 ∨ (Rect.block (s := S4096x11008) S16x11008.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S16x11008.size a ≤ S4096x11008.size a
  hwx0_12 : ∀ i : grid0.Coords, EltTy.bits .f32 = 32 ∨ (Rect.block (s := S4096x11008) S16x11008.size (cc0_transform_12 i) (hinb0_12 i)).WholeWords (EltTy.packing .f32)
  hstage0_13 : ∀ j, (stage0_13 j).IsWhole
  nbuf0_13 : grid0.bufCount reads0_13 false = 2
  hreads0_13 : ∀ i i' : grid0.Coords, (∀ a, reads0_13 a = true → i a = i' a) → cc0_transform_13 i = cc0_transform_13 i'
  hinb0_13 : ∀ (i : grid0.Coords) a, (cc0_transform_13 i a + 1) * S16x11008.size a ≤ S4096x11008.size a
  hwx0_13 : ∀ i : grid0.Coords, EltTy.bits .f32 = 32 ∨ (Rect.block (s := S4096x11008) S16x11008.size (cc0_transform_13 i) (hinb0_13 i)).WholeWords (EltTy.packing .f32)
  hstage0_14 : ∀ j, (stage0_14 j).IsWhole
  nbuf0_14 : grid0.bufCount reads0_14 false = 2
  hreads0_14 : ∀ i i' : grid0.Coords, (∀ a, reads0_14 a = true → i a = i' a) → cc0_transform_14 i = cc0_transform_14 i'
  hinb0_14 : ∀ (i : grid0.Coords) a, (cc0_transform_14 i a + 1) * S16x11008.size a ≤ S4096x11008.size a
  hwx0_14 : ∀ i : grid0.Coords, EltTy.bits .f32 = 32 ∨ (Rect.block (s := S4096x11008) S16x11008.size (cc0_transform_14 i) (hinb0_14 i)).WholeWords (EltTy.packing .f32)
  hstage0_15 : ∀ j, (stage0_15 j).IsWhole
  nbuf0_15 : grid0.bufCount reads0_15 true = 1
  hreads0_15 : ∀ i i' : grid0.Coords, (∀ a, reads0_15 a = true → i a = i' a) → cc0_transform_15 i = cc0_transform_15 i'
  hinb0_15 : ∀ (i : grid0.Coords) a, (cc0_transform_15 i a + 1) * S1x1.size a ≤ S1x1.size a
  hwx0_15 : ∀ i : grid0.Coords, EltTy.bits .f32 = 32 ∨ (Rect.block (s := S1x1) S1x1.size (cc0_transform_15 i) (hinb0_15 i)).WholeWords (EltTy.packing .f32)

variable [Facts₀]

abbrev win0_0 : Pipeline.Window sig grid0 :=
  Pipeline.Window.ofSpec (Memref.whole main_arg0) S16x11008.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S16x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S16x11008.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S16x11008.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S16x11008.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v1) S16x11008.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg6) S16x11008.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S16x11008.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v2_0) S16x11008.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v2_1) S16x11008.size cc0_transform_9 reads0_9 true false 2 stage0_9 sem0_9
    hrank0 hreads0_9 hinb0_9 nbuf0_9 (Memref.isWhole_whole _) hwx0_9 hstage0_9

abbrev win0_10 : Pipeline.Window sig grid0 :=
  Pipeline.Window.ofSpec (Memref.whole main_v2_2) S16x11008.size cc0_transform_10 reads0_10 true false 2 stage0_10 sem0_10
    hrank0 hreads0_10 hinb0_10 nbuf0_10 (Memref.isWhole_whole _) hwx0_10 hstage0_10

abbrev win0_11 : Pipeline.Window sig grid0 :=
  Pipeline.Window.ofSpec (Memref.whole main_v2_3) S16x11008.size cc0_transform_11 reads0_11 true false 2 stage0_11 sem0_11
    hrank0 hreads0_11 hinb0_11 nbuf0_11 (Memref.isWhole_whole _) hwx0_11 hstage0_11

abbrev win0_12 : Pipeline.Window sig grid0 :=
  Pipeline.Window.ofSpec (Memref.whole main_v2_4) S16x11008.size cc0_transform_12 reads0_12 true false 2 stage0_12 sem0_12
    hrank0 hreads0_12 hinb0_12 nbuf0_12 (Memref.isWhole_whole _) hwx0_12 hstage0_12

abbrev win0_13 : Pipeline.Window sig grid0 :=
  Pipeline.Window.ofSpec (Memref.whole main_v2_5) S16x11008.size cc0_transform_13 reads0_13 true false 2 stage0_13 sem0_13
    hrank0 hreads0_13 hinb0_13 nbuf0_13 (Memref.isWhole_whole _) hwx0_13 hstage0_13

abbrev win0_14 : Pipeline.Window sig grid0 :=
  Pipeline.Window.ofSpec (Memref.whole main_v2_6) S16x11008.size cc0_transform_14 reads0_14 true false 2 stage0_14 sem0_14
    hrank0 hreads0_14 hinb0_14 nbuf0_14 (Memref.isWhole_whole _) hwx0_14 hstage0_14

abbrev win0_15 : Pipeline.Window sig grid0 :=
  Pipeline.Window.ofSpec (Memref.whole main_v2_7) S1x1.size cc0_transform_15 reads0_15 true true 1 stage0_15 sem0_15
    hrank0 hreads0_15 hinb0_15 nbuf0_15 (Memref.isWhole_whole _) hwx0_15 hstage0_15

abbrev win0 : Fin 16 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | 13 => win0_13 | 14 => win0_14 | 15 => win0_15 | ⟨_ + 16, h⟩ => absurd h (Nat.not_lt.2 (Nat.le_add_left _ _))
abbrev spec0 : Fin 16 → Pipeline.WinSpec sig grid0.rank := fun w => (win0 w).toWinSpec

abbrev idle0 : Fin 16 → grid0.Coords → Bool := fun | 0 => fun _ => false | 1 => fun _ => false | 2 => fun _ => false | 3 => fun _ => false | 4 => fun _ => false | 5 => fun _ => false | 6 => fun _ => false | 7 => fun _ => false | 8 => fun _ => false | 9 => fun _ => false | 10 => fun _ => false | 11 => fun _ => false | 12 => fun _ => false | 13 => fun _ => false | 14 => fun _ => false | 15 => fun i => !(k0_cond2 i == 1#1) | ⟨_ + 16, h⟩ => absurd h (Nat.not_lt.2 (Nat.le_add_left _ _))

class Facts : Prop extends Facts₀ where

variable [Facts]
-- ==== ReferenceIdeal.lean ====
abbrev S4096x11008 : Shape := ⟨2, ![4096, 11008]⟩
abbrev S4096 : Shape := ⟨1, ![4096]⟩
abbrev S4096x1 : Shape := ⟨2, ![4096, 1]⟩
abbrev S_ : Shape := ⟨0, ![]⟩

abbrev nBuf : Space → Nat
  | .hbm => 71
  | .vmem => 0
  | .smem => 0
  | _ => 0

abbrev bufTy : (tb : Table) → Fin (tcTables nBuf tb) → BufTy
  | .hbm, ⟨0, _⟩ => ⟨S4096x11008, .f32⟩
  | .hbm, ⟨1, _⟩ => ⟨S4096, .f32⟩
  | .hbm, ⟨2, _⟩ => ⟨S4096x11008, .f32⟩
  | .hbm, ⟨3, _⟩ => ⟨S4096x11008, .f32⟩
  | .hbm, ⟨4, _⟩ => ⟨S4096x11008, .f32⟩
  | .hbm, ⟨5, _⟩ => ⟨S4096x11008, .i1⟩
  | .hbm, ⟨6, _⟩ => ⟨S4096x11008, .f32⟩
  | .hbm, ⟨7, _⟩ => ⟨S4096x11008, .f32⟩
  | .hbm, ⟨8, _⟩ => ⟨S4096x1, .f32⟩
  | .hbm, ⟨9, _⟩ => ⟨S_, .f32⟩
  | .hbm, ⟨10, _⟩ => ⟨S4096x1, .f32⟩
  | .hbm, ⟨11, _⟩ => ⟨S4096x1, .i1⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S_, .f32⟩
  | .hbm, ⟨20, _⟩ => ⟨S4096x1, .f32⟩
  | .hbm, ⟨21, _⟩ => ⟨S4096x1, .f32⟩
  | .hbm, ⟨22, _⟩ => ⟨S4096x1, .f32⟩
  | .hbm, ⟨23, _⟩ => ⟨S4096x11008, .f32⟩
  | .hbm, ⟨24, _⟩ => ⟨S4096x11008, .f32⟩
  | .hbm, ⟨25, _⟩ => ⟨S_, .f32⟩
  | .hbm, ⟨26, _⟩ => ⟨S_, .f32⟩
  | .hbm, ⟨27, _⟩ => ⟨S4096x11008, .f32⟩
  | .hbm, ⟨28, _⟩ => ⟨S4096x11008, .f32⟩
  | .hbm, ⟨29, _⟩ => ⟨S4096x11008, .f32⟩
  | .hbm, ⟨30, _⟩ => ⟨S4096x11008, .f32⟩
  | .hbm, ⟨31, _⟩ => ⟨S4096x11008, .f32⟩
  | .hbm, ⟨32, _⟩ => ⟨S4096x11008, .f32⟩
  | .hbm, ⟨33, _⟩ => ⟨S4096x11008, .f32⟩
  | .hbm, ⟨34, _⟩ => ⟨S4096x11008, .f32⟩
  | .hbm, ⟨35, _⟩ => ⟨S4096x11008, .f32⟩
  | .hbm, ⟨36, _⟩ => ⟨S4096x11008, .f32⟩
  | .hbm, ⟨37, _⟩ => ⟨S4096x11008, .f32⟩
  | .hbm, ⟨38, _⟩ => ⟨S_, .f32⟩
  | .hbm, ⟨39, _⟩ => ⟨S4096x11008, .f32⟩
  | .hbm, ⟨40, _⟩ => ⟨S4096x11008, .i1⟩
  | .hbm, ⟨41, _⟩ => ⟨S4096x11008, .f32⟩
  | .hbm, ⟨42, _⟩ => ⟨S_, .f32⟩
  | .hbm, ⟨43, _⟩ => ⟨S4096x11008, .f32⟩
  | .hbm, ⟨44, _⟩ => ⟨S4096x11008, .i1⟩
  | .hbm, ⟨45, _⟩ => ⟨S4096x11008, .f32⟩
  | .hbm, ⟨46, _⟩ => ⟨S_, .f32⟩
  | .hbm, ⟨47, _⟩ => ⟨S4096x11008, .f32⟩
  | .hbm, ⟨48, _⟩ => ⟨S4096x11008, .f32⟩
  | .hbm, ⟨49, _⟩ => ⟨S_, .f32⟩
  | .hbm, ⟨50, _⟩ => ⟨S4096x11008, .f32⟩
  | .hbm, ⟨51, _⟩ => ⟨S4096x11008, .f32⟩
  | .hbm, ⟨52, _⟩ => ⟨S4096x11008, .f32⟩
  | .hbm, ⟨53, _⟩ => ⟨S4096x11008, .f32⟩
  | .hbm, ⟨54, _⟩ => ⟨S_, .f32⟩
  | .hbm, ⟨55, _⟩ => ⟨S_, .f32⟩
  | .hbm, ⟨56, _⟩ => ⟨S_, .f32⟩
  | .hbm, ⟨57, _⟩ => ⟨S4096x11008, .f32⟩
  | .hbm, ⟨58, _⟩ => ⟨S4096x11008, .i1⟩
  | .hbm, ⟨59, _⟩ => ⟨S4096x11008, .i1⟩
  | .hbm, ⟨60, _⟩ => ⟨S4096x11008, .f32⟩
  | .hbm, ⟨61, _⟩ => ⟨S4096x11008, .f32⟩
  | .hbm, ⟨62, _⟩ => ⟨S_, .f32⟩
  | .hbm, ⟨63, _⟩ => ⟨S4096x11008, .f32⟩
  | .hbm, ⟨64, _⟩ => ⟨S4096x11008, .f32⟩
  | .hbm, ⟨65, _⟩ => ⟨S_, .f32⟩
  | .hbm, ⟨66, _⟩ => ⟨S4096x11008, .f32⟩
  | .hbm, ⟨67, _⟩ => ⟨S4096x11008, .f32⟩
  | .hbm, ⟨68, _⟩ => ⟨S4096x11008, .f32⟩
  | .hbm, ⟨69, _⟩ => ⟨S4096x11008, .f32⟩
  | .hbm, ⟨70, _⟩ => ⟨S4096x11008, .f32⟩
  | _, _ => ⟨S4096x11008, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_call0_v0 : Ref sig .tc := ⟨.hbm, 13, rfl⟩
abbrev main_v3 : Ref sig .tc := ⟨.hbm, 14, rfl⟩
abbrev main_cst_1 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst_2 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_cst_3 : Ref sig .tc := ⟨.hbm, 25, rfl⟩
abbrev main_cst_4 : Ref sig .tc := ⟨.hbm, 26, rfl⟩
abbrev main_call1_v0 : Ref sig .tc := ⟨.hbm, 27, rfl⟩
abbrev main_call1_v1 : Ref sig .tc := ⟨.hbm, 28, rfl⟩
abbrev main_call1_v2 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_cst_5 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_cst_6 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_cst_7 : Ref sig .tc := ⟨.hbm, 46, rfl⟩
abbrev main_v26 : Ref sig .tc := ⟨.hbm, 47, rfl⟩
abbrev main_v27 : Ref sig .tc := ⟨.hbm, 48, rfl⟩
abbrev main_cst_8 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_cst_9 : Ref sig .tc := ⟨.hbm, 54, rfl⟩
abbrev main_v32 : Ref sig .tc := ⟨.hbm, 55, rfl⟩
abbrev main_cst_10 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩
abbrev main_cst_11 : Ref sig .tc := ⟨.hbm, 62, rfl⟩
abbrev main_v38 : Ref sig .tc := ⟨.hbm, 63, rfl⟩
abbrev main_v39 : Ref sig .tc := ⟨.hbm, 64, rfl⟩
abbrev main_cst_12 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩

abbrev nD : Nat := 1
abbrev τ : Topo := Topo.v7x

variable {F : FTy → Type} [FloatOps F]

class Facts₀ : Prop where
  bcast_S4096_S4096x1_0 : S4096.BroadcastsInDim S4096x1 (![0] : Fin 1 → Fin S4096x1.rank)
  bcast_S_S4096x1 : S_.BroadcastsInDim S4096x1 (![] : Fin 0 → Fin S4096x1.rank)
  bcast_S4096x1_S4096x11008_0_1 : S4096x1.BroadcastsInDim S4096x11008 (![0, 1] : Fin 2 → Fin S4096x11008.rank)
  bcast_S_S4096x11008 : S_.BroadcastsInDim S4096x11008 (![] : Fin 0 → Fin S4096x11008.rank)
  reducesTo_S4096x11008_S_d0_1 : S4096x11008.ReducesTo [0, 1] S_
  h_S_ : 0 < S_.numel

variable [Facts₀]

class Facts : Prop extends Facts₀ where

variable [Facts]
-- ==== Proof.Pieces.lean ====
import proofs.«145237_j46729244180908_1_alg».proof.Proof.FramePA
import Idealize.ShloMosaic.Lib.Pipeline.Value
import Idealize.ShloMosaic.Lib.Tactic

/-!
# What one grid point leaves in each staging buffer

At every grid point the body overwrites each of the seven large output blocks with one whole-block store,
so what the block holds afterwards is that store's value: a fixed pointwise expression of the eight loaded
input blocks.  The one-word accumulator is overwritten with its previous contents plus the block's count of
oscillating entries (at the first point the previous contents are the zero the body has just stored), and
at the last point the accumulator is copied into the one-word output block.
-/

set_option maxRecDepth 16384

noncomputable section

namespace Cert.KernelIdeal.Pieces

open Idealize.ShloMosaic Idealize.ShloMosaic.TcCoe Idealize.SL.Sem Cert.KernelIdeal Cert.KernelIdeal.Gen Cert.KernelIdeal.GenP

variable {F : FTy → Type} [FloatOps F]

theorem hz : (![0, 0] : Fin 2 → Nat) = fun _ => 0 := funext fun a => by fin_cases a <;> rfl

section Values

variable (x0 : Vec F S16x11008 .f32) (x1 : Vec F S16x1 .f32) (x2 x3 x4 x5 x6 x7 : Vec F S16x11008 .f32)

/-- The seven stored blocks as expressions of the loaded ones, and the block's oscillation indicator. -/
abbrev v8 : FVec F S16x11008 .f32 := k0_pay16 (k0_pay3 x1) (k0_pay4 x1 x0 x5 x6)
abbrev v9 : Vec F S16x11008 .f32 := k0_pay4 x1 x0 x5 x6
abbrev v10 : FVec F S16x11008 .f32 := k0_pay11 (k0_pay6 x1 x0 x5 x6 x2) (k0_pay7 x1 x0 x5 x6 x2) x3
abbrev v11 : FVec F S16x11008 .f32 := k0_pay10 (k0_pay8 x1 x0 x5 x6 x2 x3) x4
abbrev v12 : FVec F S16x11008 .f32 := k0_pay13 (k0_pay8 x1 x0 x5 x6 x2 x3) x4 x5
abbrev v13 : FVec F S16x11008 .f32 := k0_pay14 (k0_pay8 x1 x0 x5 x6 x2 x3) x4 x7 x6
abbrev v14 : FVec F S16x11008 .f32 := k0_pay15 (k0_pay4 x1 x0 x5 x6) x7
abbrev osc : FVec F S16x11008 .f32 := k0_pay9 (k0_pay8 x1 x0 x5 x6 x2 x3)

end Values

section CaseA

variable (c : Dev nD) (i : grid0.Coords)
  (a1 : Memref sig .tc .vmem S16x11008 .f32) (h1 : a1.IsWhole) (a2 : Memref sig .tc .vmem S16x1 .f32) (h2 : a2.IsWhole)
  (a3 : Memref sig .tc .vmem S16x11008 .f32) (h3 : a3.IsWhole) (a4 : Memref sig .tc .vmem S16x11008 .f32) (h4 : a4.IsWhole)
  (a5 : Memref sig .tc .vmem S16x11008 .f32) (h5 : a5.IsWhole) (a6 : Memref sig .tc .vmem S16x11008 .f32) (h6 : a6.IsWhole)
  (a7 : Memref sig .tc .vmem S16x11008 .f32) (h7 : a7.IsWhole) (a8 : Memref sig .tc .vmem S16x11008 .f32) (h8 : a8.IsWhole)
  (a9 : Memref sig .tc .vmem S16x11008 .f32) (h9 : a9.IsWhole) (a10 : Memref sig .tc .vmem S16x11008 .f32) (h10 : a10.IsWhole)
  (a11 : Memref sig .tc .vmem S16x11008 .f32) (h11 : a11.IsWhole) (a12 : Memref sig .tc .vmem S16x11008 .f32) (h12 : a12.IsWhole)
  (a13 : Memref sig .tc .vmem S16x11008 .f32) (h13 : a13.IsWhole) (a14 : Memref sig .tc .vmem S16x11008 .f32) (h14 : a14.IsWhole)
  (a15 : Memref sig .tc .vmem S16x11008 .f32) (h15 : a15.IsWhole) (a16 : Memref sig .tc .vmem S1x1 .f32) (h16 : a16.IsWhole)
  (a17 : Memref sig .tc .vmem S1x1 .f32) (h17 : a17.IsWhole)
  (hc0 : cond0_0 i) (hc1 : ¬cond0_1 i)
  (x0 : Vec F S16x11008 .f32) (x1 : Vec F S16x1 .f32) (x2 x3 x4 x5 x6 x7 : Vec F S16x11008 .f32)

set_option hygiene false in
local macro "atA(" f:ident ")" : term =>
  `($f c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7)

set_option hygiene false in
local macro "piece_A" cov:ident : tactic =>
  `(tactic| (rw [View.read_writes_eq_canon _ _ _ atA($cov)]
             unfold kernelRun0_A
             dsimp only
             sl_unfold_words
             rw [View.canon_unit_zero hz]
             simp only [View.readAt_eq_ld, h1.read_unread, h2.read_unread, h3.read_unread, h4.read_unread, h5.read_unread,
               h6.read_unread, h7.read_unread, h8.read_unread, h17.read_unread, View.ld_unit_zero (S := S16x11008) hz,
               View.ld_unit_zero (S := S16x1) hz, View.ld_unit_zero (S := S1x1) hz]))

theorem out_A_8 : atA(out0_A_8) = v8 x0 x1 x5 x6 := by
  unfold out0_A_8; piece_A cover0_A_8
theorem out_A_9 : atA(out0_A_9) = v9 x0 x1 x5 x6 := by
  unfold out0_A_9; piece_A cover0_A_9
theorem out_A_10 : atA(out0_A_10) = v10 x0 x1 x2 x3 x5 x6 := by
  unfold out0_A_10; piece_A cover0_A_10
theorem out_A_11 : atA(out0_A_11) = v11 x0 x1 x2 x3 x4 x5 x6 := by
  unfold out0_A_11; piece_A cover0_A_11
theorem out_A_12 : atA(out0_A_12) = v12 x0 x1 x2 x3 x4 x5 x6 := by
  unfold out0_A_12; piece_A cover0_A_12
theorem out_A_13 : atA(out0_A_13) = v13 x0 x1 x2 x3 x4 x5 x6 x7 := by
  unfold out0_A_13; piece_A cover0_A_13
theorem out_A_14 : atA(out0_A_14) = v14 x0 x1 x5 x6 x7 := by
  unfold out0_A_14; piece_A cover0_A_14

/-- At the first point the accumulator ends at the zero the body has just stored plus the block's count. -/
theorem sout_A : atA(sout0_A_0) = k0_pay1 (osc x0 x1 x2 x3 x5 x6) (k0_pay2 (F := F)) := by
  unfold sout0_A_0
  rw [View.read_writes_eq_canon _ _ _ atA(scover0_A_0)]
  unfold kernelRun0_A
  dsimp only
  sl_unfold_words
  rw [View.canon_cons_unit_zero (S := S1x1) hz, View.readCov_unit_zero (S := S1x1) _ hz]
  simp only [View.readAt_eq_ld, h1.read_unread, h2.read_unread, h3.read_unread, h4.read_unread, h5.read_unread,
               h6.read_unread, h7.read_unread, h8.read_unread, h17.read_unread, View.ld_unit_zero (S := S16x11008) hz,
               View.ld_unit_zero (S := S16x1) hz, View.ld_unit_zero (S := S1x1) hz]

end CaseA

section CaseB

variable (c : Dev nD) (i : grid0.Coords)
  (a1 : Memref sig .tc .vmem S16x11008 .f32) (h1 : a1.IsWhole) (a2 : Memref sig .tc .vmem S16x1 .f32) (h2 : a2.IsWhole)
  (a3 : Memref sig .tc .vmem S16x11008 .f32) (h3 : a3.IsWhole) (a4 : Memref sig .tc .vmem S16x11008 .f32) (h4 : a4.IsWhole)
  (a5 : Memref sig .tc .vmem S16x11008 .f32) (h5 : a5.IsWhole) (a6 : Memref sig .tc .vmem S16x11008 .f32) (h6 : a6.IsWhole)
  (a7 : Memref sig .tc .vmem S16x11008 .f32) (h7 : a7.IsWhole) (a8 : Memref sig .tc .vmem S16x11008 .f32) (h8 : a8.IsWhole)
  (a9 : Memref sig .tc .vmem S16x11008 .f32) (h9 : a9.IsWhole) (a10 : Memref sig .tc .vmem S16x11008 .f32) (h10 : a10.IsWhole)
  (a11 : Memref sig .tc .vmem S16x11008 .f32) (h11 : a11.IsWhole) (a12 : Memref sig .tc .vmem S16x11008 .f32) (h12 : a12.IsWhole)
  (a13 : Memref sig .tc .vmem S16x11008 .f32) (h13 : a13.IsWhole) (a14 : Memref sig .tc .vmem S16x11008 .f32) (h14 : a14.IsWhole)
  (a15 : Memref sig .tc .vmem S16x11008 .f32) (h15 : a15.IsWhole) (a16 : Memref sig .tc .vmem S1x1 .f32) (h16 : a16.IsWhole)
  (a17 : Memref sig .tc .vmem S1x1 .f32) (h17 : a17.IsWhole)
  (hc0 : ¬cond0_0 i) (hc1 : ¬cond0_1 i)
  (x0 : Vec F S16x11008 .f32) (x1 : Vec F S16x1 .f32) (x2 x3 x4 x5 x6 x7 : Vec F S16x11008 .f32) (xs0 : Vec F S1x1 .f32)

set_option hygiene false in
local macro "atB(" f:ident ")" : term =>
  `($f c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 xs0)

set_option hygiene false in
local macro "piece_B" cov:ident : tactic =>
  `(tactic| (rw [View.read_writes_eq_canon _ _ _ atB($cov)]
             unfold kernelRun0_B
             dsimp only
             sl_unfold_words
             rw [View.canon_unit_zero hz]
             simp only [View.readAt_eq_ld, h1.read_unread, h2.read_unread, h3.read_unread, h4.read_unread, h5.read_unread,
               h6.read_unread, h7.read_unread, h8.read_unread, h17.read_unread, View.ld_unit_zero (S := S16x11008) hz,
               View.ld_unit_zero (S := S16x1) hz, View.ld_unit_zero (S := S1x1) hz]))

theorem out_B_8 : atB(out0_B_8) = v8 x0 x1 x5 x6 := by
  unfold out0_B_8; piece_B cover0_B_8
theorem out_B_9 : atB(out0_B_9) = v9 x0 x1 x5 x6 := by
  unfold out0_B_9; piece_B cover0_B_9
theorem out_B_10 : atB(out0_B_10) = v10 x0 x1 x2 x3 x5 x6 := by
  unfold out0_B_10; piece_B cover0_B_10
theorem out_B_11 : atB(out0_B_11) = v11 x0 x1 x2 x3 x4 x5 x6 := by
  unfold out0_B_11; piece_B cover0_B_11
theorem out_B_12 : atB(out0_B_12) = v12 x0 x1 x2 x3 x4 x5 x6 := by
  unfold out0_B_12; piece_B cover0_B_12
theorem out_B_13 : atB(out0_B_13) = v13 x0 x1 x2 x3 x4 x5 x6 x7 := by
  unfold out0_B_13; piece_B cover0_B_13
theorem out_B_14 : atB(out0_B_14) = v14 x0 x1 x5 x6 x7 := by
  unfold out0_B_14; piece_B cover0_B_14

/-- At a middle point the accumulator ends at its previous contents plus the block's count. -/
theorem sout_B : atB(sout0_B_0) = k0_pay1 (osc x0 x1 x2 x3 x5 x6) xs0 := by
  unfold sout0_B_0; piece_B scover0_B_0

end CaseB

section CaseC

variable (c : Dev nD) (i : grid0.Coords)
  (a1 : Memref sig .tc .vmem S16x11008 .f32) (h1 : a1.IsWhole) (a2 : Memref sig .tc .vmem S16x1 .f32) (h2 : a2.IsWhole)
  (a3 : Memref sig .tc .vmem S16x11008 .f32) (h3 : a3.IsWhole) (a4 : Memref sig .tc .vmem S16x11008 .f32) (h4 : a4.IsWhole)
  (a5 : Memref sig .tc .vmem S16x11008 .f32) (h5 : a5.IsWhole) (a6 : Memref sig .tc .vmem S16x11008 .f32) (h6 : a6.IsWhole)
  (a7 : Memref sig .tc .vmem S16x11008 .f32) (h7 : a7.IsWhole) (a8 : Memref sig .tc .vmem S16x11008 .f32) (h8 : a8.IsWhole)
  (a9 : Memref sig .tc .vmem S16x11008 .f32) (h9 : a9.IsWhole) (a10 : Memref sig .tc .vmem S16x11008 .f32) (h10 : a10.IsWhole)
  (a11 : Memref sig .tc .vmem S16x11008 .f32) (h11 : a11.IsWhole) (a12 : Memref sig .tc .vmem S16x11008 .f32) (h12 : a12.IsWhole)
  (a13 : Memref sig .tc .vmem S16x11008 .f32) (h13 : a13.IsWhole) (a14 : Memref sig .tc .vmem S16x11008 .f32) (h14 : a14.IsWhole)
  (a15 : Memref sig .tc .vmem S16x11008 .f32) (h15 : a15.IsWhole) (a16 : Memref sig .tc .vmem S1x1 .f32) (h16 : a16.IsWhole)
  (a17 : Memref sig .tc .vmem S1x1 .f32) (h17 : a17.IsWhole)
  (hc0 : ¬cond0_0 i) (hc1 : cond0_1 i)
  (x0 : Vec F S16x11008 .f32) (x1 : Vec F S16x1 .f32) (x2 x3 x4 x5 x6 x7 : Vec F S16x11008 .f32) (xs0 : Vec F S1x1 .f32)

set_option hygiene false in
local macro "atC(" f:ident ")" : term =>
  `($f c i a1 h1 a2 h2 a3 h3 a4 h4 a5 h5 a6 h6 a7 h7 a8 h8 a9 h9 a10 h10 a11 h11 a12 h12 a13 h13 a14 h14 a15 h15 a16 h16 a17 h17 hc0 hc1 x0 x1 x2 x3 x4 x5 x6 x7 xs0)

set_option hygiene false in
local macro "piece_C" cov:ident : tactic =>
  `(tactic| (rw [View.read_writes_eq_canon _ _ _ atC($cov)]
             unfold kernelRun0_C
             dsimp only
             sl_unfold_words
             rw [View.canon_unit_zero hz]
             simp only [View.readAt_eq_ld, h1.read_unread, h2.read_unread, h3.read_unread, h4.read_unread, h5.read_unread,
               h6.read_unread, h7.read_unread, h8.read_unread, h17.read_unread, View.ld_unit_zero (S := S16x11008) hz,
               View.ld_unit_zero (S := S16x1) hz, View.ld_unit_zero (S := S1x1) hz]))

theorem out_C_8 : atC(out0_C_8) = v8 x0 x1 x5 x6 := by
  unfold out0_C_8; piece_C cover0_C_8
theorem out_C_9 : atC(out0_C_9) = v9 x0 x1 x5 x6 := by
  unfold out0_C_9; piece_C cover0_C_9
theorem out_C_10 : atC(out0_C_10) = v10 x0 x1 x2 x3 x5 x6 := by
  unfold out0_C_10; piece_C cover0_C_10
theorem out_C_11 : atC(out0_C_11) = v11 x0 x1 x2 x3 x4 x5 x6 := by
  unfold out0_C_11; piece_C cover0_C_11
theorem out_C_12 : atC(out0_C_12) = v12 x0 x1 x2 x3 x4 x5 x6 := by
  unfold out0_C_12; piece_C cover0_C_12
theorem out_C_13 : atC(out0_C_13) = v13 x0 x1 x2 x3 x4 x5 x6 x7 := by
  unfold out0_C_13; piece_C cover0_C_13
theorem out_C_14 : atC(out0_C_14) = v14 x0 x1 x5 x6 x7 := by
  unfold out0_C_14; piece_C cover0_C_14

/-- At the last point the accumulator ends at its previous contents plus the block's count, -/
theorem sout_C : atC(sout0_C_0) = k0_pay1 (osc x0 x1 x2 x3 x5 x6) xs0 := by
  unfold sout0_C_0; piece_C scover0_C_0

/-- and the one-word output block is a copy of it. -/
theorem out_C_15 : atC(out0_C_15) = k0_pay1 (osc x0 x1 x2 x3 x5 x6) xs0 := by
  unfold out0_C_15
  rw [View.read_writes_eq_canon _ _ _ atC(cover0_C_15)]
  unfold kernelRun0_C
  dsimp only
  sl_unfold_words
  rw [View.canon_unit_zero hz, View.readCov_unit_zero (S := S1x1) _ hz]
  simp only [View.readAt_eq_ld, h1.read_unread, h2.read_unread, h3.read_unread, h4.read_unread, h5.read_unread,
               h6.read_unread, h7.read_unread, h8.read_unread, h17.read_unread, View.ld_unit_zero (S := S16x11008) hz,
               View.ld_unit_zero (S := S16x1) hz, View.ld_unit_zero (S := S1x1) hz]

end CaseC

end Cert.KernelIdeal.Pieces

end
-- ==== Proof.Point.lean ====
import proofs.«145237_j46729244180908_1_alg».proof.Proof.FramePA
import proofs.«145237_j46729244180908_1_alg».proof.Proof.Pieces

/-!
# What each grid point leaves, whichever branch it takes

The body branches only on "first point" (reset the accumulator) and "last point" (copy it out).  In all three
branches the seven large blocks get the same pointwise expressions of the point's input blocks, and the
accumulator gets its previous contents (the fresh zero at the first point) plus the block's count.
-/

noncomputable section

namespace Cert.KernelIdeal.Point

open Idealize.ShloMosaic Idealize.ShloMosaic.TcCoe Idealize.SL.Sem Cert.KernelIdeal Cert.KernelIdeal.Gen Cert.KernelIdeal.GenP
open Cert.KernelIdeal.Pieces

variable {F : FTy → Type} [FloatOps F]
variable (m : (ℓ : Loc nD τ sig) → Buf (Elt F) ℓ)

/-- The point's oscillation indicator block. -/
abbrev oscAt (c : Dev nD) (t : Fin cfg0.N) : FVec F S16x11008 .f32 :=
  osc (iblk m c 0 t) (iblk m c 1 t) (iblk m c 2 t) (iblk m c 3 t) (iblk m c 5 t) (iblk m c 6 t)

/-- The point's seven stored blocks. -/
abbrev w8At (c : Dev nD) (t : Fin cfg0.N) : FVec F S16x11008 .f32 := v8 (iblk m c 0 t) (iblk m c 1 t) (iblk m c 5 t) (iblk m c 6 t)
abbrev w9At (c : Dev nD) (t : Fin cfg0.N) : Vec F S16x11008 .f32 := v9 (iblk m c 0 t) (iblk m c 1 t) (iblk m c 5 t) (iblk m c 6 t)
abbrev w10At (c : Dev nD) (t : Fin cfg0.N) : FVec F S16x11008 .f32 := v10 (iblk m c 0 t) (iblk m c 1 t) (iblk m c 2 t) (iblk m c 3 t) (iblk m c 5 t) (iblk m c 6 t)
abbrev w11At (c : Dev nD) (t : Fin cfg0.N) : FVec F S16x11008 .f32 := v11 (iblk m c 0 t) (iblk m c 1 t) (iblk m c 2 t) (iblk m c 3 t) (iblk m c 4 t) (iblk m c 5 t) (iblk m c 6 t)
abbrev w12At (c : Dev nD) (t : Fin cfg0.N) : FVec F S16x11008 .f32 := v12 (iblk m c 0 t) (iblk m c 1 t) (iblk m c 2 t) (iblk m c 3 t) (iblk m c 4 t) (iblk m c 5 t) (iblk m c 6 t)
abbrev w13At (c : Dev nD) (t : Fin cfg0.N) : FVec F S16x11008 .f32 := v13 (iblk m c 0 t) (iblk m c 1 t) (iblk m c 2 t) (iblk m c 3 t) (iblk m c 4 t) (iblk m c 5 t) (iblk m c 6 t) (iblk m c 7 t)
abbrev w14At (c : Dev nD) (t : Fin cfg0.N) : FVec F S16x11008 .f32 := v14 (iblk m c 0 t) (iblk m c 1 t) (iblk m c 5 t) (iblk m c 6 t) (iblk m c 7 t)

section

variable (c : Dev nD) (t : Fin cfg0.N)

set_option hygiene false in
local macro "ptA(" f:ident ")" : term =>
  `($f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) ((hcond0_0 t).mpr h0) (fun h => h1 ((hcond0_1 t).mp h)) (iblk m c 0 t) (iblk m c 1 t) (iblk m c 2 t) (iblk m c 3 t) (iblk m c 4 t) (iblk m c 5 t) (iblk m c 6 t) (iblk m c 7 t))

set_option hygiene false in
local macro "ptB(" f:ident ")" : term =>
  `($f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) (fun h => h1 ((hcond0_1 t).mp h)) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2)

set_option hygiene false in
local macro "ptC(" f:ident ")" : term =>
  `($f c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) scM0_0 (Memref.isWhole_whole _) (fun h => h0 ((hcond0_0 t).mp h)) ((hcond0_1 t).mpr h1) (iblk m c 0 t) (iblk m c 1 t) (iblk m c 2 t) (iblk m c 3 t) (iblk m c 4 t) (iblk m c 5 t) (iblk m c 6 t) (iblk m c 7 t) (outsAt0 m c (t.val - 1) (Nat.lt_of_le_of_lt (Nat.sub_le _ _) t.isLt)).2.2.2.2.2.2.2.2)

/-- Output block 0 after point `t`. -/
theorem outs_8 :
    (outsAt0 m c t.val t.isLt).1 = w8At m c t := by
  have hN : t.val < 256 := lt_of_lt_of_eq t.isLt (show cfg0.N = 256 from N_0)
  by_cases h0 : t.val % 256 = 0
  · have h1 : ¬t.val % 256 = 255 := by omega
    rw [outsAt0_A m c t h0 h1]
    dsimp only
    exact ptA(out_A_8)
  · by_cases h1 : t.val % 256 = 255
    · rw [outsAt0_C m c t h0 h1]
      dsimp only
      exact ptC(out_C_8)
    · rw [outsAt0_B m c t h0 h1]
      dsimp only
      exact ptB(out_B_8)

/-- Output block 1 after point `t`. -/
theorem outs_9 :
    (outsAt0 m c t.val t.isLt).2.1 = w9At m c t := by
  have hN : t.val < 256 := lt_of_lt_of_eq t.isLt (show cfg0.N = 256 from N_0)
  by_cases h0 : t.val % 256 = 0
  · have h1 : ¬t.val % 256 = 255 := by omega
    rw [outsAt0_A m c t h0 h1]
    dsimp only
    exact ptA(out_A_9)
  · by_cases h1 : t.val % 256 = 255
    · rw [outsAt0_C m c t h0 h1]
      dsimp only
      exact ptC(out_C_9)
    · rw [outsAt0_B m c t h0 h1]
      dsimp only
      exact ptB(out_B_9)

/-- Output block 2 after point `t`. -/
theorem outs_10 :
    (outsAt0 m c t.val t.isLt).2.2.1 = w10At m c t := by
  have hN : t.val < 256 := lt_of_lt_of_eq t.isLt (show cfg0.N = 256 from N_0)
  by_cases h0 : t.val % 256 = 0
  · have h1 : ¬t.val % 256 = 255 := by omega
    rw [outsAt0_A m c t h0 h1]
    dsimp only
    exact ptA(out_A_10)
  · by_cases h1 : t.val % 256 = 255
    · rw [outsAt0_C m c t h0 h1]
      dsimp only
      exact ptC(out_C_10)
    · rw [outsAt0_B m c t h0 h1]
      dsimp only
      exact ptB(out_B_10)

/-- Output block 3 after point `t`. -/
theorem outs_11 :
    (outsAt0 m c t.val t.isLt).2.2.2.1 = w11At m c t := by
  have hN : t.val < 256 := lt_of_lt_of_eq t.isLt (show cfg0.N = 256 from N_0)
  by_cases h0 : t.val % 256 = 0
  · have h1 : ¬t.val % 256 = 255 := by omega
    rw [outsAt0_A m c t h0 h1]
    dsimp only
    exact ptA(out_A_11)
  · by_cases h1 : t.val % 256 = 255
    · rw [outsAt0_C m c t h0 h1]
      dsimp only
      exact ptC(out_C_11)
    · rw [outsAt0_B m c t h0 h1]
      dsimp only
      exact ptB(out_B_11)

/-- Output block 4 after point `t`. -/
theorem outs_12 :
    (outsAt0 m c t.val t.isLt).2.2.2.2.1 = w12At m c t := by
  have hN : t.val < 256 := lt_of_lt_of_eq t.isLt (show cfg0.N = 256 from N_0)
  by_cases h0 : t.val % 256 = 0
  · have h1 : ¬t.val % 256 = 255 := by omega
    rw [outsAt0_A m c t h0 h1]
    dsimp only
    exact ptA(out_A_12)
  · by_cases h1 : t.val % 256 = 255
    · rw [outsAt0_C m c t h0 h1]
      dsimp only
      exact ptC(out_C_12)
    · rw [outsAt0_B m c t h0 h1]
      dsimp only
      exact ptB(out_B_12)

/-- Output block 5 after point `t`. -/
theorem outs_13 :
    (outsAt0 m c t.val t.isLt).2.2.2.2.2.1 = w13At m c t := by
  have hN : t.val < 256 := lt_of_lt_of_eq t.isLt (show cfg0.N = 256 from N_0)
  by_cases h0 : t.val % 256 = 0
  · have h1 : ¬t.val % 256 = 255 := by omega
    rw [outsAt0_A m c t h0 h1]
    dsimp only
    exact ptA(out_A_13)
  · by_cases h1 : t.val % 256 = 255
    · rw [outsAt0_C m c t h0 h1]
      dsimp only
      exact ptC(out_C_13)
    · rw [outsAt0_B m c t h0 h1]
      dsimp only
      exact ptB(out_B_13)

/-- Output block 6 after point `t`. -/
theorem outs_14 :
    (outsAt0 m c t.val t.isLt).2.2.2.2.2.2.1 = w14At m c t := by
  have hN : t.val < 256 := lt_of_lt_of_eq t.isLt (show cfg0.N = 256 from N_0)
  by_cases h0 : t.val % 256 = 0
  · have h1 : ¬t.val % 256 = 255 := by omega
    rw [outsAt0_A m c t h0 h1]
    dsimp only
    exact ptA(out_A_14)
  · by_cases h1 : t.val % 256 = 255
    · rw [outsAt0_C m c t h0 h1]
      dsimp only
      exact ptC(out_C_14)
    · rw [outsAt0_B m c t h0 h1]
      dsimp only
      exact ptB(out_B_14)

/-- The accumulator after the first point. -/
theorem acc_first (h0 : t.val % 256 = 0) :
    (outsAt0 m c t.val t.isLt).2.2.2.2.2.2.2.2 = k0_pay1 (oscAt m c t) (k0_pay2 (F := F)) := by
  have hN : t.val < 256 := lt_of_lt_of_eq t.isLt (show cfg0.N = 256 from N_0)
  have h1 : ¬t.val % 256 = 255 := by omega
  rw [outsAt0_A m c t h0 h1]
  exact ptA(sout_A)

/-- The accumulator after a later point: what the point before left, plus this block's count. -/
theorem acc_later (h0 : ¬t.val % 256 = 0) :
    (outsAt0 m c t.val t.isLt).2.2.2.2.2.2.2.2 = k0_pay1 (oscAt m c t) (outsAt0 m c (t.val - 1) (Nat.lt_of_le_of_lt (Nat.sub_le _ _) t.isLt)).2.2.2.2.2.2.2.2 := by
  by_cases h1 : t.val % 256 = 255
  · rw [outsAt0_C m c t h0 h1]
    exact ptC(sout_C)
  · rw [outsAt0_B m c t h0 h1]
    exact ptB(sout_B)

/-- At the last point the one-word output block is the accumulator. -/
theorem out15_last (h1 : t.val % 256 = 255) :
    (outsAt0 m c t.val t.isLt).2.2.2.2.2.2.2.1 = (outsAt0 m c t.val t.isLt).2.2.2.2.2.2.2.2 := by
  have h0 : ¬t.val % 256 = 0 := by omega
  rw [outsAt0_C m c t h0 h1]
  exact (ptC(out_C_15)).trans (ptC(sout_C)).symm

end

end Cert.KernelIdeal.Point

end
-- ==== Proof.Spec.lean ====
import Idealize.ShloMosaic.PureOps.Ideal
import Idealize.ShloMosaic.Lib.ValueIdx

/-!
# The quantiser step as one function of the argument arrays

Every result of the step is an entrywise function of the eight argument arrays (plus one total count).
With `σ = max(s_a, ε)` the row's scale:

* `XI a b`   the integer code: the frozen code where the entry is frozen, else `round(clamp(x / σ, -8, 7))`;
* `D a b`    the rounded change of code `round(pxi - XI)`, `SG` its sign, `OSC` the indicator
  "the previous direction times the new one is -1";
* `E a b`    the moving average `0.01·OSC + 0.99·eo`, `W` the bit `E > 0.01`;
* the results: `XI·σ`, `XI`, the direction kept unless the code moved, `E`, the number of oscillating
  entries, the frozen bit joined with `W`, the frozen code refreshed where `W`, and `0.01·XI + 0.99·exi`.

The constants are the binary values of the printed words; nothing below evaluates them.
-/

noncomputable section

namespace Cert.Spec

open Idealize.ShloMosaic Idealize.ShloMosaic.ValueIdx

/-- The shape of the seven large arrays, and of the scale vector. -/
abbrev SA : Shape := ⟨2, ![4096, 11008]⟩
abbrev SS : Shape := ⟨1, ![4096]⟩

def cEps : EReal := Ideal.ofBits .f32 0x3727C5AC#32
def cM8 : EReal := Ideal.ofBits .f32 0xC1000000#32
def c7 : EReal := Ideal.ofBits .f32 0x40E00000#32
def cHalf : EReal := Ideal.ofBits .f32 0x3F000000#32
def cZero : EReal := Ideal.ofBits .f32 0x00000000#32
def cM1 : EReal := Ideal.ofBits .f32 0xBF800000#32
def cOne : EReal := Ideal.ofBits .f32 0x3F800000#32
def cMom : EReal := Ideal.ofBits .f32 0x3C23D70A#32
def cKeep : EReal := Ideal.ofBits .f32 0x3F7D70A4#32

/-- Rounding to the nearest integer, ties to even; the infinities fixed. -/
def rnd (x : EReal) : EReal := Ideal.liftRound Ideal.roundHalfEven x

/-- The row scale `max(s, ε)`. -/
def scale (s : EReal) : EReal := max s cEps

/-- `round(clamp(x / σ, -8, 7))`. -/
def quant (x s : EReal) : EReal := rnd (min c7 (max cM8 (Ideal.div x (scale s))))

/-- The sign of a value: `±1` off zero, the value itself (zero) at zero. -/
def sgn (d : EReal) : EReal :=
  Scalar.select (Ideal.cmp .ogt (max d (-d)) cZero) (Scalar.select (Ideal.cmp .olt d cZero) cM1 cOne) d

/-- A bit as the number 0 or 1. -/
def bitNum (w : BitVec 1) : EReal := ((w.toNat : ℝ) : EReal)

section Arrays

variable (x : SA.Idx → EReal) (s : SS.Idx → EReal) (pxi psd eo : SA.Idx → EReal)
  (fz : SA.Idx → BitVec 1) (fxi exi : SA.Idx → EReal)

def XI (a : Fin 4096) (b : Fin 11008) : EReal :=
  Scalar.select (Ideal.cmp .ogt (bitNum (fz (ix2 a b))) cHalf) (fxi (ix2 a b)) (quant (x (ix2 a b)) (s (ix1 a)))

def D (a : Fin 4096) (b : Fin 11008) : EReal := rnd (pxi (ix2 a b) - XI x s fz fxi a b)

def SG (a : Fin 4096) (b : Fin 11008) : EReal := sgn (D x s pxi fz fxi a b)

def OSC (a : Fin 4096) (b : Fin 11008) : EReal :=
  Scalar.select (Ideal.cmp .oeq (psd (ix2 a b) * SG x s pxi fz fxi a b) cM1) cOne cZero

def E (a : Fin 4096) (b : Fin 11008) : EReal := cMom * OSC x s pxi psd fz fxi a b + cKeep * eo (ix2 a b)

def W (a : Fin 4096) (b : Fin 11008) : BitVec 1 := Ideal.cmp .ogt (E x s pxi psd eo fz fxi a b) cMom

/-- The eight results, in the order the step returns them. -/
def R0 (a : Fin 4096) (b : Fin 11008) : EReal := XI x s fz fxi a b * scale (s (ix1 a))
def R1 (a : Fin 4096) (b : Fin 11008) : EReal := XI x s fz fxi a b
def R2 (a : Fin 4096) (b : Fin 11008) : EReal :=
  Scalar.select (Ideal.cmp .one (D x s pxi fz fxi a b) cZero) (SG x s pxi fz fxi a b) (psd (ix2 a b))
def R3 (a : Fin 4096) (b : Fin 11008) : EReal := E x s pxi psd eo fz fxi a b
def R4 : EReal := ∑ a : Fin 4096, ∑ b : Fin 11008, OSC x s pxi psd fz fxi a b
def R5 (a : Fin 4096) (b : Fin 11008) : BitVec 1 :=
  Ideal.cmp .ogt (max (bitNum (fz (ix2 a b))) ((((W x s pxi psd eo fz fxi a b).setWidth 32).toInt : ℝ) : EReal)) cHalf
def R6 (a : Fin 4096) (b : Fin 11008) : EReal :=
  Scalar.select (W x s pxi psd eo fz fxi a b) (rnd (exi (ix2 a b))) (fxi (ix2 a b))
def R7 (a : Fin 4096) (b : Fin 11008) : EReal := cMom * XI x s fz fxi a b + cKeep * exi (ix2 a b)

end Arrays

/-- A function of the two coordinates as an array. -/
def arr2 {α : Type} (f : Fin 4096 → Fin 11008 → α) : SA.Idx → α := fun i => f (i 0) (i 1)

theorem arr2_ix2 {α : Type} (f : Fin 4096 → Fin 11008 → α) (a : Fin 4096) (b : Fin 11008) :
    arr2 f (ix2 a b) = f a b := rfl

end Cert.Spec

end
-- ==== Proof.PayIdx.lean ====
import proofs.«145237_j46729244180908_1_alg».proof.Proof.Gen.KernelIdeal.Skeleton
import proofs.«145237_j46729244180908_1_alg».proof.Proof.Spec
import Idealize.ShloMosaic.Lib.Pipeline.Value
import Idealize.ShloMosaic.Lib.ValueIdx

/-!
# The body's arithmetic, entry by entry

One grid point works on a block of 16 rows.  Entry `(p, q)` of each stored block depends only on entry
`(p, q)` of the loaded blocks and on the scale of row `p`.  When the loaded blocks are the rows
`16·t + p` of the argument arrays, each stored entry is the corresponding entry of the step's result
(`Cert.Spec`): the block arithmetic and the whole-array arithmetic are one and the same scalar formula.
-/

noncomputable section

namespace Cert.PayIdx

open Idealize.ShloMosaic Idealize.ShloMosaic.ValueIdx Cert.KernelIdeal Cert.KernelIdeal.Gen Cert.Spec

/-- The per-row scale broadcast along the row: entry `(p, q)` reads the column vector at `(p, 0)`. -/
theorem colBroadcast_apply (v : FVec Ideal S16x1 .f32) (p : Fin 16) (q : Fin 11008) :
    broadcastTo S16x11008 v broadcasts_S16x1_S16x11008 (ix2 p q) = v (ix2 p (0 : Fin 1)) := by
  refine broadcastTo_apply v broadcasts_S16x1_S16x11008 (ix2 p q) (ix2 p (0 : Fin 1)) fun ax => ?_
  match ax with
  | ⟨0, _⟩ => rfl
  | ⟨1, _⟩ => rfl

section Entries

variable (x0 : Vec Ideal S16x11008 .f32) (x1 : Vec Ideal S16x1 .f32) (x2 x3 x4 x5 x6 x7 : Vec Ideal S16x11008 .f32)
variable (X : SA.Idx → EReal) (S : SS.Idx → EReal) (PXI PSD EO : SA.Idx → EReal) (FZ : SA.Idx → BitVec 1)
  (FXI EXI : SA.Idx → EReal)
variable (p : Fin 16) (q : Fin 11008) (a : Fin 4096)

/-- The scale of row `p`. -/
theorem pay3_idx (h1 : x1 (ix2 p (0 : Fin 1)) = S (ix1 a)) :
    k0_pay3 (F := Ideal) x1 (ix2 p q) = scale (S (ix1 a)) := by
  unfold k0_pay3
  simp only [shapeCast_self]
  show max (broadcastTo S16x11008 x1 broadcasts_S16x1_S16x11008 (ix2 p q)) _ = _
  rw [colBroadcast_apply, h1]
  rfl

/-- The integer code. -/
theorem pay4_idx (h0 : x0 (ix2 p q) = X (ix2 a q)) (h1 : x1 (ix2 p (0 : Fin 1)) = S (ix1 a))
    (h5 : x5 (ix2 p q) = bitNum (FZ (ix2 a q))) (h6 : x6 (ix2 p q) = FXI (ix2 a q)) :
    k0_pay4 (F := Ideal) x1 x0 x5 x6 (ix2 p q) = XI X S FZ FXI a q := by
  unfold k0_pay4 XI quant
  simp only [shapeCast_self]
  show Scalar.select (Ideal.cmp .ogt (x5 (ix2 p q)) _) (x6 (ix2 p q))
    (rnd (min _ (max _ (Ideal.div (x0 (ix2 p q)) (k0_pay3 (F := Ideal) x1 (ix2 p q)))))) = _
  rw [pay3_idx x1 S p q a h1, h0, h5, h6]
  rfl

/-- The rounded change of code. -/
theorem pay5_idx (h0 : x0 (ix2 p q) = X (ix2 a q)) (h1 : x1 (ix2 p (0 : Fin 1)) = S (ix1 a))
    (h2 : x2 (ix2 p q) = PXI (ix2 a q))
    (h5 : x5 (ix2 p q) = bitNum (FZ (ix2 a q))) (h6 : x6 (ix2 p q) = FXI (ix2 a q)) :
    k0_pay5 (F := Ideal) x1 x0 x5 x6 x2 (ix2 p q) = D X S PXI FZ FXI a q := by
  show rnd (x2 (ix2 p q) - k0_pay4 (F := Ideal) x1 x0 x5 x6 (ix2 p q)) = _
  rw [pay4_idx x0 x1 x5 x6 X S FZ FXI p q a h0 h1 h5 h6, h2]
  rfl

/-- Its sign. -/
theorem pay6_idx (h0 : x0 (ix2 p q) = X (ix2 a q)) (h1 : x1 (ix2 p (0 : Fin 1)) = S (ix1 a))
    (h2 : x2 (ix2 p q) = PXI (ix2 a q))
    (h5 : x5 (ix2 p q) = bitNum (FZ (ix2 a q))) (h6 : x6 (ix2 p q) = FXI (ix2 a q)) :
    k0_pay6 (F := Ideal) x1 x0 x5 x6 x2 (ix2 p q) = SG X S PXI FZ FXI a q := by
  show sgn (k0_pay5 (F := Ideal) x1 x0 x5 x6 x2 (ix2 p q)) = _
  rw [pay5_idx x0 x1 x2 x5 x6 X S PXI FZ FXI p q a h0 h1 h2 h5 h6]
  rfl

/-- Whether the code moved. -/
theorem pay7_idx (h0 : x0 (ix2 p q) = X (ix2 a q)) (h1 : x1 (ix2 p (0 : Fin 1)) = S (ix1 a))
    (h2 : x2 (ix2 p q) = PXI (ix2 a q))
    (h5 : x5 (ix2 p q) = bitNum (FZ (ix2 a q))) (h6 : x6 (ix2 p q) = FXI (ix2 a q)) :
    k0_pay7 (F := Ideal) x1 x0 x5 x6 x2 (ix2 p q) = Ideal.cmp .one (D X S PXI FZ FXI a q) cZero := by
  show Ideal.cmp .one (k0_pay5 (F := Ideal) x1 x0 x5 x6 x2 (ix2 p q)) cZero = _
  rw [pay5_idx x0 x1 x2 x5 x6 X S PXI FZ FXI p q a h0 h1 h2 h5 h6]

/-- The oscillation indicator. -/
theorem pay9_idx (h0 : x0 (ix2 p q) = X (ix2 a q)) (h1 : x1 (ix2 p (0 : Fin 1)) = S (ix1 a))
    (h2 : x2 (ix2 p q) = PXI (ix2 a q)) (h3 : x3 (ix2 p q) = PSD (ix2 a q))
    (h5 : x5 (ix2 p q) = bitNum (FZ (ix2 a q))) (h6 : x6 (ix2 p q) = FXI (ix2 a q)) :
    k0_pay9 (F := Ideal) (k0_pay8 (F := Ideal) x1 x0 x5 x6 x2 x3) (ix2 p q) = OSC X S PXI PSD FZ FXI a q := by
  show Scalar.select (Ideal.cmp .oeq (x3 (ix2 p q) * k0_pay6 (F := Ideal) x1 x0 x5 x6 x2 (ix2 p q)) cM1) cOne cZero = _
  rw [pay6_idx x0 x1 x2 x5 x6 X S PXI FZ FXI p q a h0 h1 h2 h5 h6, h3]
  rfl

/-- The moving average of the indicator. -/
theorem pay10_idx (h0 : x0 (ix2 p q) = X (ix2 a q)) (h1 : x1 (ix2 p (0 : Fin 1)) = S (ix1 a))
    (h2 : x2 (ix2 p q) = PXI (ix2 a q)) (h3 : x3 (ix2 p q) = PSD (ix2 a q)) (h4 : x4 (ix2 p q) = EO (ix2 a q))
    (h5 : x5 (ix2 p q) = bitNum (FZ (ix2 a q))) (h6 : x6 (ix2 p q) = FXI (ix2 a q)) :
    k0_pay10 (F := Ideal) (k0_pay8 (F := Ideal) x1 x0 x5 x6 x2 x3) x4 (ix2 p q) = E X S PXI PSD EO FZ FXI a q := by
  show cMom * k0_pay9 (F := Ideal) (k0_pay8 (F := Ideal) x1 x0 x5 x6 x2 x3) (ix2 p q) + cKeep * x4 (ix2 p q) = _
  rw [pay9_idx x0 x1 x2 x3 x5 x6 X S PXI PSD FZ FXI p q a h0 h1 h2 h3 h5 h6, h4]
  rfl

/-- The direction, kept unless the code moved. -/
theorem pay11_idx (h0 : x0 (ix2 p q) = X (ix2 a q)) (h1 : x1 (ix2 p (0 : Fin 1)) = S (ix1 a))
    (h2 : x2 (ix2 p q) = PXI (ix2 a q)) (h3 : x3 (ix2 p q) = PSD (ix2 a q))
    (h5 : x5 (ix2 p q) = bitNum (FZ (ix2 a q))) (h6 : x6 (ix2 p q) = FXI (ix2 a q)) :
    k0_pay11 (F := Ideal) (k0_pay6 (F := Ideal) x1 x0 x5 x6 x2) (k0_pay7 (F := Ideal) x1 x0 x5 x6 x2) x3 (ix2 p q)
      = R2 X S PXI PSD FZ FXI a q := by
  show Scalar.select (k0_pay7 (F := Ideal) x1 x0 x5 x6 x2 (ix2 p q)) (k0_pay6 (F := Ideal) x1 x0 x5 x6 x2 (ix2 p q))
    (x3 (ix2 p q)) = _
  rw [pay7_idx x0 x1 x2 x5 x6 X S PXI FZ FXI p q a h0 h1 h2 h5 h6,
    pay6_idx x0 x1 x2 x5 x6 X S PXI FZ FXI p q a h0 h1 h2 h5 h6, h3]
  rfl

/-- The freeze bit. -/
theorem pay12_idx (h0 : x0 (ix2 p q) = X (ix2 a q)) (h1 : x1 (ix2 p (0 : Fin 1)) = S (ix1 a))
    (h2 : x2 (ix2 p q) = PXI (ix2 a q)) (h3 : x3 (ix2 p q) = PSD (ix2 a q)) (h4 : x4 (ix2 p q) = EO (ix2 a q))
    (h5 : x5 (ix2 p q) = bitNum (FZ (ix2 a q))) (h6 : x6 (ix2 p q) = FXI (ix2 a q)) :
    k0_pay12 (F := Ideal) (k0_pay8 (F := Ideal) x1 x0 x5 x6 x2 x3) x4 (ix2 p q) = W X S PXI PSD EO FZ FXI a q := by
  show Ideal.cmp .ogt (k0_pay10 (F := Ideal) (k0_pay8 (F := Ideal) x1 x0 x5 x6 x2 x3) x4 (ix2 p q)) cMom = _
  rw [pay10_idx x0 x1 x2 x3 x4 x5 x6 X S PXI PSD EO FZ FXI p q a h0 h1 h2 h3 h4 h5 h6]
  rfl

/-- The frozen flag as a number, joined with the freeze bit. -/
theorem pay13_idx (h0 : x0 (ix2 p q) = X (ix2 a q)) (h1 : x1 (ix2 p (0 : Fin 1)) = S (ix1 a))
    (h2 : x2 (ix2 p q) = PXI (ix2 a q)) (h3 : x3 (ix2 p q) = PSD (ix2 a q)) (h4 : x4 (ix2 p q) = EO (ix2 a q))
    (h5 : x5 (ix2 p q) = bitNum (FZ (ix2 a q))) (h6 : x6 (ix2 p q) = FXI (ix2 a q)) :
    k0_pay13 (F := Ideal) (k0_pay8 (F := Ideal) x1 x0 x5 x6 x2 x3) x4 x5 (ix2 p q)
      = max (bitNum (FZ (ix2 a q))) (((((W X S PXI PSD EO FZ FXI a q).setWidth 32).toInt : ℝ)) : EReal) := by
  unfold k0_pay13
  simp only [shapeCast_self]
  show max (x5 (ix2 p q)) (((((k0_pay12 (F := Ideal) (k0_pay8 (F := Ideal) x1 x0 x5 x6 x2 x3) x4 (ix2 p q)).setWidth 32).toInt : ℝ)) : EReal) = _
  rw [pay12_idx x0 x1 x2 x3 x4 x5 x6 X S PXI PSD EO FZ FXI p q a h0 h1 h2 h3 h4 h5 h6, h5]

/-- The frozen code, refreshed where the freeze bit is set. -/
theorem pay14_idx (h0 : x0 (ix2 p q) = X (ix2 a q)) (h1 : x1 (ix2 p (0 : Fin 1)) = S (ix1 a))
    (h2 : x2 (ix2 p q) = PXI (ix2 a q)) (h3 : x3 (ix2 p q) = PSD (ix2 a q)) (h4 : x4 (ix2 p q) = EO (ix2 a q))
    (h5 : x5 (ix2 p q) = bitNum (FZ (ix2 a q))) (h6 : x6 (ix2 p q) = FXI (ix2 a q)) (h7 : x7 (ix2 p q) = EXI (ix2 a q)) :
    k0_pay14 (F := Ideal) (k0_pay8 (F := Ideal) x1 x0 x5 x6 x2 x3) x4 x7 x6 (ix2 p q)
      = R6 X S PXI PSD EO FZ FXI EXI a q := by
  show Scalar.select (k0_pay12 (F := Ideal) (k0_pay8 (F := Ideal) x1 x0 x5 x6 x2 x3) x4 (ix2 p q)) (rnd (x7 (ix2 p q)))
    (x6 (ix2 p q)) = _
  rw [pay12_idx x0 x1 x2 x3 x4 x5 x6 X S PXI PSD EO FZ FXI p q a h0 h1 h2 h3 h4 h5 h6, h7, h6]
  rfl

/-- The moving average of the code. -/
theorem pay15_idx (h0 : x0 (ix2 p q) = X (ix2 a q)) (h1 : x1 (ix2 p (0 : Fin 1)) = S (ix1 a))
    (h5 : x5 (ix2 p q) = bitNum (FZ (ix2 a q))) (h6 : x6 (ix2 p q) = FXI (ix2 a q)) (h7 : x7 (ix2 p q) = EXI (ix2 a q)) :
    k0_pay15 (F := Ideal) (k0_pay4 (F := Ideal) x1 x0 x5 x6) x7 (ix2 p q) = R7 X S FZ FXI EXI a q := by
  show cMom * k0_pay4 (F := Ideal) x1 x0 x5 x6 (ix2 p q) + cKeep * x7 (ix2 p q) = _
  rw [pay4_idx x0 x1 x5 x6 X S FZ FXI p q a h0 h1 h5 h6, h7]
  rfl

/-- The dequantised value. -/
theorem pay16_idx (h0 : x0 (ix2 p q) = X (ix2 a q)) (h1 : x1 (ix2 p (0 : Fin 1)) = S (ix1 a))
    (h5 : x5 (ix2 p q) = bitNum (FZ (ix2 a q))) (h6 : x6 (ix2 p q) = FXI (ix2 a q)) :
    k0_pay16 (F := Ideal) (k0_pay3 (F := Ideal) x1) (k0_pay4 (F := Ideal) x1 x0 x5 x6) (ix2 p q) = R0 X S FZ FXI a q := by
  show k0_pay4 (F := Ideal) x1 x0 x5 x6 (ix2 p q) * k0_pay3 (F := Ideal) x1 (ix2 p q) = _
  rw [pay4_idx x0 x1 x5 x6 X S FZ FXI p q a h0 h1 h5 h6, pay3_idx x1 S p q a h1]
  rfl

end Entries

end Cert.PayIdx

end
-- ==== Proof.Blocks.lean ====
import proofs.«145237_j46729244180908_1_alg».proof.Proof.FramePA
import Idealize.ShloMosaic.Lib.Pipeline.Value
import Idealize.ShloMosaic.Lib.ValueIdx
import Idealize.ShloMosaic.Lib.StableHlo.Run

/-!
# The blocks the grid points read

Grid point `t` (of 256) sees rows `16·t … 16·t + 15` of each large array: entry `(p, q)` of its block is entry
`(16·t + p, q)` of the array as the region finds it.  The scale vector reaches the kernel reshaped to a column,
and the frozen flags converted to numbers; both are read back here entry by entry.
-/

noncomputable section

namespace Cert.KernelIdeal.Blocks

open Idealize.ShloMosaic Idealize.ShloMosaic.TcCoe Idealize.ShloMosaic.ValueIdx Idealize.SL.Sem
open Cert.KernelIdeal Cert.KernelIdeal.Gen Cert.KernelIdeal.GenP

variable {F : FTy → Type} [FloatOps F]
variable (m : (ℓ : Loc nD τ sig) → Buf (Elt F) ℓ)

/-- Every row-block window sits at block row `t`, block column `0`, at point `t`; the one-word window stays put. -/
theorem idx_facts : ∀ t : Fin cfg0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = t.val ∧ win0_2.index t (1 : Fin 2) = 0)
    ∧ (win0_3.index t (0 : Fin 2) = t.val ∧ win0_3.index t (1 : Fin 2) = 0)
    ∧ (win0_4.index t (0 : Fin 2) = t.val ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_7.index t (0 : Fin 2) = t.val ∧ win0_7.index t (1 : Fin 2) = 0) :=
  (by decide +kernel : ∀ t : Fin grid0.N, _)

theorem out_idx_facts : ∀ t : Fin cfg0.N,
    (win0_8.index t (0 : Fin 2) = t.val ∧ win0_8.index t (1 : Fin 2) = 0)
    ∧ (win0_9.index t (0 : Fin 2) = t.val ∧ win0_9.index t (1 : Fin 2) = 0)
    ∧ (win0_10.index t (0 : Fin 2) = t.val ∧ win0_10.index t (1 : Fin 2) = 0)
    ∧ (win0_11.index t (0 : Fin 2) = t.val ∧ win0_11.index t (1 : Fin 2) = 0)
    ∧ (win0_12.index t (0 : Fin 2) = t.val ∧ win0_12.index t (1 : Fin 2) = 0)
    ∧ (win0_13.index t (0 : Fin 2) = t.val ∧ win0_13.index t (1 : Fin 2) = 0)
    ∧ (win0_14.index t (0 : Fin 2) = t.val ∧ win0_14.index t (1 : Fin 2) = 0)
    ∧ (win0_15.index t (0 : Fin 2) = 0 ∧ win0_15.index t (1 : Fin 2) = 0) :=
  (by decide +kernel : ∀ t : Fin grid0.N, _)

/-- Entry `(p, q)` of point `t`'s block of `x` is entry `(16·t + p, q)` of the array. -/
theorem iblk0_apply (c : Dev nD) (t : Fin cfg0.N) (p : Fin 16) (q : Fin 11008) (a : Fin 4096)
    (ha : a.val = 16 * t.val + p.val) :
    (iblk m c 0 t : Vec F S16x11008 .f32) (ix2 p q) = V m c main_arg0 (ix2 a q) := by
  unfold iblk
  rw [View.read_apply]
  show V m c main_arg0 _ = V m c main_arg0 _
  refine congrArg _ ?_
  funext ax
  apply Fin.ext
  obtain ⟨e0, e1⟩ := (idx_facts t).1
  match ax with
  | ⟨0, _⟩ => show win0_0.index t (0 : Fin 2) * 16 + 1 * p.val = a.val; rw [e0, ha]; omega
  | ⟨1, _⟩ => show win0_0.index t (1 : Fin 2) * 11008 + 1 * q.val = q.val; rw [e1]; omega

/-- The scale column: entry `(p, 0)` of point `t`'s block is entry `(16·t + p, 0)` of the reshaped vector. -/
theorem iblk1_apply (c : Dev nD) (t : Fin cfg0.N) (p : Fin 16) (a : Fin 4096)
    (ha : a.val = 16 * t.val + p.val) :
    (iblk m c 1 t : Vec F S16x1 .f32) (ix2 p (0 : Fin 1)) = V m c main_v0 (ix2 a (0 : Fin 1)) := by
  unfold iblk
  rw [View.read_apply]
  show V m c main_v0 _ = V m c main_v0 _
  refine congrArg _ ?_
  funext ax
  apply Fin.ext
  obtain ⟨e0, e1⟩ := (idx_facts t).2.1
  match ax with
  | ⟨0, _⟩ => show win0_1.index t (0 : Fin 2) * 16 + 1 * p.val = a.val; rw [e0, ha]; omega
  | ⟨1, _⟩ => show win0_1.index t (1 : Fin 2) * 1 + 1 * (0 : Fin 1).val = (0 : Fin 1).val; rw [e1]; rfl

/-- The same for the previous codes, -/
theorem iblk2_apply (c : Dev nD) (t : Fin cfg0.N) (p : Fin 16) (q : Fin 11008) (a : Fin 4096)
    (ha : a.val = 16 * t.val + p.val) :
    (iblk m c 2 t : Vec F S16x11008 .f32) (ix2 p q) = V m c main_arg2 (ix2 a q) := by
  unfold iblk
  rw [View.read_apply]
  show V m c main_arg2 _ = V m c main_arg2 _
  refine congrArg _ ?_
  funext ax
  apply Fin.ext
  obtain ⟨e0, e1⟩ := (idx_facts t).2.2.1
  match ax with
  | ⟨0, _⟩ => show win0_2.index t (0 : Fin 2) * 16 + 1 * p.val = a.val; rw [e0, ha]; omega
  | ⟨1, _⟩ => show win0_2.index t (1 : Fin 2) * 11008 + 1 * q.val = q.val; rw [e1]; omega

/-- the previous directions, -/
theorem iblk3_apply (c : Dev nD) (t : Fin cfg0.N) (p : Fin 16) (q : Fin 11008) (a : Fin 4096)
    (ha : a.val = 16 * t.val + p.val) :
    (iblk m c 3 t : Vec F S16x11008 .f32) (ix2 p q) = V m c main_arg3 (ix2 a q) := by
  unfold iblk
  rw [View.read_apply]
  show V m c main_arg3 _ = V m c main_arg3 _
  refine congrArg _ ?_
  funext ax
  apply Fin.ext
  obtain ⟨e0, e1⟩ := (idx_facts t).2.2.2.1
  match ax with
  | ⟨0, _⟩ => show win0_3.index t (0 : Fin 2) * 16 + 1 * p.val = a.val; rw [e0, ha]; omega
  | ⟨1, _⟩ => show win0_3.index t (1 : Fin 2) * 11008 + 1 * q.val = q.val; rw [e1]; omega

/-- the oscillation averages, -/
theorem iblk4_apply (c : Dev nD) (t : Fin cfg0.N) (p : Fin 16) (q : Fin 11008) (a : Fin 4096)
    (ha : a.val = 16 * t.val + p.val) :
    (iblk m c 4 t : Vec F S16x11008 .f32) (ix2 p q) = V m c main_arg4 (ix2 a q) := by
  unfold iblk
  rw [View.read_apply]
  show V m c main_arg4 _ = V m c main_arg4 _
  refine congrArg _ ?_
  funext ax
  apply Fin.ext
  obtain ⟨e0, e1⟩ := (idx_facts t).2.2.2.2.1
  match ax with
  | ⟨0, _⟩ => show win0_4.index t (0 : Fin 2) * 16 + 1 * p.val = a.val; rw [e0, ha]; omega
  | ⟨1, _⟩ => show win0_4.index t (1 : Fin 2) * 11008 + 1 * q.val = q.val; rw [e1]; omega

/-- the frozen flags as numbers, -/
theorem iblk5_apply (c : Dev nD) (t : Fin cfg0.N) (p : Fin 16) (q : Fin 11008) (a : Fin 4096)
    (ha : a.val = 16 * t.val + p.val) :
    (iblk m c 5 t : Vec F S16x11008 .f32) (ix2 p q) = V m c main_v1 (ix2 a q) := by
  unfold iblk
  rw [View.read_apply]
  show V m c main_v1 _ = V m c main_v1 _
  refine congrArg _ ?_
  funext ax
  apply Fin.ext
  obtain ⟨e0, e1⟩ := (idx_facts t).2.2.2.2.2.1
  match ax with
  | ⟨0, _⟩ => show win0_5.index t (0 : Fin 2) * 16 + 1 * p.val = a.val; rw [e0, ha]; omega
  | ⟨1, _⟩ => show win0_5.index t (1 : Fin 2) * 11008 + 1 * q.val = q.val; rw [e1]; omega

/-- the frozen codes, -/
theorem iblk6_apply (c : Dev nD) (t : Fin cfg0.N) (p : Fin 16) (q : Fin 11008) (a : Fin 4096)
    (ha : a.val = 16 * t.val + p.val) :
    (iblk m c 6 t : Vec F S16x11008 .f32) (ix2 p q) = V m c main_arg6 (ix2 a q) := by
  unfold iblk
  rw [View.read_apply]
  show V m c main_arg6 _ = V m c main_arg6 _
  refine congrArg _ ?_
  funext ax
  apply Fin.ext
  obtain ⟨e0, e1⟩ := (idx_facts t).2.2.2.2.2.2.1
  match ax with
  | ⟨0, _⟩ => show win0_6.index t (0 : Fin 2) * 16 + 1 * p.val = a.val; rw [e0, ha]; omega
  | ⟨1, _⟩ => show win0_6.index t (1 : Fin 2) * 11008 + 1 * q.val = q.val; rw [e1]; omega

/-- and the code averages. -/
theorem iblk7_apply (c : Dev nD) (t : Fin cfg0.N) (p : Fin 16) (q : Fin 11008) (a : Fin 4096)
    (ha : a.val = 16 * t.val + p.val) :
    (iblk m c 7 t : Vec F S16x11008 .f32) (ix2 p q) = V m c main_arg7 (ix2 a q) := by
  unfold iblk
  rw [View.read_apply]
  show V m c main_arg7 _ = V m c main_arg7 _
  refine congrArg _ ?_
  funext ax
  apply Fin.ext
  obtain ⟨e0, e1⟩ := (idx_facts t).2.2.2.2.2.2.2
  match ax with
  | ⟨0, _⟩ => show win0_7.index t (0 : Fin 2) * 16 + 1 * p.val = a.val; rw [e0, ha]; omega
  | ⟨1, _⟩ => show win0_7.index t (1 : Fin 2) * 11008 + 1 * q.val = q.val; rw [e1]; omega

/-- The scale vector reaches the region reshaped to a column: entry `(a, 0)` is entry `a`. -/
theorem V_v0_apply (c : Dev nD) (a : Fin 4096) :
    V m c main_v0 (ix2 a (0 : Fin 1)) = m ((c : Thread nD τ).loc main_arg1) (ix1 a) := by
  have e : (V m c main_v0 : S4096x1.Idx → Elt F .f32)
      = shapeCast S4096x1 (m ((c : Thread nD τ).loc main_arg1)) shapeCasts_S4096_S4096x1 := by
    show StableHlo.after hostOps0 (fun b => m (c, b)) (Proc.devRef .tc main_v0) = _
    after_results
    rfl
  rw [e]
  refine shapeCast_apply _ _ (ix2 a (0 : Fin 1)) (ix1 a) ?_
  rw [Shape.rowMajor_val_one, Shape.rowMajor_val_two]
  show a.val = a.val * 1 + 0
  omega

/-- The frozen flags reach the region converted to numbers. -/
theorem V_v1_apply (c : Dev nD) (a : Fin 4096) (q : Fin 11008) :
    V m c main_v1 (ix2 a q) = FloatOps.uitofp (F := F) .f32 (m ((c : Thread nD τ).loc main_arg5) (ix2 a q)) := by
  have e : (V m c main_v1 : S4096x11008.Idx → Elt F .f32)
      = uitofp .f32 (m ((c : Thread nD τ).loc main_arg5)) := by
    show StableHlo.after hostOps0 (fun b => m (c, b)) (Proc.devRef .tc main_v1) = _
    after_results
  rw [e]
  rfl

end Cert.KernelIdeal.Blocks

end
-- ==== Proof.Arrays.lean ====
import proofs.«145237_j46729244180908_1_alg».proof.Proof.FramePA
import proofs.«145237_j46729244180908_1_alg».proof.Proof.Point
import proofs.«145237_j46729244180908_1_alg».proof.Proof.PayIdx
import proofs.«145237_j46729244180908_1_alg».proof.Proof.Blocks
import proofs.«145237_j46729244180908_1_alg».proof.Proof.Spec
import Idealize.ShloMosaic.Lib.Pipeline.Value

/-!
# The seven large result arrays

Point `t` writes back rows `16·t … 16·t + 15` of each large output.  Entry `(p, q)` of what it writes is the
step's result at `(16·t + p, q)` (the block arithmetic is the whole-array arithmetic, `Cert.PayIdx`), and the
256 row blocks tile the array: row `r` is written by point `r / 16`.  So each array ends as the step's result.
-/

noncomputable section

namespace Cert.KernelIdeal.Arrays

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Spec

variable (m : (ℓ : Loc nD τ sig) → Buf (Elt Ideal) ℓ)

/-- The argument arrays as launched. -/
abbrev aX (c : Dev nD) := m ((c : Thread nD τ).loc main_arg0)
abbrev aS (c : Dev nD) := m ((c : Thread nD τ).loc main_arg1)
abbrev aPXI (c : Dev nD) := m ((c : Thread nD τ).loc main_arg2)
abbrev aPSD (c : Dev nD) := m ((c : Thread nD τ).loc main_arg3)
abbrev aEO (c : Dev nD) := m ((c : Thread nD τ).loc main_arg4)
abbrev aFZ (c : Dev nD) := m ((c : Thread nD τ).loc main_arg5)
abbrev aFXI (c : Dev nD) := m ((c : Thread nD τ).loc main_arg6)
abbrev aEXI (c : Dev nD) := m ((c : Thread nD τ).loc main_arg7)

/-- The entries of point `t`'s eight input blocks at `(p, q)` are the arguments' entries at `(16·t + p, q)`. -/
theorem entries (c : Dev nD) (t : Fin cfg0.N) (p : Fin 16) (q : Fin 11008) (a : Fin 4096) (ha : a.val = 16 * t.val + p.val) :
    (iblk m c 0 t : Vec Ideal S16x11008 .f32) (ix2 p q) = aX m c (ix2 a q)
    ∧ (iblk m c 1 t : Vec Ideal S16x1 .f32) (ix2 p (0 : Fin 1)) = aS m c (ix1 a)
    ∧ (iblk m c 2 t : Vec Ideal S16x11008 .f32) (ix2 p q) = aPXI m c (ix2 a q)
    ∧ (iblk m c 3 t : Vec Ideal S16x11008 .f32) (ix2 p q) = aPSD m c (ix2 a q)
    ∧ (iblk m c 4 t : Vec Ideal S16x11008 .f32) (ix2 p q) = aEO m c (ix2 a q)
    ∧ (iblk m c 5 t : Vec Ideal S16x11008 .f32) (ix2 p q) = bitNum (aFZ m c (ix2 a q))
    ∧ (iblk m c 6 t : Vec Ideal S16x11008 .f32) (ix2 p q) = aFXI m c (ix2 a q)
    ∧ (iblk m c 7 t : Vec Ideal S16x11008 .f32) (ix2 p q) = aEXI m c (ix2 a q) :=
  ⟨(Blocks.iblk0_apply m c t p q a ha).trans (congrFun (V_main_arg0 m c) _),
   (Blocks.iblk1_apply m c t p a ha).trans (Blocks.V_v0_apply m c a),
   (Blocks.iblk2_apply m c t p q a ha).trans (congrFun (V_main_arg2 m c) _),
   (Blocks.iblk3_apply m c t p q a ha).trans (congrFun (V_main_arg3 m c) _),
   (Blocks.iblk4_apply m c t p q a ha).trans (congrFun (V_main_arg4 m c) _),
   (Blocks.iblk5_apply m c t p q a ha).trans (Blocks.V_v1_apply m c a q),
   (Blocks.iblk6_apply m c t p q a ha).trans (congrFun (V_main_arg6 m c) _),
   (Blocks.iblk7_apply m c t p q a ha).trans (congrFun (V_main_arg7 m c) _)⟩

theorem emb8 (t : Fin cfg0.N) (p : Fin 16) (q : Fin 11008) (a : Fin 4096) (ha : a.val = 16 * t.val + p.val) :
    ((cfg0.win 8).blk t).view.emb (ix2 p q) = ix2 a q := by
  funext ax
  apply Fin.ext
  obtain ⟨e0, e1⟩ := (Blocks.out_idx_facts t).1
  match ax with
  | ⟨0, _⟩ => show win0_8.index t (0 : Fin 2) * 16 + 1 * p.val = a.val; rw [e0, ha]; omega
  | ⟨1, _⟩ => show win0_8.index t (1 : Fin 2) * 11008 + 1 * q.val = q.val; rw [e1]; omega

theorem mem_blk8 (t : Fin cfg0.N) (i : S4096x11008.Idx) :
    i ∈ ((cfg0.win 8).blk t).view.set ↔ ∀ a : Fin 2, win0_8.index t a * S16x11008.size a ≤ (i a).val ∧ (i a).val < win0_8.index t a * S16x11008.size a + S16x11008.size a := by
  show i ∈ ((View.whole main_v2_0).slice (win0_8.rect t)).set ↔ _
  rw [View.set_slice_whole, Rect.mem_set_unit]
  exact Iff.rfl

theorem cover8 (i : S4096x11008.Idx) : ∃ t : Fin cfg0.N, (cfg0.win 8).flush t = true ∧ i ∈ ((cfg0.win 8).blk t).view.set := by
  have hi0 : (i 0).val < 4096 := (i 0).isLt
  have hi1 : (i 1).val < 11008 := (i 1).isLt
  have hN : cfg0.N = 256 := N_0
  refine ⟨⟨(i 0).val / 16, by omega⟩, flush0_8 _, ?_⟩
  rw [mem_blk8]
  obtain ⟨e0, e1⟩ := (Blocks.out_idx_facts (⟨(i 0).val / 16, by omega⟩ : Fin cfg0.N)).1
  intro a
  match a with
  | ⟨0, _⟩ => show win0_8.index _ (0 : Fin 2) * 16 ≤ (i 0).val ∧ (i 0).val < win0_8.index _ (0 : Fin 2) * 16 + 16; rw [e0]; dsimp only; omega
  | ⟨1, _⟩ => show win0_8.index _ (1 : Fin 2) * 11008 ≤ (i 1).val ∧ (i 1).val < win0_8.index _ (1 : Fin 2) * 11008 + 11008; rw [e1]; omega

theorem emb9 (t : Fin cfg0.N) (p : Fin 16) (q : Fin 11008) (a : Fin 4096) (ha : a.val = 16 * t.val + p.val) :
    ((cfg0.win 9).blk t).view.emb (ix2 p q) = ix2 a q := by
  funext ax
  apply Fin.ext
  obtain ⟨e0, e1⟩ := (Blocks.out_idx_facts t).2.1
  match ax with
  | ⟨0, _⟩ => show win0_9.index t (0 : Fin 2) * 16 + 1 * p.val = a.val; rw [e0, ha]; omega
  | ⟨1, _⟩ => show win0_9.index t (1 : Fin 2) * 11008 + 1 * q.val = q.val; rw [e1]; omega

theorem mem_blk9 (t : Fin cfg0.N) (i : S4096x11008.Idx) :
    i ∈ ((cfg0.win 9).blk t).view.set ↔ ∀ a : Fin 2, win0_9.index t a * S16x11008.size a ≤ (i a).val ∧ (i a).val < win0_9.index t a * S16x11008.size a + S16x11008.size a := by
  show i ∈ ((View.whole main_v2_1).slice (win0_9.rect t)).set ↔ _
  rw [View.set_slice_whole, Rect.mem_set_unit]
  exact Iff.rfl

theorem cover9 (i : S4096x11008.Idx) : ∃ t : Fin cfg0.N, (cfg0.win 9).flush t = true ∧ i ∈ ((cfg0.win 9).blk t).view.set := by
  have hi0 : (i 0).val < 4096 := (i 0).isLt
  have hi1 : (i 1).val < 11008 := (i 1).isLt
  have hN : cfg0.N = 256 := N_0
  refine ⟨⟨(i 0).val / 16, by omega⟩, flush0_9 _, ?_⟩
  rw [mem_blk9]
  obtain ⟨e0, e1⟩ := (Blocks.out_idx_facts (⟨(i 0).val / 16, by omega⟩ : Fin cfg0.N)).2.1
  intro a
  match a with
  | ⟨0, _⟩ => show win0_9.index _ (0 : Fin 2) * 16 ≤ (i 0).val ∧ (i 0).val < win0_9.index _ (0 : Fin 2) * 16 + 16; rw [e0]; dsimp only; omega
  | ⟨1, _⟩ => show win0_9.index _ (1 : Fin 2) * 11008 ≤ (i 1).val ∧ (i 1).val < win0_9.index _ (1 : Fin 2) * 11008 + 11008; rw [e1]; omega

theorem emb10 (t : Fin cfg0.N) (p : Fin 16) (q : Fin 11008) (a : Fin 4096) (ha : a.val = 16 * t.val + p.val) :
    ((cfg0.win 10).blk t).view.emb (ix2 p q) = ix2 a q := by
  funext ax
  apply Fin.ext
  obtain ⟨e0, e1⟩ := (Blocks.out_idx_facts t).2.2.1
  match ax with
  | ⟨0, _⟩ => show win0_10.index t (0 : Fin 2) * 16 + 1 * p.val = a.val; rw [e0, ha]; omega
  | ⟨1, _⟩ => show win0_10.index t (1 : Fin 2) * 11008 + 1 * q.val = q.val; rw [e1]; omega

theorem mem_blk10 (t : Fin cfg0.N) (i : S4096x11008.Idx) :
    i ∈ ((cfg0.win 10).blk t).view.set ↔ ∀ a : Fin 2, win0_10.index t a * S16x11008.size a ≤ (i a).val ∧ (i a).val < win0_10.index t a * S16x11008.size a + S16x11008.size a := by
  show i ∈ ((View.whole main_v2_2).slice (win0_10.rect t)).set ↔ _
  rw [View.set_slice_whole, Rect.mem_set_unit]
  exact Iff.rfl

theorem cover10 (i : S4096x11008.Idx) : ∃ t : Fin cfg0.N, (cfg0.win 10).flush t = true ∧ i ∈ ((cfg0.win 10).blk t).view.set := by
  have hi0 : (i 0).val < 4096 := (i 0).isLt
  have hi1 : (i 1).val < 11008 := (i 1).isLt
  have hN : cfg0.N = 256 := N_0
  refine ⟨⟨(i 0).val / 16, by omega⟩, flush0_10 _, ?_⟩
  rw [mem_blk10]
  obtain ⟨e0, e1⟩ := (Blocks.out_idx_facts (⟨(i 0).val / 16, by omega⟩ : Fin cfg0.N)).2.2.1
  intro a
  match a with
  | ⟨0, _⟩ => show win0_10.index _ (0 : Fin 2) * 16 ≤ (i 0).val ∧ (i 0).val < win0_10.index _ (0 : Fin 2) * 16 + 16; rw [e0]; dsimp only; omega
  | ⟨1, _⟩ => show win0_10.index _ (1 : Fin 2) * 11008 ≤ (i 1).val ∧ (i 1).val < win0_10.index _ (1 : Fin 2) * 11008 + 11008; rw [e1]; omega

theorem emb11 (t : Fin cfg0.N) (p : Fin 16) (q : Fin 11008) (a : Fin 4096) (ha : a.val = 16 * t.val + p.val) :
    ((cfg0.win 11).blk t).view.emb (ix2 p q) = ix2 a q := by
  funext ax
  apply Fin.ext
  obtain ⟨e0, e1⟩ := (Blocks.out_idx_facts t).2.2.2.1
  match ax with
  | ⟨0, _⟩ => show win0_11.index t (0 : Fin 2) * 16 + 1 * p.val = a.val; rw [e0, ha]; omega
  | ⟨1, _⟩ => show win0_11.index t (1 : Fin 2) * 11008 + 1 * q.val = q.val; rw [e1]; omega

theorem mem_blk11 (t : Fin cfg0.N) (i : S4096x11008.Idx) :
    i ∈ ((cfg0.win 11).blk t).view.set ↔ ∀ a : Fin 2, win0_11.index t a * S16x11008.size a ≤ (i a).val ∧ (i a).val < win0_11.index t a * S16x11008.size a + S16x11008.size a := by
  show i ∈ ((View.whole main_v2_3).slice (win0_11.rect t)).set ↔ _
  rw [View.set_slice_whole, Rect.mem_set_unit]
  exact Iff.rfl

theorem cover11 (i : S4096x11008.Idx) : ∃ t : Fin cfg0.N, (cfg0.win 11).flush t = true ∧ i ∈ ((cfg0.win 11).blk t).view.set := by
  have hi0 : (i 0).val < 4096 := (i 0).isLt
  have hi1 : (i 1).val < 11008 := (i 1).isLt
  have hN : cfg0.N = 256 := N_0
  refine ⟨⟨(i 0).val / 16, by omega⟩, flush0_11 _, ?_⟩
  rw [mem_blk11]
  obtain ⟨e0, e1⟩ := (Blocks.out_idx_facts (⟨(i 0).val / 16, by omega⟩ : Fin cfg0.N)).2.2.2.1
  intro a
  match a with
  | ⟨0, _⟩ => show win0_11.index _ (0 : Fin 2) * 16 ≤ (i 0).val ∧ (i 0).val < win0_11.index _ (0 : Fin 2) * 16 + 16; rw [e0]; dsimp only; omega
  | ⟨1, _⟩ => show win0_11.index _ (1 : Fin 2) * 11008 ≤ (i 1).val ∧ (i 1).val < win0_11.index _ (1 : Fin 2) * 11008 + 11008; rw [e1]; omega

theorem emb12 (t : Fin cfg0.N) (p : Fin 16) (q : Fin 11008) (a : Fin 4096) (ha : a.val = 16 * t.val + p.val) :
    ((cfg0.win 12).blk t).view.emb (ix2 p q) = ix2 a q := by
  funext ax
  apply Fin.ext
  obtain ⟨e0, e1⟩ := (Blocks.out_idx_facts t).2.2.2.2.1
  match ax with
  | ⟨0, _⟩ => show win0_12.index t (0 : Fin 2) * 16 + 1 * p.val = a.val; rw [e0, ha]; omega
  | ⟨1, _⟩ => show win0_12.index t (1 : Fin 2) * 11008 + 1 * q.val = q.val; rw [e1]; omega

theorem mem_blk12 (t : Fin cfg0.N) (i : S4096x11008.Idx) :
    i ∈ ((cfg0.win 12).blk t).view.set ↔ ∀ a : Fin 2, win0_12.index t a * S16x11008.size a ≤ (i a).val ∧ (i a).val < win0_12.index t a * S16x11008.size a + S16x11008.size a := by
  show i ∈ ((View.whole main_v2_4).slice (win0_12.rect t)).set ↔ _
  rw [View.set_slice_whole, Rect.mem_set_unit]
  exact Iff.rfl

theorem cover12 (i : S4096x11008.Idx) : ∃ t : Fin cfg0.N, (cfg0.win 12).flush t = true ∧ i ∈ ((cfg0.win 12).blk t).view.set := by
  have hi0 : (i 0).val < 4096 := (i 0).isLt
  have hi1 : (i 1).val < 11008 := (i 1).isLt
  have hN : cfg0.N = 256 := N_0
  refine ⟨⟨(i 0).val / 16, by omega⟩, flush0_12 _, ?_⟩
  rw [mem_blk12]
  obtain ⟨e0, e1⟩ := (Blocks.out_idx_facts (⟨(i 0).val / 16, by omega⟩ : Fin cfg0.N)).2.2.2.2.1
  intro a
  match a with
  | ⟨0, _⟩ => show win0_12.index _ (0 : Fin 2) * 16 ≤ (i 0).val ∧ (i 0).val < win0_12.index _ (0 : Fin 2) * 16 + 16; rw [e0]; dsimp only; omega
  | ⟨1, _⟩ => show win0_12.index _ (1 : Fin 2) * 11008 ≤ (i 1).val ∧ (i 1).val < win0_12.index _ (1 : Fin 2) * 11008 + 11008; rw [e1]; omega

theorem emb13 (t : Fin cfg0.N) (p : Fin 16) (q : Fin 11008) (a : Fin 4096) (ha : a.val = 16 * t.val + p.val) :
    ((cfg0.win 13).blk t).view.emb (ix2 p q) = ix2 a q := by
  funext ax
  apply Fin.ext
  obtain ⟨e0, e1⟩ := (Blocks.out_idx_facts t).2.2.2.2.2.1
  match ax with
  | ⟨0, _⟩ => show win0_13.index t (0 : Fin 2) * 16 + 1 * p.val = a.val; rw [e0, ha]; omega
  | ⟨1, _⟩ => show win0_13.index t (1 : Fin 2) * 11008 + 1 * q.val = q.val; rw [e1]; omega

theorem mem_blk13 (t : Fin cfg0.N) (i : S4096x11008.Idx) :
    i ∈ ((cfg0.win 13).blk t).view.set ↔ ∀ a : Fin 2, win0_13.index t a * S16x11008.size a ≤ (i a).val ∧ (i a).val < win0_13.index t a * S16x11008.size a + S16x11008.size a := by
  show i ∈ ((View.whole main_v2_5).slice (win0_13.rect t)).set ↔ _
  rw [View.set_slice_whole, Rect.mem_set_unit]
  exact Iff.rfl

theorem cover13 (i : S4096x11008.Idx) : ∃ t : Fin cfg0.N, (cfg0.win 13).flush t = true ∧ i ∈ ((cfg0.win 13).blk t).view.set := by
  have hi0 : (i 0).val < 4096 := (i 0).isLt
  have hi1 : (i 1).val < 11008 := (i 1).isLt
  have hN : cfg0.N = 256 := N_0
  refine ⟨⟨(i 0).val / 16, by omega⟩, flush0_13 _, ?_⟩
  rw [mem_blk13]
  obtain ⟨e0, e1⟩ := (Blocks.out_idx_facts (⟨(i 0).val / 16, by omega⟩ : Fin cfg0.N)).2.2.2.2.2.1
  intro a
  match a with
  | ⟨0, _⟩ => show win0_13.index _ (0 : Fin 2) * 16 ≤ (i 0).val ∧ (i 0).val < win0_13.index _ (0 : Fin 2) * 16 + 16; rw [e0]; dsimp only; omega
  | ⟨1, _⟩ => show win0_13.index _ (1 : Fin 2) * 11008 ≤ (i 1).val ∧ (i 1).val < win0_13.index _ (1 : Fin 2) * 11008 + 11008; rw [e1]; omega

theorem emb14 (t : Fin cfg0.N) (p : Fin 16) (q : Fin 11008) (a : Fin 4096) (ha : a.val = 16 * t.val + p.val) :
    ((cfg0.win 14).blk t).view.emb (ix2 p q) = ix2 a q := by
  funext ax
  apply Fin.ext
  obtain ⟨e0, e1⟩ := (Blocks.out_idx_facts t).2.2.2.2.2.2.1
  match ax with
  | ⟨0, _⟩ => show win0_14.index t (0 : Fin 2) * 16 + 1 * p.val = a.val; rw [e0, ha]; omega
  | ⟨1, _⟩ => show win0_14.index t (1 : Fin 2) * 11008 + 1 * q.val = q.val; rw [e1]; omega

theorem mem_blk14 (t : Fin cfg0.N) (i : S4096x11008.Idx) :
    i ∈ ((cfg0.win 14).blk t).view.set ↔ ∀ a : Fin 2, win0_14.index t a * S16x11008.size a ≤ (i a).val ∧ (i a).val < win0_14.index t a * S16x11008.size a + S16x11008.size a := by
  show i ∈ ((View.whole main_v2_6).slice (win0_14.rect t)).set ↔ _
  rw [View.set_slice_whole, Rect.mem_set_unit]
  exact Iff.rfl

theorem cover14 (i : S4096x11008.Idx) : ∃ t : Fin cfg0.N, (cfg0.win 14).flush t = true ∧ i ∈ ((cfg0.win 14).blk t).view.set := by
  have hi0 : (i 0).val < 4096 := (i 0).isLt
  have hi1 : (i 1).val < 11008 := (i 1).isLt
  have hN : cfg0.N = 256 := N_0
  refine ⟨⟨(i 0).val / 16, by omega⟩, flush0_14 _, ?_⟩
  rw [mem_blk14]
  obtain ⟨e0, e1⟩ := (Blocks.out_idx_facts (⟨(i 0).val / 16, by omega⟩ : Fin cfg0.N)).2.2.2.2.2.2.1
  intro a
  match a with
  | ⟨0, _⟩ => show win0_14.index _ (0 : Fin 2) * 16 ≤ (i 0).val ∧ (i 0).val < win0_14.index _ (0 : Fin 2) * 16 + 16; rw [e0]; dsimp only; omega
  | ⟨1, _⟩ => show win0_14.index _ (1 : Fin 2) * 11008 ≤ (i 1).val ∧ (i 1).val < win0_14.index _ (1 : Fin 2) * 11008 + 11008; rw [e1]; omega

/-- The joined frozen flag as a number (the comparison with one half comes after the region). -/
def FZN (x : SA.Idx → EReal) (s : SS.Idx → EReal) (pxi psd eo : SA.Idx → EReal) (fz : SA.Idx → BitVec 1) (fxi : SA.Idx → EReal)
    (a : Fin 4096) (b : Fin 11008) : EReal :=
  max (bitNum (fz (ix2 a b))) (((((W x s pxi psd eo fz fxi a b).setWidth 32).toInt : ℝ)) : EReal)

/-- What point `t` writes back into output 0. -/
theorem flushed8 (c : Dev nD) (t : Fin cfg0.N) :
    (dats m 0 c).flushed 8 t = ((cfg0.win 8).blk t).view.read (Elt Ideal) (arr2 (R0 (aX m c) (aS m c) (aFZ m c) (aFXI m c))) := by
  show (cfg0.win 8).cut (grid0.coords t) ((dats m 0 c).after 8 t) = _
  rw [after0_8, Point.outs_8 m c t]
  funext j
  have hN : t.val < 256 := lt_of_lt_of_eq t.isLt (show cfg0.N = 256 from N_0)
  obtain ⟨p, q, rfl⟩ : ∃ (p : Fin 16) (q : Fin 11008), j = ix2 p q := ⟨j 0, j 1, eq_ix2 j⟩
  have hp : p.val < 16 := p.isLt
  show Pieces.v8 (iblk m c 0 t) (iblk m c 1 t) (iblk m c 5 t) (iblk m c 6 t) (ix2 p q) = arr2 (R0 (aX m c) (aS m c) (aFZ m c) (aFXI m c)) (((cfg0.win 8).blk t).view.emb (ix2 p q))
  rw [emb8 t p q ⟨16 * t.val + p.val, by omega⟩ rfl, arr2_ix2]
  obtain ⟨e0, e1, e2, e3, e4, e5, e6, e7⟩ := entries m c t p q ⟨16 * t.val + p.val, by omega⟩ rfl
  exact PayIdx.pay16_idx (iblk m c 0 t) (iblk m c 1 t) (iblk m c 5 t) (iblk m c 6 t) (aX m c) (aS m c) (aFZ m c) (aFXI m c) p q ⟨16 * t.val + p.val, by omega⟩ e0 e1 e5 e6

/-- So output 0 ends as the step's result. -/
theorem final8 (c : Dev nD) : (dats m 0 c).arrAt 8 cfg0.N = arr2 (R0 (aX m c) (aS m c) (aFZ m c) (aFXI m c)) :=
  (dats m 0 c).arrAt_eq_of_cover 8 (arr2 (R0 (aX m c) (aS m c) (aFZ m c) (aFXI m c))) (fun t _ => flushed8 m c t) cover8

/-- What point `t` writes back into output 1. -/
theorem flushed9 (c : Dev nD) (t : Fin cfg0.N) :
    (dats m 0 c).flushed 9 t = ((cfg0.win 9).blk t).view.read (Elt Ideal) (arr2 (R1 (aX m c) (aS m c) (aFZ m c) (aFXI m c))) := by
  show (cfg0.win 9).cut (grid0.coords t) ((dats m 0 c).after 9 t) = _
  rw [after0_9, Point.outs_9 m c t]
  funext j
  have hN : t.val < 256 := lt_of_lt_of_eq t.isLt (show cfg0.N = 256 from N_0)
  obtain ⟨p, q, rfl⟩ : ∃ (p : Fin 16) (q : Fin 11008), j = ix2 p q := ⟨j 0, j 1, eq_ix2 j⟩
  have hp : p.val < 16 := p.isLt
  show Pieces.v9 (iblk m c 0 t) (iblk m c 1 t) (iblk m c 5 t) (iblk m c 6 t) (ix2 p q) = arr2 (R1 (aX m c) (aS m c) (aFZ m c) (aFXI m c)) (((cfg0.win 9).blk t).view.emb (ix2 p q))
  rw [emb9 t p q ⟨16 * t.val + p.val, by omega⟩ rfl, arr2_ix2]
  obtain ⟨e0, e1, e2, e3, e4, e5, e6, e7⟩ := entries m c t p q ⟨16 * t.val + p.val, by omega⟩ rfl
  exact PayIdx.pay4_idx (iblk m c 0 t) (iblk m c 1 t) (iblk m c 5 t) (iblk m c 6 t) (aX m c) (aS m c) (aFZ m c) (aFXI m c) p q ⟨16 * t.val + p.val, by omega⟩ e0 e1 e5 e6

/-- So output 1 ends as the step's result. -/
theorem final9 (c : Dev nD) : (dats m 0 c).arrAt 9 cfg0.N = arr2 (R1 (aX m c) (aS m c) (aFZ m c) (aFXI m c)) :=
  (dats m 0 c).arrAt_eq_of_cover 9 (arr2 (R1 (aX m c) (aS m c) (aFZ m c) (aFXI m c))) (fun t _ => flushed9 m c t) cover9

/-- What point `t` writes back into output 2. -/
theorem flushed10 (c : Dev nD) (t : Fin cfg0.N) :
    (dats m 0 c).flushed 10 t = ((cfg0.win 10).blk t).view.read (Elt Ideal) (arr2 (R2 (aX m c) (aS m c) (aPXI m c) (aPSD m c) (aFZ m c) (aFXI m c))) := by
  show (cfg0.win 10).cut (grid0.coords t) ((dats m 0 c).after 10 t) = _
  rw [after0_10, Point.outs_10 m c t]
  funext j
  have hN : t.val < 256 := lt_of_lt_of_eq t.isLt (show cfg0.N = 256 from N_0)
  obtain ⟨p, q, rfl⟩ : ∃ (p : Fin 16) (q : Fin 11008), j = ix2 p q := ⟨j 0, j 1, eq_ix2 j⟩
  have hp : p.val < 16 := p.isLt
  show Pieces.v10 (iblk m c 0 t) (iblk m c 1 t) (iblk m c 2 t) (iblk m c 3 t) (iblk m c 5 t) (iblk m c 6 t) (ix2 p q) = arr2 (R2 (aX m c) (aS m c) (aPXI m c) (aPSD m c) (aFZ m c) (aFXI m c)) (((cfg0.win 10).blk t).view.emb (ix2 p q))
  rw [emb10 t p q ⟨16 * t.val + p.val, by omega⟩ rfl, arr2_ix2]
  obtain ⟨e0, e1, e2, e3, e4, e5, e6, e7⟩ := entries m c t p q ⟨16 * t.val + p.val, by omega⟩ rfl
  exact PayIdx.pay11_idx (iblk m c 0 t) (iblk m c 1 t) (iblk m c 2 t) (iblk m c 3 t) (iblk m c 5 t) (iblk m c 6 t) (aX m c) (aS m c) (aPXI m c) (aPSD m c) (aFZ m c) (aFXI m c) p q ⟨16 * t.val + p.val, by omega⟩ e0 e1 e2 e3 e5 e6

/-- So output 2 ends as the step's result. -/
theorem final10 (c : Dev nD) : (dats m 0 c).arrAt 10 cfg0.N = arr2 (R2 (aX m c) (aS m c) (aPXI m c) (aPSD m c) (aFZ m c) (aFXI m c)) :=
  (dats m 0 c).arrAt_eq_of_cover 10 (arr2 (R2 (aX m c) (aS m c) (aPXI m c) (aPSD m c) (aFZ m c) (aFXI m c))) (fun t _ => flushed10 m c t) cover10

/-- What point `t` writes back into output 3. -/
theorem flushed11 (c : Dev nD) (t : Fin cfg0.N) :
    (dats m 0 c).flushed 11 t = ((cfg0.win 11).blk t).view.read (Elt Ideal) (arr2 (R3 (aX m c) (aS m c) (aPXI m c) (aPSD m c) (aEO m c) (aFZ m c) (aFXI m c))) := by
  show (cfg0.win 11).cut (grid0.coords t) ((dats m 0 c).after 11 t) = _
  rw [after0_11, Point.outs_11 m c t]
  funext j
  have hN : t.val < 256 := lt_of_lt_of_eq t.isLt (show cfg0.N = 256 from N_0)
  obtain ⟨p, q, rfl⟩ : ∃ (p : Fin 16) (q : Fin 11008), j = ix2 p q := ⟨j 0, j 1, eq_ix2 j⟩
  have hp : p.val < 16 := p.isLt
  show Pieces.v11 (iblk m c 0 t) (iblk m c 1 t) (iblk m c 2 t) (iblk m c 3 t) (iblk m c 4 t) (iblk m c 5 t) (iblk m c 6 t) (ix2 p q) = arr2 (R3 (aX m c) (aS m c) (aPXI m c) (aPSD m c) (aEO m c) (aFZ m c) (aFXI m c)) (((cfg0.win 11).blk t).view.emb (ix2 p q))
  rw [emb11 t p q ⟨16 * t.val + p.val, by omega⟩ rfl, arr2_ix2]
  obtain ⟨e0, e1, e2, e3, e4, e5, e6, e7⟩ := entries m c t p q ⟨16 * t.val + p.val, by omega⟩ rfl
  exact PayIdx.pay10_idx (iblk m c 0 t) (iblk m c 1 t) (iblk m c 2 t) (iblk m c 3 t) (iblk m c 4 t) (iblk m c 5 t) (iblk m c 6 t) (aX m c) (aS m c) (aPXI m c) (aPSD m c) (aEO m c) (aFZ m c) (aFXI m c) p q ⟨16 * t.val + p.val, by omega⟩ e0 e1 e2 e3 e4 e5 e6

/-- So output 3 ends as the step's result. -/
theorem final11 (c : Dev nD) : (dats m 0 c).arrAt 11 cfg0.N = arr2 (R3 (aX m c) (aS m c) (aPXI m c) (aPSD m c) (aEO m c) (aFZ m c) (aFXI m c)) :=
  (dats m 0 c).arrAt_eq_of_cover 11 (arr2 (R3 (aX m c) (aS m c) (aPXI m c) (aPSD m c) (aEO m c) (aFZ m c) (aFXI m c))) (fun t _ => flushed11 m c t) cover11

/-- What point `t` writes back into output 4. -/
theorem flushed12 (c : Dev nD) (t : Fin cfg0.N) :
    (dats m 0 c).flushed 12 t = ((cfg0.win 12).blk t).view.read (Elt Ideal) (arr2 (FZN (aX m c) (aS m c) (aPXI m c) (aPSD m c) (aEO m c) (aFZ m c) (aFXI m c))) := by
  show (cfg0.win 12).cut (grid0.coords t) ((dats m 0 c).after 12 t) = _
  rw [after0_12, Point.outs_12 m c t]
  funext j
  have hN : t.val < 256 := lt_of_lt_of_eq t.isLt (show cfg0.N = 256 from N_0)
  obtain ⟨p, q, rfl⟩ : ∃ (p : Fin 16) (q : Fin 11008), j = ix2 p q := ⟨j 0, j 1, eq_ix2 j⟩
  have hp : p.val < 16 := p.isLt
  show Pieces.v12 (iblk m c 0 t) (iblk m c 1 t) (iblk m c 2 t) (iblk m c 3 t) (iblk m c 4 t) (iblk m c 5 t) (iblk m c 6 t) (ix2 p q) = arr2 (FZN (aX m c) (aS m c) (aPXI m c) (aPSD m c) (aEO m c) (aFZ m c) (aFXI m c)) (((cfg0.win 12).blk t).view.emb (ix2 p q))
  rw [emb12 t p q ⟨16 * t.val + p.val, by omega⟩ rfl, arr2_ix2]
  obtain ⟨e0, e1, e2, e3, e4, e5, e6, e7⟩ := entries m c t p q ⟨16 * t.val + p.val, by omega⟩ rfl
  exact PayIdx.pay13_idx (iblk m c 0 t) (iblk m c 1 t) (iblk m c 2 t) (iblk m c 3 t) (iblk m c 4 t) (iblk m c 5 t) (iblk m c 6 t) (aX m c) (aS m c) (aPXI m c) (aPSD m c) (aEO m c) (aFZ m c) (aFXI m c) p q ⟨16 * t.val + p.val, by omega⟩ e0 e1 e2 e3 e4 e5 e6

/-- So output 4 ends as the step's result. -/
theorem final12 (c : Dev nD) : (dats m 0 c).arrAt 12 cfg0.N = arr2 (FZN (aX m c) (aS m c) (aPXI m c) (aPSD m c) (aEO m c) (aFZ m c) (aFXI m c)) :=
  (dats m 0 c).arrAt_eq_of_cover 12 (arr2 (FZN (aX m c) (aS m c) (aPXI m c) (aPSD m c) (aEO m c) (aFZ m c) (aFXI m c))) (fun t _ => flushed12 m c t) cover12

/-- What point `t` writes back into output 5. -/
theorem flushed13 (c : Dev nD) (t : Fin cfg0.N) :
    (dats m 0 c).flushed 13 t = ((cfg0.win 13).blk t).view.read (Elt Ideal) (arr2 (R6 (aX m c) (aS m c) (aPXI m c) (aPSD m c) (aEO m c) (aFZ m c) (aFXI m c) (aEXI m c))) := by
  show (cfg0.win 13).cut (grid0.coords t) ((dats m 0 c).after 13 t) = _
  rw [after0_13, Point.outs_13 m c t]
  funext j
  have hN : t.val < 256 := lt_of_lt_of_eq t.isLt (show cfg0.N = 256 from N_0)
  obtain ⟨p, q, rfl⟩ : ∃ (p : Fin 16) (q : Fin 11008), j = ix2 p q := ⟨j 0, j 1, eq_ix2 j⟩
  have hp : p.val < 16 := p.isLt
  show Pieces.v13 (iblk m c 0 t) (iblk m c 1 t) (iblk m c 2 t) (iblk m c 3 t) (iblk m c 4 t) (iblk m c 5 t) (iblk m c 6 t) (iblk m c 7 t) (ix2 p q) = arr2 (R6 (aX m c) (aS m c) (aPXI m c) (aPSD m c) (aEO m c) (aFZ m c) (aFXI m c) (aEXI m c)) (((cfg0.win 13).blk t).view.emb (ix2 p q))
  rw [emb13 t p q ⟨16 * t.val + p.val, by omega⟩ rfl, arr2_ix2]
  obtain ⟨e0, e1, e2, e3, e4, e5, e6, e7⟩ := entries m c t p q ⟨16 * t.val + p.val, by omega⟩ rfl
  exact PayIdx.pay14_idx (iblk m c 0 t) (iblk m c 1 t) (iblk m c 2 t) (iblk m c 3 t) (iblk m c 4 t) (iblk m c 5 t) (iblk m c 6 t) (iblk m c 7 t) (aX m c) (aS m c) (aPXI m c) (aPSD m c) (aEO m c) (aFZ m c) (aFXI m c) (aEXI m c) p q ⟨16 * t.val + p.val, by omega⟩ e0 e1 e2 e3 e4 e5 e6 e7

/-- So output 5 ends as the step's result. -/
theorem final13 (c : Dev nD) : (dats m 0 c).arrAt 13 cfg0.N = arr2 (R6 (aX m c) (aS m c) (aPXI m c) (aPSD m c) (aEO m c) (aFZ m c) (aFXI m c) (aEXI m c)) :=
  (dats m 0 c).arrAt_eq_of_cover 13 (arr2 (R6 (aX m c) (aS m c) (aPXI m c) (aPSD m c) (aEO m c) (aFZ m c) (aFXI m c) (aEXI m c))) (fun t _ => flushed13 m c t) cover13

/-- What point `t` writes back into output 6. -/
theorem flushed14 (c : Dev nD) (t : Fin cfg0.N) :
    (dats m 0 c).flushed 14 t = ((cfg0.win 14).blk t).view.read (Elt Ideal) (arr2 (R7 (aX m c) (aS m c) (aFZ m c) (aFXI m c) (aEXI m c))) := by
  show (cfg0.win 14).cut (grid0.coords t) ((dats m 0 c).after 14 t) = _
  rw [after0_14, Point.outs_14 m c t]
  funext j
  have hN : t.val < 256 := lt_of_lt_of_eq t.isLt (show cfg0.N = 256 from N_0)
  obtain ⟨p, q, rfl⟩ : ∃ (p : Fin 16) (q : Fin 11008), j = ix2 p q := ⟨j 0, j 1, eq_ix2 j⟩
  have hp : p.val < 16 := p.isLt
  show Pieces.v14 (iblk m c 0 t) (iblk m c 1 t) (iblk m c 5 t) (iblk m c 6 t) (iblk m c 7 t) (ix2 p q) = arr2 (R7 (aX m c) (aS m c) (aFZ m c) (aFXI m c) (aEXI m c)) (((cfg0.win 14).blk t).view.emb (ix2 p q))
  rw [emb14 t p q ⟨16 * t.val + p.val, by omega⟩ rfl, arr2_ix2]
  obtain ⟨e0, e1, e2, e3, e4, e5, e6, e7⟩ := entries m c t p q ⟨16 * t.val + p.val, by omega⟩ rfl
  exact PayIdx.pay15_idx (iblk m c 0 t) (iblk m c 1 t) (iblk m c 5 t) (iblk m c 6 t) (iblk m c 7 t) (aX m c) (aS m c) (aFZ m c) (aFXI m c) (aEXI m c) p q ⟨16 * t.val + p.val, by omega⟩ e0 e1 e5 e6 e7

/-- So output 6 ends as the step's result. -/
theorem final14 (c : Dev nD) : (dats m 0 c).arrAt 14 cfg0.N = arr2 (R7 (aX m c) (aS m c) (aFZ m c) (aFXI m c) (aEXI m c)) :=
  (dats m 0 c).arrAt_eq_of_cover 14 (arr2 (R7 (aX m c) (aS m c) (aFZ m c) (aFXI m c) (aEXI m c))) (fun t _ => flushed14 m c t) cover14

end Cert.KernelIdeal.Arrays

end
-- ==== Proof.CountIdx.lean ====
/-
  The count of oscillating entries: one block's contribution, and the re-indexing of the rows by blocks.

  The body adds to a one-entry accumulator the sum of a 16 × 11008 block of indicators: the block is viewed as
  1 × 16 × 11008 (the same entries in the same order), summed over its last two axes into one number, and that
  number is added to the accumulator's entry. On the extended reals the sum over the re-viewed block is the sum over
  the block, whatever the order, and the sum over a two-axis index set is the double sum over rows and columns.
  At the first grid point the accumulator is instead set to the zero word, which denotes 0.
  The 4096 rows are 256 blocks of 16 rows: row 16·t + p is row p of block t.
-/
import proofs.«145237_j46729244180908_1_alg».proof.Proof.Gen.KernelIdeal.Skeleton
import Idealize.ShloMosaic.Lib.Pipeline.Value
import Idealize.ShloMosaic.Lib.ValueIdx
import Idealize.ShloMosaic.PureOps.Ideal.Laws

noncomputable section

open scoped BigOperators

namespace Cert.Count

open Idealize.ShloMosaic Idealize.ShloMosaic.ValueIdx Cert.KernelIdeal Cert.KernelIdeal.Gen

/-- The one index of a 1 × 1 array. -/
theorem idx11 (j : S1x1.Idx) : j = ix2 (0 : Fin 1) (0 : Fin 1) := by
  funext a
  match a with
  | ⟨0, _⟩ => exact Fin.ext (Nat.lt_one_iff.mp (j 0).isLt)
  | ⟨1, _⟩ => exact Fin.ext (Nat.lt_one_iff.mp (j 1).isLt)

/-- The value the first grid point stores in the accumulator is 0. -/
theorem pay2_apply : k0_pay2 (F := Ideal) (ix2 (0 : Fin 1) (0 : Fin 1)) = 0 := by
  unfold k0_pay2
  refine (congrFun (shapeCast_self _ _) _).trans ?_
  exact Ideal.ofBits_zero_f32

/-- The sum of a block viewed with a leading unit axis is the double sum over the block's rows and columns. -/
theorem sum_cast_block (o : FVec Ideal S16x11008 .f32) (h : S16x11008.ShapeCasts S1x16x11008) :
    ∑ i : S1x16x11008.Idx, shapeCast S1x16x11008 o h i = ∑ p : Fin 16, ∑ q : Fin 11008, o (ix2 p q) := by
  have e : ∑ i : S1x16x11008.Idx, shapeCast S1x16x11008 o h i = ∑ k : S16x11008.Idx, o k :=
    Equiv.sum_comp (Shape.reshapeEquiv h) o
  rw [e, sum_idx2]

/-- The sum of the re-viewed block over its last two axes, read at an index of the one-entry result. -/
theorem block_sum (o : FVec Ideal S16x11008 .f32) (hφ : FKind.Formats .f32)
    (hacc : (0x00000000#32 : BitVec 32) = FKind.add.neutral .f32 hφ) (j : S1.Idx) :
    multiReduction .add [1, 2] S1 (shapeCast S1x16x11008 o shapeCasts_S16x11008_S1x16x11008) 0x00000000#32
        reduces_S1x16x11008_S1 hφ hacc j
      = ∑ p : Fin 16, ∑ q : Fin 11008, o (ix2 p q) :=
  (Ideal.multiReduction_add_total (φ := .f32) (shapeCast S1x16x11008 o shapeCasts_S16x11008_S1x16x11008)
    0x00000000#32 reduces_S1x16x11008_S1 (fun b => by match b with | ⟨0, _⟩ => rfl) hφ hacc j).trans
    (sum_cast_block o _)

/-- Extracting at a static position reads that index. -/
theorem extractAt_eq {s : Shape} {α : Type} (pos : Fin s.rank → Nat) (x : s.Idx → α) (h : ∀ a, pos a < s.size a) :
    extractAt pos x h = x (fun a => ⟨pos a, h a⟩) := rfl

/-- A re-viewed array read at an index reads the index at the same row-major position. -/
theorem shapeCast_eq {s t : Shape} {α : Type} (x : s.Idx → α) (h : s.ShapeCasts t) (j : t.Idx) :
    shapeCast t x h j = x (Shape.reshapeEquiv h j) := rfl

/-- The value a later grid point stores in the accumulator: the previous value plus the sum of the block. -/
theorem pay1_apply (o : FVec Ideal S16x11008 .f32) (prev : Vec Ideal S1x1 .f32) :
    k0_pay1 (F := Ideal) o prev (ix2 (0 : Fin 1) (0 : Fin 1))
      = prev (ix2 (0 : Fin 1) (0 : Fin 1)) + ∑ p : Fin 16, ∑ q : Fin 11008, o (ix2 p q) := by
  unfold k0_pay1
  dsimp only
  refine (congrFun (shapeCast_self _ _) _).trans ?_
  refine congrArg (prev (ix2 (0 : Fin 1) (0 : Fin 1)) + ·) ?_
  refine (broadcast_apply _ _).trans ?_
  refine (extractAt_eq _ _ _).trans ?_
  refine (shapeCast_eq _ _ _).trans ?_
  exact block_sum o _ _ _

/-- A sum over m·n numbers is the sum over m blocks of the sum over a block's n numbers. -/
theorem sum_blocks {M : Type*} [AddCommMonoid M] (m n : ℕ) (f : Fin (m * n) → M) :
    ∑ a : Fin (m * n), f a = ∑ t : Fin m, ∑ p : Fin n, f (finProdFinEquiv (t, p)) := by
  rw [← Equiv.sum_comp finProdFinEquiv f, Fintype.sum_prod_type]

/-- The rows, block by block: the sum over 4096 rows is the sum over 256 blocks of the sum over a block's 16 rows. -/
theorem sum_rows {M : Type*} [AddCommMonoid M] (f : Fin 4096 → M) :
    ∑ a : Fin 4096, f a = ∑ t : Fin 256, ∑ p : Fin 16, f ⟨16 * t.val + p.val, by omega⟩ := by
  have e : ∑ a : Fin 4096, f a = ∑ t : Fin 256, ∑ p : Fin 16, f (finProdFinEquiv (t, p)) := sum_blocks 256 16 f
  refine e.trans ?_
  refine Finset.sum_congr rfl fun t _ => Finset.sum_congr rfl fun p _ => congrArg f (Fin.ext ?_)
  show p.val + 16 * t.val = 16 * t.val + p.val
  omega

/-- A sum over the numbers below 256, indexed either way. -/
theorem sum_range_fin {M : Type*} [AddCommMonoid M] (g : ℕ → M) :
    ∑ t : Fin 256, g t.val = ∑ t ∈ Finset.range 256, g t :=
  Fin.sum_univ_eq_sum_range g 256

end Cert.Count

end
-- ==== Proof.Accum.lean ====
import proofs.«145237_j46729244180908_1_alg».proof.Proof.FramePA
import proofs.«145237_j46729244180908_1_alg».proof.Proof.Arrays
import proofs.«145237_j46729244180908_1_alg».proof.Proof.CountIdx

/-!
# The count of oscillating entries

The one-word accumulator is reset at the first grid point and then, at every point, increased by the number
of oscillating entries of that point's 16 rows.  After point `n` it therefore holds the count over rows
`0 … 16·n + 15`; the last point copies it out, so the one-word result is the count over all 4096 rows.
On the extended reals a finite sum may be taken in any order, which is all that is used.
-/

noncomputable section

namespace Cert.KernelIdeal.Accum

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Spec Cert.KernelIdeal.Arrays

variable (m : (ℓ : Loc nD τ sig) → Buf (Elt Ideal) ℓ)

/-- The oscillation indicator at row `a` (zero past the last row). -/
def oscRow (c : Dev nD) (a : ℕ) (q : Fin 11008) : EReal :=
  if h : a < 4096 then OSC (aX m c) (aS m c) (aPXI m c) (aPSD m c) (aFZ m c) (aFXI m c) ⟨a, h⟩ q else 0

/-- The count over the 16 rows of block `t`. -/
def cnt (c : Dev nD) (t : ℕ) : EReal := ∑ p : Fin 16, ∑ q : Fin 11008, oscRow m c (16 * t + p.val) q

/-- The indicator block of point `t` sums to the count of its rows. -/
theorem block_count (c : Dev nD) (t : Fin cfg0.N) :
    ∑ p : Fin 16, ∑ q : Fin 11008, (Point.oscAt m c t : FVec Ideal S16x11008 .f32) (ix2 p q) = cnt m c t.val := by
  have hN : t.val < 256 := lt_of_lt_of_eq t.isLt (show cfg0.N = 256 from N_0)
  refine Finset.sum_congr rfl fun p _ => Finset.sum_congr rfl fun q _ => ?_
  have hp : p.val < 16 := p.isLt
  obtain ⟨e0, e1, e2, e3, e4, e5, e6, e7⟩ := entries m c t p q ⟨16 * t.val + p.val, by omega⟩ rfl
  unfold oscRow
  rw [dif_pos (by omega : 16 * t.val + p.val < 4096)]
  exact PayIdx.pay9_idx (iblk m c 0 t) (iblk m c 1 t) (iblk m c 2 t) (iblk m c 3 t) (iblk m c 5 t) (iblk m c 6 t)
    (aX m c) (aS m c) (aPXI m c) (aPSD m c) (aFZ m c) (aFXI m c) p q ⟨16 * t.val + p.val, by omega⟩ e0 e1 e2 e3 e5 e6

/-- After point `n` the accumulator holds the count over blocks `0 … n`. -/
theorem acc_eq (c : Dev nD) : ∀ (n : ℕ) (hn : n < cfg0.N),
    (outsAt0 m c n hn).2.2.2.2.2.2.2.2 (ix2 (0 : Fin 1) (0 : Fin 1)) = ∑ t ∈ Finset.range (n + 1), cnt m c t
  | 0, hn => by
    refine (congrFun (Point.acc_first m c ⟨0, hn⟩ rfl) _).trans ?_
    rw [Count.pay1_apply, Count.pay2_apply, zero_add, block_count m c ⟨0, hn⟩]
    simp
  | n + 1, hn => by
    have hN : cfg0.N = 256 := N_0
    have h0 : ¬(⟨n + 1, hn⟩ : Fin cfg0.N).val % 256 = 0 := by dsimp only; omega
    refine (congrFun (Point.acc_later m c ⟨n + 1, hn⟩ h0) _).trans ?_
    rw [Count.pay1_apply, block_count m c ⟨n + 1, hn⟩]
    show (outsAt0 m c n _).2.2.2.2.2.2.2.2 (ix2 (0 : Fin 1) (0 : Fin 1)) + _ = _
    rw [acc_eq c n]
    exact (Finset.sum_range_succ (fun t => cnt m c t) (n + 1)).symm

/-- The count over all rows, block by block, is the step's total. -/
theorem total_eq (c : Dev nD) : ∑ t ∈ Finset.range 256, cnt m c t = R4 (aX m c) (aS m c) (aPXI m c) (aPSD m c) (aFZ m c) (aFXI m c) := by
  rw [← Count.sum_range_fin (fun t => cnt m c t)]
  unfold R4
  rw [Count.sum_rows (fun a => ∑ q : Fin 11008, OSC (aX m c) (aS m c) (aPXI m c) (aPSD m c) (aFZ m c) (aFXI m c) a q)]
  refine Finset.sum_congr rfl fun t _ => Finset.sum_congr rfl fun p _ => Finset.sum_congr rfl fun q _ => ?_
  have ht : t.val < 256 := t.isLt
  have hp : p.val < 16 := p.isLt
  unfold oscRow
  rw [dif_pos (by omega : 16 * t.val + p.val < 4096)]

/-- The one write-back of the one-word output, at the last point, writes the total. -/
theorem flushed15 (c : Dev nD) (t : Fin cfg0.N) (hf : (cfg0.win 15).flush t = true) :
    (dats m 0 c).flushed 15 t
      = ((cfg0.win 15).blk t).view.read (Elt Ideal) (fun _ => (∑ t ∈ Finset.range 256, cnt m c t : EReal)) := by
  have h1 : t.val % 256 = 255 := (flush0_15 t).mp hf
  have hN : t.val < 256 := lt_of_lt_of_eq t.isLt (show cfg0.N = 256 from N_0)
  show (cfg0.win 15).cut (grid0.coords t) ((dats m 0 c).after 15 t) = _
  rw [after0_15, Point.out15_last m c t h1]
  funext j
  show (outsAt0 m c t.val t.isLt).2.2.2.2.2.2.2.2 j = ∑ t ∈ Finset.range 256, cnt m c t
  rw [Count.idx11 j, acc_eq m c t.val t.isLt]
  have : t.val + 1 = 256 := by omega
  rw [this]

theorem cover15 (i : S1x1.Idx) : ∃ t : Fin cfg0.N, (cfg0.win 15).flush t = true ∧ i ∈ ((cfg0.win 15).blk t).view.set := by
  have hN : cfg0.N = 256 := N_0
  have hi0 : (i 0).val < 1 := (i 0).isLt
  have hi1 : (i 1).val < 1 := (i 1).isLt
  have h255 : 255 < cfg0.N := by omega
  refine ⟨⟨255, h255⟩, (flush0_15 ⟨255, h255⟩).mpr rfl, ?_⟩
  show i ∈ ((View.whole main_v2_7).slice (win0_15.rect (⟨255, h255⟩ : Fin cfg0.N))).set
  rw [View.set_slice_whole, Rect.mem_set_unit]
  obtain ⟨e0, e1⟩ := (Blocks.out_idx_facts (⟨255, h255⟩ : Fin cfg0.N)).2.2.2.2.2.2.2
  intro a
  match a with
  | ⟨0, _⟩ => show win0_15.index _ (0 : Fin 2) * 1 ≤ (i 0).val ∧ (i 0).val < win0_15.index _ (0 : Fin 2) * 1 + 1; rw [e0]; omega
  | ⟨1, _⟩ => show win0_15.index _ (1 : Fin 2) * 1 ≤ (i 1).val ∧ (i 1).val < win0_15.index _ (1 : Fin 2) * 1 + 1; rw [e1]; omega

/-- So the one-word output ends at the step's total count. -/
theorem final15 (c : Dev nD) : (dats m 0 c).arrAt 15 cfg0.N = fun _ => R4 (aX m c) (aS m c) (aPXI m c) (aPSD m c) (aFZ m c) (aFXI m c) := by
  rw [← total_eq m c]
  exact (dats m 0 c).arrAt_eq_of_cover 15 (fun _ => (∑ t ∈ Finset.range 256, cnt m c t : EReal)) (flushed15 m c) cover15

end Cert.KernelIdeal.Accum

end
-- ==== Proof.KernelRun.lean ====
import proofs.«145237_j46729244180908_1_alg».proof.Proof.FramePB
import proofs.«145237_j46729244180908_1_alg».proof.Proof.Arrays
import proofs.«145237_j46729244180908_1_alg».proof.Proof.Accum
import Idealize.ShloMosaic.Lib.StableHlo.Run

/-!
# The kernel program's results

After the region two host lines remain: the joined frozen flag, held as a number, is compared with one half
(giving back the flag as a bit), and the one-word count is reshaped to a scalar.  With the region's arrays
read off the run, every result of the program is the step's result `Cert.Spec.R0 … R7` of the arguments.
-/

noncomputable section

namespace Cert.KernelIdeal.KRun

open Idealize.ShloMosaic Idealize.ShloMosaic.TcCoe Idealize.ShloMosaic.ValueIdx Idealize.SL.Sem
open Idealize.ShloMosaic.Pipeline (Dat)
open Cert.KernelIdeal Cert.KernelIdeal.Gen Cert.KernelIdeal.GenP Cert.Spec Cert.KernelIdeal.Arrays

variable (m : (ℓ : Loc nD τ sig) → Buf (Elt Ideal) ℓ) (ρ : Dev nD → PrngReg)

/-- The frozen flag after the region: the number compared with one half. -/
theorem tail_v4 (c : Dev nD) :
    Pipeline.afterTail₀ cfgs (dats m) 0 (V0 m) [hostOps1] c main_v4
      = arr2 (R5 (aX m c) (aS m c) (aPXI m c) (aPSD m c) (aEO m c) (aFZ m c) (aFXI m c)) := by
  unfold Pipeline.afterTail₀
  show StableHlo.after hostOps1 _ (Proc.devRef .tc main_v4) = _
  after_results
  have e : Pipeline.withArrays (cfgs 0).spec c (V0 m c) (fun w => (dats m 0 c).arrAt w (cfgs 0).N)
      (Proc.devRef .tc main_v2_4)
      = arr2 (FZN (aX m c) (aS m c) (aPXI m c) (aPSD m c) (aEO m c) (aFZ m c) (aFXI m c)) :=
    (Pipeline.withArrays_arr spec0 launch0.win.arr_inj c _ _ 12).trans (final12 m c)
  rw [e]
  funext i
  obtain ⟨a, b, rfl⟩ : ∃ (a : Fin 4096) (b : Fin 11008), i = ix2 a b := ⟨i 0, i 1, eq_ix2 i⟩
  rfl

/-- The count after the region: the one word as a scalar. -/
theorem tail_v5 (c : Dev nD) :
    Pipeline.afterTail₀ cfgs (dats m) 0 (V0 m) [hostOps1] c main_v5
      = fun _ => R4 (aX m c) (aS m c) (aPXI m c) (aPSD m c) (aFZ m c) (aFXI m c) := by
  unfold Pipeline.afterTail₀
  show StableHlo.after hostOps1 _ (Proc.devRef .tc main_v5) = _
  after_results
  have e : Pipeline.withArrays (cfgs 0).spec c (V0 m c) (fun w => (dats m 0 c).arrAt w (cfgs 0).N)
      (Proc.devRef .tc main_v2_7)
      = fun _ => R4 (aX m c) (aS m c) (aPXI m c) (aPSD m c) (aFZ m c) (aFXI m c) :=
    (Pipeline.withArrays_arr spec0 launch0.win.arr_inj c _ _ 15).trans (Accum.final15 m c)
  funext i
  show shapeCast S_ (Pipeline.withArrays (cfgs 0).spec c (V0 m c) (fun w => (dats m 0 c).arrAt w (cfgs 0).N)
    (Proc.devRef .tc main_v2_7)) shapeCasts_S1x1_S_ i = _
  rw [e]
  rfl

/-- The kernel program's run: every result at the step's result of the arguments, the arguments unchanged. -/
theorem run : θ_run defs (onTc (τ := τ) (main (F := Ideal))) ⟨m, fun _ => 0, ρ⟩ fun r => ∀ c : Dev nD,
      r.2.mem ((c.tc : Thread nD τ).loc main_v2_0) = arr2 (R0 (aX m c) (aS m c) (aFZ m c) (aFXI m c))
      ∧ r.2.mem ((c.tc : Thread nD τ).loc main_v2_1) = arr2 (R1 (aX m c) (aS m c) (aFZ m c) (aFXI m c))
      ∧ r.2.mem ((c.tc : Thread nD τ).loc main_v2_2) = arr2 (R2 (aX m c) (aS m c) (aPXI m c) (aPSD m c) (aFZ m c) (aFXI m c))
      ∧ r.2.mem ((c.tc : Thread nD τ).loc main_v2_3) = arr2 (R3 (aX m c) (aS m c) (aPXI m c) (aPSD m c) (aEO m c) (aFZ m c) (aFXI m c))
      ∧ r.2.mem ((c.tc : Thread nD τ).loc main_v5) = (fun _ => R4 (aX m c) (aS m c) (aPXI m c) (aPSD m c) (aFZ m c) (aFXI m c))
      ∧ r.2.mem ((c.tc : Thread nD τ).loc main_v4) = arr2 (R5 (aX m c) (aS m c) (aPXI m c) (aPSD m c) (aEO m c) (aFZ m c) (aFXI m c))
      ∧ r.2.mem ((c.tc : Thread nD τ).loc main_v2_5) = arr2 (R6 (aX m c) (aS m c) (aPXI m c) (aPSD m c) (aEO m c) (aFZ m c) (aFXI m c) (aEXI m c))
      ∧ r.2.mem ((c.tc : Thread nD τ).loc main_v2_6) = arr2 (R7 (aX m c) (aS m c) (aFZ m c) (aFXI m c) (aEXI m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun _ h c => ⟨((h c).1 8).trans (final8 m c), ((h c).1 9).trans (final9 m c),
      ((h c).1 10).trans (final10 m c), ((h c).1 11).trans (final11 m c),
      ((h c).2 main_v5 (Pipeline.mem_restRefs_of main_v5 (by decide) (by decide))).trans (tail_v5 m c),
      ((h c).2 main_v4 (Pipeline.mem_restRefs_of main_v4 (by decide) (by decide))).trans (tail_v4 m c),
      ((h c).1 13).trans (final13 m c), ((h c).1 14).trans (final14 m c),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      ((h c).1 2).trans (((dats m 0 c).arrAt_in 2 rfl _).trans ((A_eq m c 2).trans (V_main_arg2 m c))),
      ((h c).1 3).trans (((dats m 0 c).arrAt_in 3 rfl _).trans ((A_eq m c 3).trans (V_main_arg3 m c))),
      ((h c).1 4).trans (((dats m 0 c).arrAt_in 4 rfl _).trans ((A_eq m c 4).trans (V_main_arg4 m c))),
      (((h c).2 main_arg5 (Pipeline.mem_restRefs_of main_arg5 (by decide) (by decide))).trans (W_main_arg5 m (dats m) c)),
      ((h c).1 6).trans (((dats m 0 c).arrAt_in 6 rfl _).trans ((A_eq m c 6).trans (V_main_arg6 m c))),
      ((h c).1 7).trans (((dats m 0 c).arrAt_in 7 rfl _).trans ((A_eq m c 7).trans (V_main_arg7 m c)))⟩)
    (run_main m ρ)

end Cert.KernelIdeal.KRun

end
-- ==== Proof.LibFinite.lean ====
/-
  Finite extended reals.

  An extended real is FINITE (here `IsReal`) when it is the image of a real number, equivalently when it is
  neither `⊤` nor `⊥`. The arithmetic of the extended reals is the arithmetic of the reals on the finite
  ones: sums, differences, products, finite sums, maxima and minima of finite values are finite, and so are a
  quotient by a finite divisor that is not zero, the exponential, and a power `r ^ (-1/2)` of a real `r ≥ 1`
  (which is moreover positive). Distributivity of the product over the sum FAILS on the extended reals at the
  infinities, so an algebraic law between two arrangements of a sum of products is proved on the reals and
  carried over; a part of this file is the toolkit for that: the coercion commutes with finite
  sums, and a family of finite extended reals is the coercion of a family of reals. The last part reads three
  stages of a network layer on finite values: min-max normalisation, the leaky activation, a column maximum or
  minimum.
-/
import Idealize.ShloMosaic.PureOps.Ideal
import Idealize.ShloMosaic.PureOps.Ideal.Laws
import Idealize.ShloMosaic.Lib.ValueIdx

noncomputable section

open scoped BigOperators

namespace Cert.Finite

open Idealize.ShloMosaic

/-! ## Finite extended reals -/

/-- `x` is (the coercion of) a real number. -/
def IsReal (x : EReal) : Prop := ∃ r : ℝ, x = (r : EReal)

/-- The coercion of a real is finite. -/
theorem isReal_coe (r : ℝ) : IsReal (r : EReal) := ⟨r, rfl⟩

/-- Finite means: neither infinity. -/
theorem isReal_iff_ne {x : EReal} : IsReal x ↔ x ≠ ⊤ ∧ x ≠ ⊥ := by
  constructor
  · rintro ⟨r, rfl⟩
    exact ⟨EReal.coe_ne_top r, EReal.coe_ne_bot r⟩
  · rintro ⟨ht, hb⟩
    exact ⟨x.toReal, (EReal.coe_toReal ht hb).symm⟩

/-- An extended real that is neither infinity is finite. -/
theorem isReal_of_ne {x : EReal} (ht : x ≠ ⊤) (hb : x ≠ ⊥) : IsReal x := isReal_iff_ne.mpr ⟨ht, hb⟩

/-- A finite value is not `⊤`. -/
theorem IsReal.ne_top {x : EReal} (h : IsReal x) : x ≠ ⊤ := (isReal_iff_ne.mp h).1

/-- A finite value is not `⊥`. -/
theorem IsReal.ne_bot {x : EReal} (h : IsReal x) : x ≠ ⊥ := (isReal_iff_ne.mp h).2

/-- A finite extended real is the coercion of its real part. -/
theorem IsReal.coe_toReal {x : EReal} (h : IsReal x) : ((x.toReal : ℝ) : EReal) = x :=
  EReal.coe_toReal h.ne_top h.ne_bot

/-- A finite value is above `⊥`. -/
theorem IsReal.bot_lt {x : EReal} (h : IsReal x) : ⊥ < x := bot_lt_iff_ne_bot.mpr h.ne_bot

/-- A finite value is below `⊤`. -/
theorem IsReal.lt_top {x : EReal} (h : IsReal x) : x < ⊤ := lt_top_iff_ne_top.mpr h.ne_top

/-- `⊤` is not finite. -/
theorem not_isReal_top : ¬ IsReal ⊤ := fun h => h.ne_top rfl

/-- `⊥` is not finite. -/
theorem not_isReal_bot : ¬ IsReal ⊥ := fun h => h.ne_bot rfl

/-! ## Closure under the arithmetic -/

/-- Zero is finite. -/
theorem isReal_zero : IsReal 0 := ⟨0, EReal.coe_zero.symm⟩

/-- One is finite. -/
theorem isReal_one : IsReal 1 := ⟨1, EReal.coe_one.symm⟩

/-- The sum of two finite values is finite. -/
theorem IsReal.add {a b : EReal} (ha : IsReal a) (hb : IsReal b) : IsReal (a + b) := by
  obtain ⟨r, rfl⟩ := ha
  obtain ⟨s, rfl⟩ := hb
  exact ⟨r + s, (EReal.coe_add r s).symm⟩

/-- The opposite of a finite value is finite. -/
theorem IsReal.neg {a : EReal} (ha : IsReal a) : IsReal (-a) := by
  obtain ⟨r, rfl⟩ := ha
  exact ⟨-r, (EReal.coe_neg r).symm⟩

/-- The difference of two finite values is finite. -/
theorem IsReal.sub {a b : EReal} (ha : IsReal a) (hb : IsReal b) : IsReal (a - b) := by
  obtain ⟨r, rfl⟩ := ha
  obtain ⟨s, rfl⟩ := hb
  exact ⟨r - s, (EReal.coe_sub r s).symm⟩

/-- The product of two finite values is finite. -/
theorem IsReal.mul {a b : EReal} (ha : IsReal a) (hb : IsReal b) : IsReal (a * b) := by
  obtain ⟨r, rfl⟩ := ha
  obtain ⟨s, rfl⟩ := hb
  exact ⟨r * s, (EReal.coe_mul r s).symm⟩

/-- A finite sum of finite terms is finite. -/
theorem isReal_sum {ι : Type*} (s : Finset ι) (f : ι → EReal) (h : ∀ i ∈ s, IsReal (f i)) :
    IsReal (∑ i ∈ s, f i) :=
  Finset.sum_induction f IsReal (fun _ _ ha hb => ha.add hb) isReal_zero h

/-- The same over a whole finite type. -/
theorem isReal_sum_univ {ι : Type*} [Fintype ι] (f : ι → EReal) (h : ∀ i, IsReal (f i)) : IsReal (∑ i, f i) :=
  isReal_sum Finset.univ f fun i _ => h i

/-- A zero accumulator plus a finite sum of finite terms is finite. -/
theorem isReal_zero_add_sum {ι : Type*} (s : Finset ι) (f : ι → EReal) (h : ∀ i ∈ s, IsReal (f i)) :
    IsReal (0 + ∑ i ∈ s, f i) :=
  isReal_zero.add (isReal_sum s f h)

/-- A finite accumulator plus a finite sum of finite terms is finite. -/
theorem isReal_add_sum {ι : Type*} (s : Finset ι) (f : ι → EReal) {a : EReal} (ha : IsReal a)
    (h : ∀ i ∈ s, IsReal (f i)) : IsReal (a + ∑ i ∈ s, f i) :=
  ha.add (isReal_sum s f h)

/-! ## Maxima and minima -/

/-- The larger of two finite values is finite. -/
theorem IsReal.max {a b : EReal} (ha : IsReal a) (hb : IsReal b) : IsReal (max a b) := by
  rcases max_choice a b with h | h <;> rw [h] <;> assumption

/-- The smaller of two finite values is finite. -/
theorem IsReal.min {a b : EReal} (ha : IsReal a) (hb : IsReal b) : IsReal (min a b) := by
  rcases min_choice a b with h | h <;> rw [h] <;> assumption

/-- If every member of a family is finite, any value the family takes is finite: however a maximum or a
    minimum over the family is presented, once it is known to be attained it is finite. -/
theorem isReal_of_eq_apply {ι : Sort*} {f : ι → EReal} (h : ∀ i, IsReal (f i)) {m : EReal} (hm : ∃ i, m = f i) :
    IsReal m := by
  obtain ⟨i, rfl⟩ := hm
  exact h i

/-- The same over a finite set of indices. -/
theorem isReal_of_eq_apply_mem {ι : Type*} {s : Finset ι} {f : ι → EReal} (h : ∀ i ∈ s, IsReal (f i)) {m : EReal}
    (hm : ∃ i ∈ s, m = f i) : IsReal m := by
  obtain ⟨i, hi, rfl⟩ := hm
  exact h i hi

/-- The maximum of finitely many finite values, over a nonempty set of indices, is finite. -/
theorem isReal_sup' {ι : Type*} (s : Finset ι) (hs : s.Nonempty) (f : ι → EReal) (h : ∀ i ∈ s, IsReal (f i)) :
    IsReal (s.sup' hs f) := by
  obtain ⟨i, hi, he⟩ := Finset.exists_mem_eq_sup' hs f
  rw [he]
  exact h i hi

/-- The minimum of finitely many finite values, over a nonempty set of indices, is finite. -/
theorem isReal_inf' {ι : Type*} (s : Finset ι) (hs : s.Nonempty) (f : ι → EReal) (h : ∀ i ∈ s, IsReal (f i)) :
    IsReal (s.inf' hs f) := by
  obtain ⟨i, hi, he⟩ := Finset.exists_mem_eq_inf' hs f
  rw [he]
  exact h i hi

/-- The maximum of a family of finite values over a nonempty finite type is finite. -/
theorem isReal_univ_sup' {ι : Type*} [Fintype ι] [Nonempty ι] (f : ι → EReal) (h : ∀ i, IsReal (f i)) :
    IsReal (Finset.univ.sup' Finset.univ_nonempty f) :=
  isReal_sup' _ _ f fun i _ => h i

/-- The minimum of a family of finite values over a nonempty finite type is finite. -/
theorem isReal_univ_inf' {ι : Type*} [Fintype ι] [Nonempty ι] (f : ι → EReal) (h : ∀ i, IsReal (f i)) :
    IsReal (Finset.univ.inf' Finset.univ_nonempty f) :=
  isReal_inf' _ _ f fun i _ => h i

/-- A fold of `max` from a starting value is the starting value or one of the folded values. -/
theorem fold_max_eq_or {ι : Type*} (s : Finset ι) (b : EReal) (f : ι → EReal) :
    s.fold max b f = b ∨ ∃ i ∈ s, s.fold max b f = f i := by
  classical
  refine Finset.induction_on s (Or.inl (Finset.fold_empty)) ?_
  intro a t ha ih
  rw [Finset.fold_insert ha]
  rcases max_choice (f a) (t.fold max b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `min` from a starting value is the starting value or one of the folded values. -/
theorem fold_min_eq_or {ι : Type*} (s : Finset ι) (b : EReal) (f : ι → EReal) :
    s.fold min b f = b ∨ ∃ i ∈ s, s.fold min b f = f i := by
  classical
  refine Finset.induction_on s (Or.inl (Finset.fold_empty)) ?_
  intro a t ha ih
  rw [Finset.fold_insert ha]
  rcases min_choice (f a) (t.fold min b f) with h | h
  · exact Or.inr ⟨a, Finset.mem_insert_self a t, h⟩
  · rw [h]
    rcases ih with ih | ⟨i, hi, ih⟩
    · exact Or.inl ih
    · exact Or.inr ⟨i, Finset.mem_insert_of_mem hi, ih⟩

/-- A fold of `max` from a finite starting value over finite values is finite. -/
theorem isReal_fold_max {ι : Type*} (s : Finset ι) {b : EReal} (f : ι → EReal) (hb : IsReal b)
    (h : ∀ i ∈ s, IsReal (f i)) : IsReal (s.fold max b f) := by
  rcases fold_max_eq_or s b f with e | ⟨i, hi, e⟩ <;> rw [e]
  · exact hb
  · exact h i hi

/-- A fold of `min` from a finite starting value over finite values is finite. -/
theorem isReal_fold_min {ι : Type*} (s : Finset ι) {b : EReal} (f : ι → EReal) (hb : IsReal b)
    (h : ∀ i ∈ s, IsReal (f i)) : IsReal (s.fold min b f) := by
  rcases fold_min_eq_or s b f with e | ⟨i, hi, e⟩ <;> rw [e]
  · exact hb
  · exact h i hi

/-- A fold of `max` from `⊥` (the neutral element of a maximum) over finite values, on a nonempty set of
    indices, is finite: it is above one of them, hence not `⊥`, hence one of them. -/
theorem isReal_fold_max_bot {ι : Type*} (s : Finset ι) (hs : s.Nonempty) (f : ι → EReal)
    (h : ∀ i ∈ s, IsReal (f i)) : IsReal (s.fold max ⊥ f) := by
  rcases fold_max_eq_or s ⊥ f with e | ⟨i, hi, e⟩
  · obtain ⟨i, hi⟩ := hs
    have hle : f i ≤ s.fold max ⊥ f := (Finset.le_fold_max (f i)).mpr (Or.inr ⟨i, hi, le_rfl⟩)
    rw [e] at hle
    exact absurd (le_bot_iff.mp hle) (h i hi).ne_bot
  · rw [e]
    exact h i hi

/-- A fold of `min` from `⊤` (the neutral element of a minimum) over finite values, on a nonempty set of
    indices, is finite. -/
theorem isReal_fold_min_top {ι : Type*} (s : Finset ι) (hs : s.Nonempty) (f : ι → EReal)
    (h : ∀ i ∈ s, IsReal (f i)) : IsReal (s.fold min ⊤ f) := by
  rcases fold_min_eq_or s ⊤ f with e | ⟨i, hi, e⟩
  · obtain ⟨i, hi⟩ := hs
    have hle : s.fold min ⊤ f ≤ f i := (Finset.fold_min_le (f i)).mpr (Or.inr ⟨i, hi, le_rfl⟩)
    rw [e] at hle
    exact absurd (top_le_iff.mp hle) (h i hi).ne_top
  · rw [e]
    exact h i hi

/-! ## Quotient, exponential, power -/

/-- The quotient of two reals, the divisor not zero, is the real quotient. -/
theorem div_coe_coe (r : ℝ) {s : ℝ} (hs : s ≠ 0) : Ideal.div (r : EReal) (s : EReal) = ((r / s : ℝ) : EReal) := by
  rw [Ideal.div_coe hs, ← EReal.coe_mul, mul_one_div]

/-- The quotient of a finite value by a finite divisor that is not zero is finite. -/
theorem IsReal.div {a b : EReal} (ha : IsReal a) (hb : IsReal b) (hb0 : b ≠ 0) : IsReal (Ideal.div a b) := by
  obtain ⟨r, rfl⟩ := ha
  obtain ⟨s, rfl⟩ := hb
  have hs : s ≠ 0 := fun h0 => hb0 (by rw [h0, EReal.coe_zero])
  exact ⟨r / s, div_coe_coe r hs⟩

/-- The exponential of a real is a positive real. -/
theorem exp_coe_isReal (r : ℝ) : IsReal (Ideal.exp (r : EReal)) := ⟨Real.exp r, Ideal.exp_coe r⟩

/-- The exponential of a real is positive. -/
theorem exp_coe_pos (r : ℝ) : 0 < Ideal.exp (r : EReal) := by
  rw [Ideal.exp_coe]
  exact EReal.coe_pos.mpr (Real.exp_pos r)

/-- The exponential of a finite value is finite and positive. -/
theorem IsReal.exp {a : EReal} (ha : IsReal a) : IsReal (Ideal.exp a) ∧ 0 < Ideal.exp a := by
  obtain ⟨r, rfl⟩ := ha
  exact ⟨exp_coe_isReal r, exp_coe_pos r⟩

/-- A power of a positive real by a real exponent is a positive real. -/
theorem pow_coe_coe_of_pos {r : ℝ} (hr : 0 < r) (y : ℝ) :
    IsReal (Ideal.pow (r : EReal) (y : EReal)) ∧ 0 < Ideal.pow (r : EReal) (y : EReal) := by
  rw [Ideal.pow_coe_coe]
  exact ⟨isReal_coe _, EReal.coe_pos.mpr (Real.rpow_pos_of_pos hr y)⟩

/-- A real `r ≥ 1` to the power `-1/2` is a positive real. -/
theorem pow_neg_half_of_one_le {r : ℝ} (hr : 1 ≤ r) :
    IsReal (Ideal.pow (r : EReal) ((-(1 / 2) : ℝ) : EReal)) ∧ 0 < Ideal.pow (r : EReal) ((-(1 / 2) : ℝ) : EReal) :=
  pow_coe_coe_of_pos (lt_of_lt_of_le one_pos hr) _

/-- The same, naming the real value: `r ^ (-1/2) = (√r)⁻¹` for `r ≥ 0`. -/
theorem pow_neg_half_eq {r : ℝ} (hr : 0 ≤ r) :
    Ideal.pow (r : EReal) ((-(1 / 2) : ℝ) : EReal) = (((Real.sqrt r)⁻¹ : ℝ) : EReal) := by
  rw [Ideal.pow_coe_coe]
  congr 1
  show r ^ (-(1 / 2) : ℝ) = (Real.sqrt r)⁻¹
  rw [Real.rpow_neg hr, Real.sqrt_eq_rpow]

/-- The f32 pattern `0xBF000000` is the real `-1/2`. -/
theorem ofBits_neg_half_f32 : Ideal.ofBits .f32 0xBF000000#32 = ((-(1 / 2) : ℝ) : EReal) := by
  simp [Ideal.ofBits, Ideal.ieee, -EReal.coe_mul, -EReal.coe_neg]; norm_num

/-- A finite value `a ≥ 1` to the power written as the f32 pattern `0xBF000000` (that is `-1/2`) is finite and
    positive. -/
theorem IsReal.pow_neg_half {a : EReal} (ha : IsReal a) (h1 : 1 ≤ a) :
    IsReal (Ideal.pow a (Ideal.ofBits .f32 0xBF000000#32)) ∧ 0 < Ideal.pow a (Ideal.ofBits .f32 0xBF000000#32) := by
  obtain ⟨r, rfl⟩ := ha
  rw [ofBits_neg_half_f32]
  exact pow_neg_half_of_one_le (by exact_mod_cast h1)

/-- A finite value raised to at least one, `max a 1`, to the power `-1/2` (the f32 pattern `0xBF000000`) is finite
    and positive: the inverse square root of a degree clamped below by one. -/
theorem isReal_pow_neg_half_max_one {a : EReal} (ha : IsReal a) :
    IsReal (Ideal.pow (max a 1) (Ideal.ofBits .f32 0xBF000000#32))
      ∧ 0 < Ideal.pow (max a 1) (Ideal.ofBits .f32 0xBF000000#32) :=
  (ha.max isReal_one).pow_neg_half (le_max_right a 1)

/-! ## From finite extended reals to reals -/

/-- The coercion commutes with finite sums. -/
@[norm_cast]
theorem coe_sum {ι : Type*} (s : Finset ι) (f : ι → ℝ) : ((∑ i ∈ s, f i : ℝ) : EReal) = ∑ i ∈ s, (f i : EReal) := by
  classical
  refine Finset.induction_on s (by simp) ?_
  intro a t ha ih
  rw [Finset.sum_insert ha, Finset.sum_insert ha, EReal.coe_add, ih]

/-- A family of finite extended reals is the coercion of a family of reals. -/
theorem exists_real_fun {ι : Sort*} (f : ι → EReal) (h : ∀ i, IsReal (f i)) : ∃ g : ι → ℝ, ∀ i, f i = (g i : EReal) := by
  choose g hg using h
  exact ⟨g, hg⟩

/-- The same for a family with two indices. -/
theorem exists_real_fun₂ {ι κ : Sort*} (f : ι → κ → EReal) (h : ∀ i k, IsReal (f i k)) :
    ∃ g : ι → κ → ℝ, ∀ i k, f i k = (g i k : EReal) := by
  choose g hg using h
  exact ⟨g, hg⟩

/-- As an equation of functions, ready for substitution. -/
theorem exists_real_fun_eq {ι : Sort*} (f : ι → EReal) (h : ∀ i, IsReal (f i)) :
    ∃ g : ι → ℝ, f = fun i => (g i : EReal) := by
  obtain ⟨g, hg⟩ := exists_real_fun f h
  exact ⟨g, funext hg⟩

/-- As an equation of functions, two indices. -/
theorem exists_real_fun₂_eq {ι κ : Sort*} (f : ι → κ → EReal) (h : ∀ i k, IsReal (f i k)) :
    ∃ g : ι → κ → ℝ, f = fun i k => (g i k : EReal) := by
  obtain ⟨g, hg⟩ := exists_real_fun₂ f h
  exact ⟨g, funext fun i => funext fun k => hg i k⟩

/-! ## Stages of a layer on finite values

Min-max normalisation, the leaky activation, and a column maximum or minimum keep finite values finite. -/

/-- Min-max normalisation of reals: `(a - r) / (s - r)` when `r < s`. -/
theorem minmax_coe (a : ℝ) {r s : ℝ} (h : r < s) :
    Ideal.div ((a : EReal) - (r : EReal)) ((s : EReal) - (r : EReal)) = (((a - r) / (s - r) : ℝ) : EReal) := by
  rw [← EReal.coe_sub, ← EReal.coe_sub]
  exact div_coe_coe _ (sub_ne_zero.mpr (ne_of_gt h))

/-- Min-max normalisation of a finite value between finite bounds `mn < mx` is finite. -/
theorem isReal_minmax {x mn mx : EReal} (hx : IsReal x) (hmn : IsReal mn) (hmx : IsReal mx) (h : mn < mx) :
    IsReal (Ideal.div (x - mn) (mx - mn)) := by
  obtain ⟨a, rfl⟩ := hx
  obtain ⟨r, rfl⟩ := hmn
  obtain ⟨s, rfl⟩ := hmx
  rw [minmax_coe a (EReal.coe_lt_coe_iff.mp h)]
  exact isReal_coe _

/-- An f32 word whose exponent field is not all ones (neither an infinity nor a NaN pattern) denotes a real. -/
theorem isReal_ofBits_f32 (w : BitVec 32) (h : (w.extractLsb' 23 8).toNat ≠ 2 ^ 8 - 1) :
    IsReal (Ideal.ofBits .f32 w) := by
  show IsReal (Ideal.ieee 8 23 w)
  unfold Ideal.ieee
  simp only [if_neg h]
  split_ifs <;> exact isReal_coe _

/-- The f32 word `0x3C23D70A` (the slope `0.01` of the leaky activation, rounded) denotes a real. -/
theorem isReal_ofBits_slope : IsReal (Ideal.ofBits .f32 0x3C23D70A#32) :=
  isReal_ofBits_f32 _ (by decide)

/-- The f32 word `0xFF800000` is `-∞`. -/
theorem ofBits_neg_inf_f32 : Ideal.ofBits .f32 0xFF800000#32 = ⊥ := by simp [Ideal.ofBits, Ideal.ieee]

/-- The f32 word `0x7F800000` is `+∞`. -/
theorem ofBits_pos_inf_f32 : Ideal.ofBits .f32 0x7F800000#32 = ⊤ := by simp [Ideal.ofBits, Ideal.ieee]

/-- The comparison `y > 0` against the f32 zero word answers the bit one when `0 < y`. -/
theorem cmpf_ogt_zero_of_pos {y : Ideal .f32} (hy : 0 < y) :
    FloatOps.cmpf .ogt y (Ideal.ofBits .f32 0x00000000#32) = 1#1 := by
  rw [Ideal.cmpf_def, Ideal.ofBits_zero_f32]
  show BitVec.ofBool (decide ((0 : EReal) < y)) = 1#1
  rw [decide_eq_true hy]
  rfl

/-- The comparison `y > 0` against the f32 zero word answers the bit zero when not `0 < y`. -/
theorem cmpf_ogt_zero_of_not_pos {y : Ideal .f32} (hy : ¬ 0 < y) :
    FloatOps.cmpf .ogt y (Ideal.ofBits .f32 0x00000000#32) = 0#1 := by
  rw [Ideal.cmpf_def, Ideal.ofBits_zero_f32]
  show BitVec.ofBool (decide ((0 : EReal) < y)) = 0#1
  rw [decide_eq_false hy]
  rfl

/-- The leaky activation `if y > 0 then y else c * y` at a positive value is the value. -/
theorem leaky_of_pos (c : Ideal .f32) {y : Ideal .f32} (hy : 0 < y) :
    Scalar.select (FloatOps.cmpf .ogt y (Ideal.ofBits .f32 0x00000000#32)) y (c * y) = y := by
  rw [cmpf_ogt_zero_of_pos hy]
  exact if_pos rfl

/-- The leaky activation at a value that is not positive is the slope times the value. -/
theorem leaky_of_not_pos (c : Ideal .f32) {y : Ideal .f32} (hy : ¬ 0 < y) :
    Scalar.select (FloatOps.cmpf .ogt y (Ideal.ofBits .f32 0x00000000#32)) y (c * y) = c * y := by
  rw [cmpf_ogt_zero_of_not_pos hy]
  exact if_neg (by decide)

/-- The leaky activation of a finite value with a finite slope is finite. -/
theorem isReal_leaky {c y : Ideal .f32} (hc : IsReal c) (hy : IsReal y) :
    IsReal (Scalar.select (FloatOps.cmpf .ogt y (Ideal.ofBits .f32 0x00000000#32)) y (c * y)) := by
  by_cases h : 0 < y
  · rw [leaky_of_pos c h]
    exact hy
  · rw [leaky_of_not_pos c h]
    exact hc.mul hy

/-- The leaky activation with the slope word `0x3C23D70A` of a finite value is finite. -/
theorem isReal_leaky_slope {y : Ideal .f32} (hy : IsReal y) :
    IsReal (Scalar.select (FloatOps.cmpf .ogt y (Ideal.ofBits .f32 0x00000000#32)) y
      (Ideal.ofBits .f32 0x3C23D70A#32 * y)) :=
  isReal_leaky isReal_ofBits_slope hy

/-! ### A maximum or minimum over one axis -/

section Reduce

variable {s t u : Shape} {a : Fin s.rank} {φ : FTy}

/-- A reduction with a maximum body over one axis is, at `j`, the fold of `max` from the initial value over that
    axis's coordinates. -/
theorem hostReduce_maximumf_eq_fold (x : FVec Ideal s φ) (init : FVec Ideal u φ) (h' : s.ReducesTo [a] t)
    (h : s.Reduces [a] t) (hu : 0 < u.numel) (j : t.Idx) :
    Host.reduce FloatOps.maximumf x init h' hu j
      = (Finset.univ : Finset (Fin (s.size a))).fold max (init (Shape.Idx.first hu)) (x ∘ h.lift j) :=
  Host.reduce_eq_fold_single FloatOps.maximumf x init h' h hu j

/-- A reduction with a minimum body over one axis is, at `j`, the fold of `min` from the initial value over that
    axis's coordinates. -/
theorem hostReduce_minimumf_eq_fold (x : FVec Ideal s φ) (init : FVec Ideal u φ) (h' : s.ReducesTo [a] t)
    (h : s.Reduces [a] t) (hu : 0 < u.numel) (j : t.Idx) :
    Host.reduce FloatOps.minimumf x init h' hu j
      = (Finset.univ : Finset (Fin (s.size a))).fold min (init (Shape.Idx.first hu)) (x ∘ h.lift j) :=
  Host.reduce_eq_fold_single FloatOps.minimumf x init h' h hu j

/-- The maximum over a nonempty axis, from `-∞`, of finite values is finite. -/
theorem isReal_hostReduce_maximumf (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) : IsReal (Host.reduce (α := Ideal φ) FloatOps.maximumf x init h' hu j) := by
  rw [hostReduce_maximumf_eq_fold x init h' h hu j, hinit]
  exact isReal_fold_max_bot _ ⟨⟨0, hpos⟩, Finset.mem_univ _⟩ _ fun k _ => hx _

/-- The maximum over an axis is at least every value along it. -/
theorem le_hostReduce_maximumf (x : FVec Ideal s φ) (init : FVec Ideal u φ) (h' : s.ReducesTo [a] t)
    (h : s.Reduces [a] t) (hu : 0 < u.numel) (j : t.Idx) (k : Fin (s.size a)) :
    x (h.lift j k) ≤ Host.reduce FloatOps.maximumf x init h' hu j := by
  rw [hostReduce_maximumf_eq_fold x init h' h hu j]
  exact (Finset.le_fold_max _).mpr (Or.inr ⟨k, Finset.mem_univ _, le_rfl⟩)

/-- Every entry is at most the maximum at the index it reduces to. -/
theorem le_hostReduce_maximumf_drop (x : FVec Ideal s φ) (init : FVec Ideal u φ) (h' : s.ReducesTo [a] t)
    (h : s.Reduces [a] t) (hu : 0 < u.numel) (i : s.Idx) :
    x i ≤ Host.reduce FloatOps.maximumf x init h' hu (h.drop i) := by
  have e := le_hostReduce_maximumf x init h' h hu (h.drop i) (i a)
  rwa [h.lift_drop] at e

/-- The maximum over a nonempty axis, from `-∞`, of finite values is one of them. -/
theorem hostReduce_maximumf_attained (x : FVec Ideal s φ) (init : FVec Ideal u φ) (h' : s.ReducesTo [a] t)
    (h : s.Reduces [a] t) (hu : 0 < u.numel) (hinit : init (Shape.Idx.first hu) = ⊥) (hpos : 0 < s.size a)
    (hx : ∀ i, IsReal (x i)) (j : t.Idx) :
    ∃ k : Fin (s.size a), Host.reduce FloatOps.maximumf x init h' hu j = x (h.lift j k) := by
  have hr := isReal_hostReduce_maximumf x init h' h hu hinit hpos hx j
  rw [hostReduce_maximumf_eq_fold x init h' h hu j, hinit] at hr ⊢
  rcases fold_max_eq_or Finset.univ ⊥ (x ∘ h.lift j) with e | ⟨k, _, e⟩
  · rw [e] at hr
    exact absurd hr not_isReal_bot
  · exact ⟨k, e⟩

/-- The minimum over a nonempty axis, from `+∞`, of finite values is finite. -/
theorem isReal_hostReduce_minimumf (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) : IsReal (Host.reduce (α := Ideal φ) FloatOps.minimumf x init h' hu j) := by
  rw [hostReduce_minimumf_eq_fold x init h' h hu j, hinit]
  exact isReal_fold_min_top _ ⟨⟨0, hpos⟩, Finset.mem_univ _⟩ _ fun k _ => hx _

/-- The minimum over an axis is at most every value along it. -/
theorem hostReduce_minimumf_le (x : FVec Ideal s φ) (init : FVec Ideal u φ) (h' : s.ReducesTo [a] t)
    (h : s.Reduces [a] t) (hu : 0 < u.numel) (j : t.Idx) (k : Fin (s.size a)) :
    Host.reduce FloatOps.minimumf x init h' hu j ≤ x (h.lift j k) := by
  rw [hostReduce_minimumf_eq_fold x init h' h hu j]
  exact (Finset.fold_min_le _).mpr (Or.inr ⟨k, Finset.mem_univ _, le_rfl⟩)

/-- Every entry is at least the minimum at the index it reduces to. -/
theorem hostReduce_minimumf_drop_le (x : FVec Ideal s φ) (init : FVec Ideal u φ) (h' : s.ReducesTo [a] t)
    (h : s.Reduces [a] t) (hu : 0 < u.numel) (i : s.Idx) :
    Host.reduce FloatOps.minimumf x init h' hu (h.drop i) ≤ x i := by
  have e := hostReduce_minimumf_le x init h' h hu (h.drop i) (i a)
  rwa [h.lift_drop] at e

/-- The minimum over a nonempty axis, from `+∞`, of finite values is one of them. -/
theorem hostReduce_minimumf_attained (x : FVec Ideal s φ) (init : FVec Ideal u φ) (h' : s.ReducesTo [a] t)
    (h : s.Reduces [a] t) (hu : 0 < u.numel) (hinit : init (Shape.Idx.first hu) = ⊤) (hpos : 0 < s.size a)
    (hx : ∀ i, IsReal (x i)) (j : t.Idx) :
    ∃ k : Fin (s.size a), Host.reduce FloatOps.minimumf x init h' hu j = x (h.lift j k) := by
  have hr := isReal_hostReduce_minimumf x init h' h hu hinit hpos hx j
  rw [hostReduce_minimumf_eq_fold x init h' h hu j, hinit] at hr ⊢
  rcases fold_min_eq_or Finset.univ ⊤ (x ∘ h.lift j) with e | ⟨k, _, e⟩
  · rw [e] at hr
    exact absurd hr not_isReal_top
  · exact ⟨k, e⟩

end Reduce

/-! ### The column maximum and minimum of a matrix -/

section Column

open Idealize.ShloMosaic.ValueIdx

variable {R C : Nat}

/-- In a reduction of an `R × C` matrix over its rows, column `c` with row `k` put back is the entry `(k, c)`. -/
theorem lift_ix2 (h : (⟨2, ![R, C]⟩ : Shape).Reduces [0] (⟨1, ![C]⟩ : Shape)) (c : Fin C)
    (k : Fin ((⟨2, ![R, C]⟩ : Shape).size 0)) : h.lift (ix1 c) k = ix2 (⟨k.val, k.isLt⟩ : Fin R) c := by
  funext d
  apply Fin.ext
  fin_cases d <;> rfl

/-- The column maximum, from the word of `-∞`, of a matrix of finite values with at least one row is finite. -/
theorem isReal_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.maximumf x (constant (⟨0, ![]⟩ : Shape) .f32 0xFF800000#32) h' hu (ix1 c)) :=
  isReal_hostReduce_maximumf x (constant (⟨0, ![]⟩ : Shape) .f32 0xFF800000#32) h' h hu ofBits_neg_inf_f32 hR hx (ix1 c)

/-- The column maximum is at least every entry of the column. -/
theorem le_colMax (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    x (ix2 r c) ≤ Host.reduce FloatOps.maximumf x (constant (⟨0, ![]⟩ : Shape) .f32 0xFF800000#32) h' hu (ix1 c) := by
  have e := le_hostReduce_maximumf x (constant (⟨0, ![]⟩ : Shape) .f32 0xFF800000#32) h' h hu (ix1 c) r
  rwa [lift_ix2 h c r] at e

/-- The column maximum of a matrix of finite values with at least one row is an entry of the column. -/
theorem colMax_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.maximumf x (constant (⟨0, ![]⟩ : Shape) .f32 0xFF800000#32) h' hu (ix1 c) = x (ix2 r c) := by
  obtain ⟨k, e⟩ := hostReduce_maximumf_attained x (constant (⟨0, ![]⟩ : Shape) .f32 0xFF800000#32) h' h hu ofBits_neg_inf_f32 hR hx (ix1 c)
  exact ⟨⟨k.val, k.isLt⟩, by rw [e, lift_ix2 h c k]⟩

/-- The column minimum, from the word of `+∞`, of a matrix of finite values with at least one row is finite. -/
theorem isReal_colMin (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    IsReal (Host.reduce (α := Ideal .f32) FloatOps.minimumf x (constant (⟨0, ![]⟩ : Shape) .f32 0x7F800000#32) h' hu (ix1 c)) :=
  isReal_hostReduce_minimumf x (constant (⟨0, ![]⟩ : Shape) .f32 0x7F800000#32) h' h hu ofBits_pos_inf_f32 hR hx (ix1 c)

/-- The column minimum is at most every entry of the column. -/
theorem colMin_le (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (r : Fin R) (c : Fin C) :
    Host.reduce FloatOps.minimumf x (constant (⟨0, ![]⟩ : Shape) .f32 0x7F800000#32) h' hu (ix1 c) ≤ x (ix2 r c) := by
  have e := hostReduce_minimumf_le x (constant (⟨0, ![]⟩ : Shape) .f32 0x7F800000#32) h' h hu (ix1 c) r
  rwa [lift_ix2 h c r] at e

/-- The column minimum of a matrix of finite values with at least one row is an entry of the column. -/
theorem colMin_attained (x : FVec Ideal ⟨2, ![R, C]⟩ .f32)
    (h' : (⟨2, ![R, C]⟩ : Shape).ReducesTo [0] (⟨1, ![C]⟩ : Shape))
    (h : (⟨2, ![R, C]⟩ : Shape).Reduces [0] (⟨1, ![C]⟩ : Shape)) (hu : 0 < (⟨0, ![]⟩ : Shape).numel)
    (hR : 0 < R) (hx : ∀ i, IsReal (x i)) (c : Fin C) :
    ∃ r : Fin R,
      Host.reduce FloatOps.minimumf x (constant (⟨0, ![]⟩ : Shape) .f32 0x7F800000#32) h' hu (ix1 c) = x (ix2 r c) := by
  obtain ⟨k, e⟩ := hostReduce_minimumf_attained x (constant (⟨0, ![]⟩ : Shape) .f32 0x7F800000#32) h' h hu ofBits_pos_inf_f32 hR hx (ix1 c)
  exact ⟨⟨k.val, k.isLt⟩, by rw [e, lift_ix2 h c k]⟩

end Column

end Cert.Finite
-- ==== Proof.RefSideScalar.lean ====
/-
  Scalar facts about the quantiser step, on the extended reals.

  The reference computes the row scale as ((s > ε ? s : ε) − s·g) + s·g and the code as (round(c) − c) + c; when the
  subtracted and re-added quantity is a real number, both collapse: x − t + t = x for every extended real x and
  real t. The clamp c = min 7 (max (−8) q) is always a real. The remaining facts read one-bit words as numbers:
  a bit b is recovered from the comparison "b as a number > 1/2", the disjunction of two bits is the comparison
  "the larger of the two numbers > 1/2", and a bit as a number is the choice between the constants 1 and 0.
-/
import proofs.«145237_j46729244180908_1_alg».proof.Proof.Spec
import proofs.«145237_j46729244180908_1_alg».proof.Proof.LibFinite
import Idealize.ShloMosaic.PureOps.Ideal.Laws
import Idealize.ShloMosaic.PureOps.IdealRules

noncomputable section

namespace Cert.RefSide

open Idealize.ShloMosaic Cert.Spec Cert.Finite

/-! ## The constants that must be evaluated -/

theorem cZero_eq : cZero = 0 := Ideal.ofBits_zero_f32

theorem cOne_eq : cOne = 1 := IdealRules.sign_bit.ideal_onePat .f32

theorem cM1_eq : cM1 = -1 := IdealRules.sign_bit.ideal_negOnePat .f32

theorem cHalf_eq : cHalf = (((1 : ℝ) / 2 : ℝ) : EReal) := by
  unfold cHalf
  simp [Ideal.ofBits, Ideal.ieee, -EReal.coe_mul]
  norm_num

/-- The words for ε, −8 and 7 denote reals. -/
theorem cEps_real : IsReal cEps := isReal_ofBits_f32 _ (by decide)
theorem cM8_real : IsReal cM8 := isReal_ofBits_f32 _ (by decide)
theorem c7_real : IsReal c7 := isReal_ofBits_f32 _ (by decide)

/-! ## Subtracting and adding back a real -/

/-- A real subtracted and added back leaves every extended real unchanged. -/
theorem sub_add_cancel_coe (x : EReal) (t : ℝ) : x - (t : EReal) + (t : EReal) = x := by
  induction x using EReal.rec with
  | bot => simp
  | top => simp
  | coe r => norm_cast; ring

/-- The same for a finite extended real. -/
theorem sub_add_cancel_real (x : EReal) {t : EReal} (ht : IsReal t) : x - t + t = x := by
  obtain ⟨r, rfl⟩ := ht
  exact sub_add_cancel_coe x r

/-! ## The scale -/

/-- The choice "s if s > ε else ε" is the larger of the two. -/
theorem select_ogt_eq_max (s e : EReal) : Scalar.select (Ideal.cmp .ogt s e) s e = max s e := by
  unfold Scalar.select Ideal.cmp
  by_cases h : e < s
  · simp [h, max_eq_left h.le]
  · simp [h, max_eq_right (not_lt.mp h)]

/-- The reference's scale: for a real s and a real constant g, ((s > ε ? s : ε) − s·g) + s·g = max s ε. -/
theorem scale_eq {s : EReal} (hs : IsReal s) {g : EReal} (hg : IsReal g) :
    Scalar.select (Ideal.cmp .ogt s cEps) s cEps - s * g + s * g = scale s := by
  rw [sub_add_cancel_real _ (hs.mul hg), select_ogt_eq_max]
  rfl

/-! ## The clamp and the rounding -/

/-- The clamp of any extended real to [−8, 7] is a real. -/
theorem clamp_real (q : EReal) : IsReal (min c7 (max cM8 q)) := by
  refine isReal_of_ne ?_ ?_
  · exact ne_of_lt (lt_of_le_of_lt (min_le_left _ _) c7_real.lt_top)
  · exact ne_of_gt (lt_of_lt_of_le (c7_real.min cM8_real).bot_lt (min_le_min le_rfl (le_max_left cM8 q)))

/-- (round(c) − c) + c = round(c) for the clamp c. -/
theorem round_clamp (q : EReal) :
    rnd (min c7 (max cM8 q)) - min c7 (max cM8 q) + min c7 (max cM8 q) = rnd (min c7 (max cM8 q)) :=
  sub_add_cancel_real _ (clamp_real q)

/-! ## One-bit words as numbers -/

theorem bitNum_zero : bitNum 0#1 = 0 := by simp [bitNum]
theorem bitNum_one : bitNum 1#1 = 1 := by simp [bitNum]

/-- A bit is the comparison "its number > 1/2". -/
theorem cmp_bitNum_half (b : BitVec 1) : Ideal.cmp .ogt (bitNum b) cHalf = b := by
  rw [cHalf_eq]
  rcases BitVec.eq_zero_or_eq_one b with h | h <;> subst h
  · rw [bitNum_zero]
    have : ¬ ((((1 : ℝ) / 2 : ℝ) : EReal) < 0) := by
      rw [← EReal.coe_zero, EReal.coe_lt_coe_iff]; norm_num
    show BitVec.ofBool (decide ((((1 : ℝ) / 2 : ℝ) : EReal) < 0)) = 0#1
    rw [decide_eq_false this]; rfl
  · rw [bitNum_one]
    have : ((((1 : ℝ) / 2 : ℝ) : EReal) < 1) := by
      rw [← EReal.coe_one, EReal.coe_lt_coe_iff]; norm_num
    show BitVec.ofBool (decide ((((1 : ℝ) / 2 : ℝ) : EReal) < 1)) = 1#1
    rw [decide_eq_true this]; rfl

/-- A choice on a bit is the choice on "its number > 1/2". -/
theorem select_bit {α : Type} (b : BitVec 1) (A B : α) :
    Scalar.select b A B = Scalar.select (Ideal.cmp .ogt (bitNum b) cHalf) A B := by
  rw [cmp_bitNum_half]

/-- A bit read as an unsigned number is the choice between the constants 1 and 0. -/
theorem uitofp_bit (b : BitVec 1) : (((b.toNat : ℝ)) : EReal) = Scalar.select b cOne cZero := by
  rw [cOne_eq, cZero_eq]
  rcases BitVec.eq_zero_or_eq_one b with h | h <;> subst h <;> simp [Scalar.select]

/-- The disjunction of two bits is the comparison "the larger of their numbers > 1/2". -/
theorem ori_bit (b w : BitVec 1) :
    IntOp.ori b w = Ideal.cmp .ogt (max (bitNum b) ((((w.setWidth 32).toInt : ℝ)) : EReal)) cHalf := by
  have hw : ((((w.setWidth 32).toInt : ℝ)) : EReal) = bitNum w := by
    rcases BitVec.eq_zero_or_eq_one w with h | h <;> subst h <;> simp [bitNum]
  rw [hw]
  rcases BitVec.eq_zero_or_eq_one b with h | h <;> subst h <;>
    rcases BitVec.eq_zero_or_eq_one w with h' | h' <;> subst h'
  · rw [max_self, cmp_bitNum_half]; rfl
  · rw [bitNum_zero, bitNum_one, max_eq_right (by norm_num), ← bitNum_one, cmp_bitNum_half]; rfl
  · rw [bitNum_zero, bitNum_one, max_eq_left (by norm_num), ← bitNum_one, cmp_bitNum_half]; rfl
  · rw [max_self, cmp_bitNum_half]; rfl

/-! ## The sign and the unordered comparison -/

/-- The sign of an extended real (−1 / 0 / 1 by the order) is the specification's sign. -/
theorem sign_eq_sgn (d : EReal) : Ideal.sign d = sgn d :=
  (Ideal.jnp_sign_eq_sign_f32 d).symm

/-- "Not equal", unordered or ordered, is one comparison on the extended reals. -/
theorem cmp_une (x y : EReal) : Ideal.cmp .une x y = Ideal.cmp .one x y := rfl

end Cert.RefSide

end
-- ==== Proof.RefSideEntry.lean ====
/-
  The reference, read entry by entry, is the specification.

  Every stage of the reference is an entrywise function of the argument arrays, apart from two broadcasts of the
  row scale (row a of the scale column goes to every entry of row a) and the total sum. Reading the stages at the
  entry (a, b): the scale column at row a is ((s_a > ε ? s_a : ε) − s_a·g) + s_a·g, which is max(s_a, ε) because
  s_a is a real; the code is (round(c) − c) + c = round(c) because the clamp c is a real; the frozen bit selects
  as the comparison of its number with 1/2 does; the host's sign is the specification's sign; "not equal" has one
  meaning on the extended reals; a bit converted to a float is the choice between 1 and 0; the disjunction of two
  bits is the comparison of the larger number with 1/2; the total sum from 0 is the double sum over rows and
  columns.
-/
import proofs.«145237_j46729244180908_1_alg».proof.Proof.Gen.ReferenceIdeal.Read
import proofs.«145237_j46729244180908_1_alg».proof.Proof.RefSideScalar

noncomputable section

namespace Cert.RefSide

open Idealize.ShloMosaic Idealize.ShloMosaic.ValueIdx Cert.ReferenceIdeal Cert.ReferenceIdeal.Read Cert.Spec
open Cert.Finite

/-- The word g of the reference's scale line denotes a real. -/
theorem cG_real : IsReal (Ideal.ofBits .f32 0x3B6C16EA#32) := isReal_ofBits_f32 _ (by decide)

section Entries

variable (x0 : (⟨S4096x11008, .f32⟩ : BufTy).Contents (Elt Ideal)) (x1 : (⟨S4096, .f32⟩ : BufTy).Contents (Elt Ideal))
  (x2 x3 x4 : (⟨S4096x11008, .f32⟩ : BufTy).Contents (Elt Ideal)) (x5 : (⟨S4096x11008, .i1⟩ : BufTy).Contents (Elt Ideal))
  (x6 x7 : (⟨S4096x11008, .f32⟩ : BufTy).Contents (Elt Ideal))

/-- Row a of the scale column, seen from entry (a, b) of a large array, is entry a of the scale vector. -/
theorem idx_row (a : Fin 4096) (b : Fin 11008) : idx_main_v0 (idx_main_v10 (ix2 a b)) = ix1 a :=
  funext fun d => Fin.ext (by match d with | ⟨0, _⟩ => rfl)

/-- The scale column at the row of entry (a, b) is max(s_a, ε). -/
theorem scale_at (hs : ∀ a : Fin 4096, IsReal (x1 (ix1 a))) (a : Fin 4096) (b : Fin 11008) :
    val_main_v9 (F := Ideal) x1 (idx_main_v10 (ix2 a b)) = scale (x1 (ix1 a)) := by
  simp only [val_main_v9_apply, val_main_v6_apply, val_main_v8_apply, val_main_v5_apply, val_main_v3_apply,
    val_main_v2_apply, val_main_v0_apply, val_main_v1_apply, val_main_cst_apply, val_main_call0_v0_apply,
    val_main_cst_0_apply, val_main_v4_apply, val_main_cst_1_apply, val_main_v7_apply, val_main_cst_2_apply, idx_row]
  exact scale_eq (hs a) cG_real

/-- The code before the frozen choice: round(clamp(x / σ)). -/
theorem code_at (hs : ∀ a : Fin 4096, IsReal (x1 (ix1 a))) (a : Fin 4096) (b : Fin 11008) :
    val_main_v15 (F := Ideal) x0 x1 (ix2 a b) = quant (x0 (ix2 a b)) (x1 (ix1 a)) := by
  simp only [val_main_v15_apply, val_main_v14_apply, val_main_v13_apply, val_main_v12_apply, val_main_call1_v2_apply,
    val_main_cst_4_apply, val_main_call1_v1_apply, val_main_call1_v0_apply, val_main_cst_3_apply, val_main_v11_apply,
    val_main_v10_apply, scale_at x1 hs]
  exact round_clamp _

/-- The integer code. -/
theorem xi_at (hs : ∀ a : Fin 4096, IsReal (x1 (ix1 a))) (a : Fin 4096) (b : Fin 11008) :
    val_main_v16 (F := Ideal) x0 x1 x5 x6 (ix2 a b) = XI x0 x1 x5 x6 a b := by
  rw [val_main_v16_apply, code_at x0 x1 hs]
  exact select_bit _ _ _

/-- The rounded change of code. -/
theorem d_at (hs : ∀ a : Fin 4096, IsReal (x1 (ix1 a))) (a : Fin 4096) (b : Fin 11008) :
    val_main_v18 (F := Ideal) x0 x1 x2 x5 x6 (ix2 a b) = D x0 x1 x2 x5 x6 a b := by
  rw [val_main_v18_apply, val_main_v17_apply, xi_at x0 x1 x5 x6 hs]
  rfl

/-- Its sign. -/
theorem sg_at (hs : ∀ a : Fin 4096, IsReal (x1 (ix1 a))) (a : Fin 4096) (b : Fin 11008) :
    val_main_v19 (F := Ideal) x0 x1 x2 x5 x6 (ix2 a b) = SG x0 x1 x2 x5 x6 a b := by
  rw [val_main_v19_apply, d_at x0 x1 x2 x5 x6 hs]
  exact sign_eq_sgn _

/-- The oscillation indicator. -/
theorem osc_at (hs : ∀ a : Fin 4096, IsReal (x1 (ix1 a))) (a : Fin 4096) (b : Fin 11008) :
    val_main_v25 (F := Ideal) x0 x1 x2 x3 x5 x6 (ix2 a b) = OSC x0 x1 x2 x3 x5 x6 a b := by
  rw [val_main_v25_apply, val_main_v24_apply, val_main_v22_apply, val_main_v23_apply, val_main_cst_6_apply,
    sg_at x0 x1 x2 x5 x6 hs]
  exact uitofp_bit _

/-- The moving average. -/
theorem e_at (hs : ∀ a : Fin 4096, IsReal (x1 (ix1 a))) (a : Fin 4096) (b : Fin 11008) :
    val_main_v30 (F := Ideal) x0 x1 x2 x3 x4 x5 x6 (ix2 a b) = E x0 x1 x2 x3 x4 x5 x6 a b := by
  rw [val_main_v30_apply, val_main_v27_apply, val_main_v26_apply, val_main_cst_7_apply, val_main_v29_apply,
    val_main_v28_apply, val_main_cst_8_apply, osc_at x0 x1 x2 x3 x5 x6 hs]
  rfl

/-- The bit "the moving average exceeds the threshold". -/
theorem w_at (hs : ∀ a : Fin 4096, IsReal (x1 (ix1 a))) (a : Fin 4096) (b : Fin 11008) :
    val_main_v34 (F := Ideal) x0 x1 x2 x3 x4 x5 x6 (ix2 a b) = W x0 x1 x2 x3 x4 x5 x6 a b := by
  rw [val_main_v34_apply, val_main_v33_apply, val_main_cst_10_apply, e_at x0 x1 x2 x3 x4 x5 x6 hs]
  rfl

/-! ### The eight results at an entry -/

theorem r0_at (hs : ∀ a : Fin 4096, IsReal (x1 (ix1 a))) (a : Fin 4096) (b : Fin 11008) :
    val_main_v44 (F := Ideal) x0 x1 x5 x6 (ix2 a b) = R0 x0 x1 x5 x6 a b := by
  rw [val_main_v44_apply, val_main_v43_apply, xi_at x0 x1 x5 x6 hs]
  exact congrArg (XI x0 x1 x5 x6 a b * ·) (scale_at x1 hs a b)

theorem r2_at (hs : ∀ a : Fin 4096, IsReal (x1 (ix1 a))) (a : Fin 4096) (b : Fin 11008) :
    val_main_v31 (F := Ideal) x0 x1 x2 x3 x5 x6 (ix2 a b) = R2 x0 x1 x2 x3 x5 x6 a b := by
  rw [val_main_v31_apply, val_main_v21_apply, val_main_v20_apply, val_main_cst_5_apply,
    sg_at x0 x1 x2 x5 x6 hs, d_at x0 x1 x2 x5 x6 hs]
  rfl

theorem r5_at (hs : ∀ a : Fin 4096, IsReal (x1 (ix1 a))) (a : Fin 4096) (b : Fin 11008) :
    val_main_v35 (F := Ideal) x0 x1 x2 x3 x4 x5 x6 (ix2 a b) = R5 x0 x1 x2 x3 x4 x5 x6 a b := by
  rw [val_main_v35_apply, w_at x0 x1 x2 x3 x4 x5 x6 hs]
  exact ori_bit _ _

theorem r6_at (hs : ∀ a : Fin 4096, IsReal (x1 (ix1 a))) (a : Fin 4096) (b : Fin 11008) :
    val_main_v37 (F := Ideal) x0 x1 x2 x3 x4 x5 x6 x7 (ix2 a b) = R6 x0 x1 x2 x3 x4 x5 x6 x7 a b := by
  rw [val_main_v37_apply, val_main_v36_apply, w_at x0 x1 x2 x3 x4 x5 x6 hs]
  rfl

theorem r7_at (hs : ∀ a : Fin 4096, IsReal (x1 (ix1 a))) (a : Fin 4096) (b : Fin 11008) :
    val_main_v42 (F := Ideal) x0 x1 x5 x6 x7 (ix2 a b) = R7 x0 x1 x5 x6 x7 a b := by
  rw [val_main_v42_apply, val_main_v39_apply, val_main_v38_apply, val_main_cst_11_apply, val_main_v41_apply,
    val_main_v40_apply, val_main_cst_12_apply, xi_at x0 x1 x5 x6 hs]
  rfl

/-- The total count: the sum from 0 over every entry is the double sum over rows and columns. -/
theorem r4_at (hs : ∀ a : Fin 4096, IsReal (x1 (ix1 a))) (i : S_.Idx) :
    val_main_v32 (F := Ideal) x0 x1 x2 x3 x5 x6 i = R4 x0 x1 x2 x3 x5 x6 := by
  rw [val_main_v32_apply, val_main_cst_9_apply]
  show Ideal.ofBits .f32 0x00000000#32 + _ = _
  rw [Ideal.ofBits_zero_f32, zero_add, sum_idx2]
  exact Finset.sum_congr rfl fun a _ => Finset.sum_congr rfl fun b _ => osc_at x0 x1 x2 x3 x5 x6 hs a b

/-! ### The eight results as arrays -/

theorem r0_eq (hs : ∀ a : Fin 4096, IsReal (x1 (ix1 a))) :
    val_main_v44 (F := Ideal) x0 x1 x5 x6 = arr2 (R0 x0 x1 x5 x6) := by
  funext i
  obtain ⟨a, b, rfl⟩ : ∃ (a : Fin 4096) (b : Fin 11008), i = ix2 a b := ⟨i 0, i 1, eq_ix2 i⟩
  exact r0_at x0 x1 x5 x6 hs a b

theorem r1_eq (hs : ∀ a : Fin 4096, IsReal (x1 (ix1 a))) :
    val_main_v16 (F := Ideal) x0 x1 x5 x6 = arr2 (R1 x0 x1 x5 x6) := by
  funext i
  obtain ⟨a, b, rfl⟩ : ∃ (a : Fin 4096) (b : Fin 11008), i = ix2 a b := ⟨i 0, i 1, eq_ix2 i⟩
  exact xi_at x0 x1 x5 x6 hs a b

theorem r2_eq (hs : ∀ a : Fin 4096, IsReal (x1 (ix1 a))) :
    val_main_v31 (F := Ideal) x0 x1 x2 x3 x5 x6 = arr2 (R2 x0 x1 x2 x3 x5 x6) := by
  funext i
  obtain ⟨a, b, rfl⟩ : ∃ (a : Fin 4096) (b : Fin 11008), i = ix2 a b := ⟨i 0, i 1, eq_ix2 i⟩
  exact r2_at x0 x1 x2 x3 x5 x6 hs a b

theorem r3_eq (hs : ∀ a : Fin 4096, IsReal (x1 (ix1 a))) :
    val_main_v30 (F := Ideal) x0 x1 x2 x3 x4 x5 x6 = arr2 (R3 x0 x1 x2 x3 x4 x5 x6) := by
  funext i
  obtain ⟨a, b, rfl⟩ : ∃ (a : Fin 4096) (b : Fin 11008), i = ix2 a b := ⟨i 0, i 1, eq_ix2 i⟩
  exact e_at x0 x1 x2 x3 x4 x5 x6 hs a b

theorem r4_eq (hs : ∀ a : Fin 4096, IsReal (x1 (ix1 a))) :
    val_main_v32 (F := Ideal) x0 x1 x2 x3 x5 x6 = fun _ => R4 x0 x1 x2 x3 x5 x6 :=
  funext fun i => r4_at x0 x1 x2 x3 x5 x6 hs i

theorem r5_eq (hs : ∀ a : Fin 4096, IsReal (x1 (ix1 a))) :
    val_main_v35 (F := Ideal) x0 x1 x2 x3 x4 x5 x6 = arr2 (R5 x0 x1 x2 x3 x4 x5 x6) := by
  funext i
  obtain ⟨a, b, rfl⟩ : ∃ (a : Fin 4096) (b : Fin 11008), i = ix2 a b := ⟨i 0, i 1, eq_ix2 i⟩
  exact r5_at x0 x1 x2 x3 x4 x5 x6 hs a b

theorem r6_eq (hs : ∀ a : Fin 4096, IsReal (x1 (ix1 a))) :
    val_main_v37 (F := Ideal) x0 x1 x2 x3 x4 x5 x6 x7 = arr2 (R6 x0 x1 x2 x3 x4 x5 x6 x7) := by
  funext i
  obtain ⟨a, b, rfl⟩ : ∃ (a : Fin 4096) (b : Fin 11008), i = ix2 a b := ⟨i 0, i 1, eq_ix2 i⟩
  exact r6_at x0 x1 x2 x3 x4 x5 x6 x7 hs a b

theorem r7_eq (hs : ∀ a : Fin 4096, IsReal (x1 (ix1 a))) :
    val_main_v42 (F := Ideal) x0 x1 x5 x6 x7 = arr2 (R7 x0 x1 x5 x6 x7) := by
  funext i
  obtain ⟨a, b, rfl⟩ : ∃ (a : Fin 4096) (b : Fin 11008), i = ix2 a b := ⟨i 0, i 1, eq_ix2 i⟩
  exact r7_at x0 x1 x5 x6 x7 hs a b

end Entries

end Cert.RefSide

end
-- ==== Proof.RefSideRun.lean ====
/-
  The reference's run, with every result stated as the specification's function of the argument arrays.

  The generated run ends with each result buffer at the composed term of the operations; that term is the last
  stage of the reading of the reference one operation at a time, and the stage is, entry by entry, the
  specification's result (under the hypothesis that every scale entry is a real, which the reference's scale line
  needs). The arguments end unchanged, as the generated run says.
-/
import proofs.«145237_j46729244180908_1_alg».proof.Proof.Gen.ReferenceIdeal.Run
import proofs.«145237_j46729244180908_1_alg».proof.Proof.Gen.ReferenceIdeal.Read
import proofs.«145237_j46729244180908_1_alg».proof.Proof.RefSideEntry

set_option pp.maxSteps 5000
set_option pp.deepTerms false

noncomputable section

namespace Cert.RefSide

open Idealize.ShloMosaic Idealize.ShloMosaic.TcCoe Idealize.SL.Sem Idealize.ShloMosaic.ValueIdx
open Cert.ReferenceIdeal Cert.Spec

/-- From any memory whose scale vector holds reals, the reference runs, ends with the eight results equal to the
    specification's functions of the argument arrays, and leaves the arguments unchanged. -/
theorem run (m' : (ℓ : Loc nD τ sig) → Buf (Elt Ideal) ℓ) (ρ' : Dev nD → PrngReg)
    (hs : ∀ (c : Dev nD) (a : Fin 4096), ∃ r : ℝ, m' ((c.tc : Thread nD τ).loc main_arg1) (ix1 a) = (r : EReal)) :
    θ_run (defs (F := Ideal)) (onTc (τ := τ) (main (F := Ideal))) ⟨m', fun _ => 0, ρ'⟩ fun r => ∀ c : Dev nD,
      r.2.mem ((c.tc : Thread nD τ).loc main_v44) = arr2 (R0 (m' ((c.tc : Thread nD τ).loc main_arg0)) (m' ((c.tc : Thread nD τ).loc main_arg1)) (m' ((c.tc : Thread nD τ).loc main_arg5)) (m' ((c.tc : Thread nD τ).loc main_arg6)))
      ∧ r.2.mem ((c.tc : Thread nD τ).loc main_v16) = arr2 (R1 (m' ((c.tc : Thread nD τ).loc main_arg0)) (m' ((c.tc : Thread nD τ).loc main_arg1)) (m' ((c.tc : Thread nD τ).loc main_arg5)) (m' ((c.tc : Thread nD τ).loc main_arg6)))
      ∧ r.2.mem ((c.tc : Thread nD τ).loc main_v31) = arr2 (R2 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg5)) (m' ((c.tc : Thread nD τ).loc main_arg6)))
      ∧ r.2.mem ((c.tc : Thread nD τ).loc main_v30) = arr2 (R3 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)))
      ∧ r.2.mem ((c.tc : Thread nD τ).loc main_v32) = (fun _ => R4 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg5)) (m' ((c.tc : Thread nD τ).loc main_arg6)))
      ∧ r.2.mem ((c.tc : Thread nD τ).loc main_v35) = arr2 (R5 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)))
      ∧ r.2.mem ((c.tc : Thread nD τ).loc main_v37) = arr2 (R6 (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)))
      ∧ r.2.mem ((c.tc : Thread nD τ).loc main_v42) = arr2 (R7 (m' ((c.tc : Thread nD τ).loc main_arg0)) (m' ((c.tc : Thread nD τ).loc main_arg1)) (m' ((c.tc : Thread nD τ).loc main_arg5)) (m' ((c.tc : Thread nD τ).loc main_arg6)) (m' ((c.tc : Thread nD τ).loc main_arg7)))
      ∧ r.2.mem ((c.tc : Thread nD τ).loc main_arg0) = m' ((c.tc : Thread nD τ).loc main_arg0)
      ∧ r.2.mem ((c.tc : Thread nD τ).loc main_arg1) = m' ((c.tc : Thread nD τ).loc main_arg1)
      ∧ r.2.mem ((c.tc : Thread nD τ).loc main_arg2) = m' ((c.tc : Thread nD τ).loc main_arg2)
      ∧ r.2.mem ((c.tc : Thread nD τ).loc main_arg3) = m' ((c.tc : Thread nD τ).loc main_arg3)
      ∧ r.2.mem ((c.tc : Thread nD τ).loc main_arg4) = m' ((c.tc : Thread nD τ).loc main_arg4)
      ∧ r.2.mem ((c.tc : Thread nD τ).loc main_arg5) = m' ((c.tc : Thread nD τ).loc main_arg5)
      ∧ r.2.mem ((c.tc : Thread nD τ).loc main_arg6) = m' ((c.tc : Thread nD τ).loc main_arg6)
      ∧ r.2.mem ((c.tc : Thread nD τ).loc main_arg7) = m' ((c.tc : Thread nD τ).loc main_arg7) :=
  (θ_run defs _ _).mono (fun r h c => by
    obtain ⟨h0, h1, h2, h3, h4, h5, h6, h7, hargs⟩ := h c
    have hs' : ∀ a : Fin 4096, Cert.Finite.IsReal ((m' ((c.tc : Thread nD τ).loc main_arg1)) (ix1 a)) := hs c
    refine ⟨?_, ?_, ?_, ?_, ?_, ?_, ?_, ?_, hargs⟩
    · exact h0.trans ((Read.val_main_v44_eq m' c).trans (r0_eq (m' ((c.tc : Thread nD τ).loc main_arg0)) (m' ((c.tc : Thread nD τ).loc main_arg1)) (m' ((c.tc : Thread nD τ).loc main_arg5)) (m' ((c.tc : Thread nD τ).loc main_arg6)) hs'))
    · exact h1.trans ((Read.val_main_v16_eq (m' ((c.tc : Thread nD τ).loc main_arg0)) (m' ((c.tc : Thread nD τ).loc main_arg1)) (m' ((c.tc : Thread nD τ).loc main_arg5)) (m' ((c.tc : Thread nD τ).loc main_arg6))).trans
        (r1_eq (m' ((c.tc : Thread nD τ).loc main_arg0)) (m' ((c.tc : Thread nD τ).loc main_arg1)) (m' ((c.tc : Thread nD τ).loc main_arg5)) (m' ((c.tc : Thread nD τ).loc main_arg6)) hs'))
    · exact h2.trans ((Read.val_main_v31_eq m' c).trans (r2_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg5)) (m' ((c.tc : Thread nD τ).loc main_arg6)) hs'))
    · exact h3.trans ((Read.val_main_v30_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))).trans
        (r3_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) hs'))
    · exact h4.trans ((Read.val_main_v32_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg5)) (m' ((c.tc : Thread nD τ).loc main_arg6))).trans
        (r4_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg5)) (m' ((c.tc : Thread nD τ).loc main_arg6)) hs'))
    · exact h5.trans ((Read.val_main_v35_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6))).trans
        (r5_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) hs'))
    · exact h6.trans ((Read.val_main_v37_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7))).trans
        (r6_eq (m' ((c.tc : Thread nD τ).loc main_arg0)) (m' ((c.tc : Thread nD τ).loc main_arg1)) (m' ((c.tc : Thread nD τ).loc main_arg2)) (m' ((c.tc : Thread nD τ).loc main_arg3)) (m' ((c.tc : Thread nD τ).loc main_arg4)) (m' ((c.tc : Thread nD τ).loc main_arg5)) (m' ((c.tc : Thread nD τ).loc main_arg6)) (m' ((c.tc : Thread nD τ).loc main_arg7)) hs'))
    · exact h7.trans ((Read.val_main_v42_eq (m' ((c.tc : Thread nD τ).loc main_arg0)) (m' ((c.tc : Thread nD τ).loc main_arg1)) (m' ((c.tc : Thread nD τ).loc main_arg5)) (m' ((c.tc : Thread nD τ).loc main_arg6)) (m' ((c.tc : Thread nD τ).loc main_arg7))).trans
        (r7_eq (m' ((c.tc : Thread nD τ).loc main_arg0)) (m' ((c.tc : Thread nD τ).loc main_arg1)) (m' ((c.tc : Thread nD τ).loc main_arg5)) (m' ((c.tc : Thread nD τ).loc main_arg6)) (m' ((c.tc : Thread nD τ).loc main_arg7)) hs')))
    (Cert.ReferenceIdeal.Value.run (F := Ideal) m' ρ')

end Cert.RefSide

end
-- ==== Proof.LibPreDecode.lean ====
/-
  A predicate that is a conjunction of "all entries of an array satisfy a comparison", read back.

  Such a predicate is a one-bit scalar built from three things: an entrywise comparison of two arrays, giving an
  array of one-bit words; a reduction of that array by "and" over all axes, from the word 1; and the "and" of several
  such scalars. If the scalar is 1 then every conjunct is 1 (a conjunction of one-bit words is 1 exactly when each
  word is), a reduction by "and" that came out 1 met only 1s, and a comparison word that is 1 says the comparison
  holds. Over the extended reals two comparisons matter here: "x > y" is the strict order, and "|x| < +infinity"
  says exactly that x is finite, the image of a real number (it excludes both infinities; |x| is max x (-x)).

  The statements are over an arbitrary array shape, an arbitrary float format whose compared pattern denotes +infinity
  (with the f32 and bf16 patterns as instances), and both ways a scalar is said to be 1: at its one index, or as the
  constant function. Nothing here mentions a particular program.
-/
import Idealize.ShloMosaic.PureOps.Ideal
import Idealize.ShloMosaic.PureOps.Ideal.Laws
import Idealize.ShloMosaic.Lib.ValueIdx
import Idealize.ShloMosaic.Lib.ReduceAll
import proofs.«145237_j46729244180908_1_alg».proof.Proof.LibFinite

noncomputable section

namespace Cert.PreDecodeLib

open Idealize.ShloMosaic Idealize.ShloMosaic.ValueIdx
open Cert.Finite

/-! ## The scalar shape -/

/-- The shape of a scalar: rank 0. -/
abbrev S0 : Shape := ⟨0, ![]⟩

/-- The scalar shape has one index. -/
instance subsingleton_S0_idx : Subsingleton S0.Idx := ⟨fun a b => funext fun d => d.elim0⟩

/-- A one-bit scalar that is the constant function 1 is 1 at its one index. -/
theorem at_ix0_of_eq_one {x : IVec S0 1} (h : x = fun _ => 1#1) : x ix0 = 1#1 := congrFun h ix0

/-- A one-bit scalar that is 1 at its one index is the constant function 1. -/
theorem eq_one_of_at_ix0 {x : IVec S0 1} (h : x ix0 = 1#1) : x = fun _ => 1#1 :=
  funext fun i => by rw [eq_ix0 i]; exact h

/-! ## One-bit words -/

/-- A one-bit word made from a decision is 1 exactly when the decision holds. -/
theorem ofBool_eq_one (b : Bool) : BitVec.ofBool b = 1#1 ↔ b = true := by cases b <;> decide

/-- The entrywise "and" of two arrays of one-bit words is 1 at an index exactly when both are 1 there. -/
theorem andi_eq_one_at {s : Shape} {x y : IVec s 1} {i : s.Idx} (h : andi x y i = 1#1) : x i = 1#1 ∧ y i = 1#1 :=
  IntOp.andi_eq_one.1 h

/-- The "and" of two one-bit scalars that is 1 at the scalar's index has both conjuncts 1 there. -/
theorem andi_ix0 {x y : IVec S0 1} (h : andi x y ix0 = 1#1) : x ix0 = 1#1 ∧ y ix0 = 1#1 :=
  andi_eq_one_at h

/-- The entrywise "and" of two arrays of one-bit words that is constantly 1 has both arrays constantly 1. -/
theorem andi_eq_one {s : Shape} {x y : IVec s 1} (h : andi x y = fun _ => 1#1) :
    x = (fun _ => 1#1) ∧ y = (fun _ => 1#1) :=
  ⟨funext fun i => (andi_eq_one_at (congrFun h i)).1, funext fun i => (andi_eq_one_at (congrFun h i)).2⟩

/-! ## Comparisons of extended reals, read back -/

/-- A comparison word "x > y" that is 1: x is strictly above y. -/
theorem lt_of_ogt {φ : FTy} {x y : Ideal φ} (h : FloatOps.cmpf .ogt x y = 1#1) : (y : EReal) < x := by
  have h2 : Ideal.cmp .ogt x y = 1#1 := h
  unfold Ideal.cmp at h2
  rw [ofBool_eq_one] at h2
  exact of_decide_eq_true h2

/-- A comparison word "x < y" that is 1: x is strictly below y. -/
theorem lt_of_olt {φ : FTy} {x y : Ideal φ} (h : FloatOps.cmpf .olt x y = 1#1) : (x : EReal) < y := by
  have h2 : Ideal.cmp .olt x y = 1#1 := h
  unfold Ideal.cmp at h2
  rw [ofBool_eq_one] at h2
  exact of_decide_eq_true h2

/-- Two arrays compared entry by entry by "greater than", the word at an index being 1: the inequality there. -/
theorem gt_of_ogt_at {φ : FTy} {s : Shape} (x y : FVec Ideal s φ) (j : s.Idx) (h : cmpf .ogt x y j = 1#1) :
    x j > y j :=
  lt_of_ogt h

/-- The f32 pattern `0x7F800000` denotes +infinity. -/
theorem ofBits_inf_f32 : Ideal.ofBits .f32 0x7F800000#32 = (⊤ : EReal) := by simp [Ideal.ofBits, Ideal.ieee]

/-- The bf16 pattern `0x7F80` denotes +infinity. -/
theorem ofBits_inf_bf16 : Ideal.ofBits .bf16 0x7F80#16 = (⊤ : EReal) := by simp [Ideal.ofBits, Ideal.ieee]

/-- An extended real whose absolute value max x (-x) lies strictly below +infinity is a real. -/
theorem isReal_of_abs_lt_top {x : EReal} (h : max x (-x) < ⊤) : IsReal x := by
  induction x using EReal.rec with
  | bot => simp at h
  | coe r => exact ⟨r, rfl⟩
  | top => simp at h

/-- The comparison word "|x| < b" that is 1, for a pattern b that denotes +infinity: x is a real. -/
theorem isReal_of_abs_lt {φ : FTy} (b : BitVec φ.bits) (hb : Ideal.ofBits φ b = (⊤ : EReal)) (x : Ideal φ)
    (h : FloatOps.cmpf .olt (FloatOps.hostAbsf x) (FloatOps.ofBits (F := Ideal) φ b) = 1#1) : IsReal x := by
  have h2 : (max (x : EReal) (-x)) < Ideal.ofBits φ b := lt_of_olt h
  rw [hb] at h2
  exact isReal_of_abs_lt_top h2

/-- The f32 case: the comparison word "|x| < 0x7F800000" that is 1 says x is a real. -/
theorem isReal_of_abs_lt_f32 (x : Ideal .f32)
    (h : FloatOps.cmpf .olt (FloatOps.hostAbsf x) (FloatOps.ofBits (F := Ideal) .f32 0x7F800000#32) = 1#1) :
    IsReal x :=
  isReal_of_abs_lt _ ofBits_inf_f32 x h

/-! ## Arrays -/

/-- Every entry of an array of extended reals is a real. -/
abbrev AllReal {φ : FTy} {s : Shape} (x : FVec Ideal s φ) : Prop := ∀ i, IsReal (x i)

/-- Every entry of an array (already in absolute value) compares strictly below the scalar pattern b broadcast to
    the array's shape: the array of comparison words is 1 at every index. -/
abbrev LtBcast {φ : FTy} {s : Shape} (b : BitVec φ.bits) (hb : S0.BroadcastsInDim s (![] : Fin 0 → Fin s.rank))
    (x : FVec Ideal s φ) : Prop :=
  ∀ i, cmpf .olt x (broadcastInDim s ![] hb (constant S0 φ b)) i = 1#1

/-- The f32 case with the pattern of +infinity. -/
abbrev AbsLtInf {s : Shape} (hb : S0.BroadcastsInDim s (![] : Fin 0 → Fin s.rank)) (x : FVec Ideal s .f32) : Prop :=
  LtBcast 0x7F800000#32 hb x

/-- An array whose absolute values all compare below a pattern that denotes +infinity has real entries. -/
theorem allReal_of_ltBcast {φ : FTy} {s : Shape} (b : BitVec φ.bits) (htop : Ideal.ofBits φ b = (⊤ : EReal))
    (x : FVec Ideal s φ) (hb : S0.BroadcastsInDim s (![] : Fin 0 → Fin s.rank)) (h : LtBcast b hb (Host.absf x)) :
    AllReal x :=
  fun i => isReal_of_abs_lt b htop (x i) (h i)

/-- The f32 case: an array whose absolute values all compare below +infinity has real entries. -/
theorem allReal_of_abs {s : Shape} (x : FVec Ideal s .f32) (hb : S0.BroadcastsInDim s (![] : Fin 0 → Fin s.rank))
    (h : AbsLtInf hb (Host.absf x)) : AllReal x :=
  allReal_of_ltBcast _ ofBits_inf_f32 x hb h

/-! ## The reduction by "and" -/

/-- A reduction by "and" over all axes that is 1 at the scalar's index: every entry of the reduced array is 1. -/
theorem all_of_reduce {s u : Shape} {axes : List (Fin s.rank)} (p : IVec s 1) (init : IVec u 1) (hr : s.ReducesTo axes S0)
    (hu : 0 < u.numel) (e : Host.reduce IntOp.andi p init hr hu ix0 = 1#1) (i : s.Idx) : p i = 1#1 :=
  Host.reduce_andi_all p init hr hu ix0 e i

/-- The same when the reduction is said to be the constant function 1. -/
theorem all_of_reduce_eq {s u : Shape} {axes : List (Fin s.rank)} (p : IVec s 1) (init : IVec u 1)
    (hr : s.ReducesTo axes S0) (hu : 0 < u.numel) (e : Host.reduce IntOp.andi p init hr hu = fun _ => 1#1) (i : s.Idx) :
    p i = 1#1 :=
  all_of_reduce p init hr hu (congrFun e ix0) i

/-- "All |x i| < b" came out 1, for a pattern b that denotes +infinity: every entry of x is a real. -/
theorem allReal_of_all {φ : FTy} {s u : Shape} {axes : List (Fin s.rank)} (b : BitVec φ.bits)
    (htop : Ideal.ofBits φ b = (⊤ : EReal)) (x : FVec Ideal s φ) (hb : S0.BroadcastsInDim s (![] : Fin 0 → Fin s.rank))
    (init : IVec u 1) (hr : s.ReducesTo axes S0) (hu : 0 < u.numel)
    (e : Host.reduce IntOp.andi (cmpf .olt (Host.absf x) (broadcastInDim s ![] hb (constant S0 φ b))) init hr hu ix0
      = 1#1) : AllReal x :=
  allReal_of_ltBcast b htop x hb (all_of_reduce _ _ hr hu e)

/-- The f32 case, the reduction started from the word 1, 1 at the scalar's index: every entry of x is a real. -/
theorem finite_of_all {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu ix0 = 1#1) : AllReal x :=
  allReal_of_all _ ofBits_inf_f32 x hb _ hr hu e

/-- The same when the reduction is said to be the constant function 1. -/
theorem finite_of_all_eq {s : Shape} {axes : List (Fin s.rank)} (x : FVec Ideal s .f32)
    (hb : S0.BroadcastsInDim s (![] : Fin 0 → Fin s.rank)) (hr : s.ReducesTo axes S0) (hu : 0 < S0.numel)
    (e : Host.reduce IntOp.andi (cmpf .olt (Host.absf x) (broadcastInDim s ![] hb (constant S0 .f32 0x7F800000#32)))
      (constantI S0 1 1#1) hr hu = fun _ => 1#1) : AllReal x :=
  finite_of_all x hb hr hu (congrFun e ix0)

/-- "All x j > y j" came out 1 at the scalar's index: x lies strictly above y at every index. -/
theorem gt_of_all {φ : FTy} {s u : Shape} {axes : List (Fin s.rank)} (x y : FVec Ideal s φ) (init : IVec u 1)
    (hr : s.ReducesTo axes S0) (hu : 0 < u.numel)
    (e : Host.reduce IntOp.andi (cmpf .ogt x y) init hr hu ix0 = 1#1) (j : s.Idx) : x j > y j :=
  gt_of_ogt_at x y j (all_of_reduce _ _ hr hu e j)

/-- The same when the reduction is said to be the constant function 1. -/
theorem gt_of_all_eq {φ : FTy} {s u : Shape} {axes : List (Fin s.rank)} (x y : FVec Ideal s φ) (init : IVec u 1)
    (hr : s.ReducesTo axes S0) (hu : 0 < u.numel)
    (e : Host.reduce IntOp.andi (cmpf .ogt x y) init hr hu = fun _ => 1#1) (j : s.Idx) : x j > y j :=
  gt_of_all x y init hr hu (congrFun e ix0) j

end Cert.PreDecodeLib

end
-- ==== Proof.RefSideFinite.lean ====
/-
  From the precondition to "every scale entry is a real".

  The precondition is the conjunction, over the seven float argument arrays, of "every entry has absolute value
  below +infinity". It is given as a one-bit scalar equal to 1. A conjunction of one-bit words is 1 only when each
  conjunct is, so the conjunct about the scale vector is 1; a reduction by "and" that is 1 met only 1s, so every
  entry of the scale vector has absolute value strictly below +infinity; and such an extended real is a real.
-/
import proofs.«145237_j46729244180908_1_alg».proof.Pre_finite_inputs
import proofs.«145237_j46729244180908_1_alg».proof.Proof.LibPreDecode

noncomputable section

namespace Cert.RefSide

open Idealize.ShloMosaic Idealize.ShloMosaic.ValueIdx Cert.PreDecodeLib

/-- Under the precondition every entry of the scale vector is a real. -/
theorem s_real [hP : Cert.Pre_finite_inputs.Facts]
    (x : FVec Ideal Cert.Pre_finite_inputs.S4096x11008 .f32) (s : FVec Ideal Cert.Pre_finite_inputs.S4096 .f32)
    (pxi psd eo : FVec Ideal Cert.Pre_finite_inputs.S4096x11008 .f32) (fz : IVec Cert.Pre_finite_inputs.S4096x11008 1)
    (fxi exi : FVec Ideal Cert.Pre_finite_inputs.S4096x11008 .f32)
    (h : Cert.Pre_finite_inputs.fn (F := Ideal) x s pxi psd eo fz fxi exi = fun _ => 1#1) :
    ∀ a : Fin 4096, ∃ r : ℝ, s (ix1 a) = (r : EReal) := by
  have h0 := congrFun h ix0
  unfold Cert.Pre_finite_inputs.fn Cert.Pre_finite_inputs.fn_part1 at h0
  dsimp only at h0
  have h7 := (andi_ix0 (andi_ix0 (andi_ix0 (andi_ix0 (andi_ix0 (andi_ix0 h0).1).1).1).1).1).2
  intro a
  exact finite_of_all s _ _ _ h7 (ix1 a)

end Cert.RefSide

end
-- ==== Proof.lean ====
/-
  The step `LSQ fake-quantisation with oscillation tracking` as a Pallas kernel over 256 row blocks, against its
  plain jnp form, on the extended reals.

  Both programs compute, entry by entry, the same scalar formulas of the eight arguments (`Cert.Spec`): the integer
  code `XI` (the frozen code where frozen, else `round(clamp(x / max(s, ε), -8, 7))`), the rounded change of code
  and its sign, the oscillation indicator, two moving averages, the refreshed frozen code and flag, and the
  dequantised value; plus the total number of oscillating entries.

  * The kernel side (`Cert.KernelIdeal.KRun.run`): each grid point stores pointwise expressions of its 16-row
    blocks, the blocks tile the arrays, and the count is accumulated point by point — a finite sum of extended
    reals, whose order does not matter.
  * The reference side (`Cert.RefSide.run`): the reference writes the scale as `(max(s, ε) − s·g) + s·g` and the
    code as `(round(c) − c) + c`; both collapse because `s` is finite (the precondition) and the clamped `c` is
    always finite.  The frozen flag enters the kernel as a number compared with one half, which is the flag.
  * The one rewrite of the idealisation reads the sign bit of a float as the comparison with zero.
  * The two kernel programs' frames (every execution ends, nothing faults, the arguments are kept) are the frame
    runs of `Cert.Kernel.GenP` and `Cert.KernelIdeal.GenP`; the reference's is its run with the results dropped.
-/
import proofs.«145237_j46729244180908_1_alg».proof.Defs
import proofs.«145237_j46729244180908_1_alg».proof.Proof.Gen.Kernel
import proofs.«145237_j46729244180908_1_alg».proof.Proof.FrameKernelP
import proofs.«145237_j46729244180908_1_alg».proof.Proof.Gen.KernelIdeal
import proofs.«145237_j46729244180908_1_alg».proof.Proof.FramePB
import proofs.«145237_j46729244180908_1_alg».proof.Proof.Gen.ReferenceIdeal
import proofs.«145237_j46729244180908_1_alg».proof.Proof.Gen.Pre_finite_inputs
import proofs.«145237_j46729244180908_1_alg».proof.Proof.Gen.ReferenceIdeal.Run
import proofs.«145237_j46729244180908_1_alg».proof.Proof.Gen.ReferenceIdeal.Read
import proofs.«145237_j46729244180908_1_alg».proof.Proof.KernelRun
import proofs.«145237_j46729244180908_1_alg».proof.Proof.RefSideRun
import proofs.«145237_j46729244180908_1_alg».proof.Proof.RefSideFinite
import Idealize.ShloMosaic.Adequacy
import Idealize.ShloMosaic.Init

noncomputable section

namespace Cert.Proof

open Idealize.ShloMosaic Idealize.ShloMosaic.TcCoe Idealize.SL.Sem Cert.Spec

/-- From memories that agree on the arguments both idealised programs end with every result at the same function of
    the kernel side's arguments. -/
theorem algebraic [hKernelIdeal : Cert.KernelIdeal.Facts] [hReferenceIdeal : Cert.ReferenceIdeal.Facts]
    [hPre_finite_inputs : Cert.Pre_finite_inputs.Facts] : Cert.algebraic_KernelIdeal_ReferenceIdeal := by
  intro m ρ m' ρ' hpre hagree
  have hs : ∀ (c : Dev Cert.ReferenceIdeal.nD) (a : Fin 4096), ∃ r : ℝ,
      m' ((c.tc : Thread Cert.ReferenceIdeal.nD Cert.ReferenceIdeal.τ).loc Cert.ReferenceIdeal.main_arg1) (ValueIdx.ix1 a) = (r : EReal) := by
    intro c a
    rw [(hagree c).2.1]
    exact Cert.RefSide.s_real _ _ _ _ _ _ _ _ (hpre c) a
  refine ⟨_, _, _, _, _, _, _, _, Cert.KernelIdeal.KRun.run m ρ, ?_⟩
  refine (θ_run Cert.ReferenceIdeal.defs _ _).mono (fun _ h c => ?_) (Cert.RefSide.run m' ρ' hs)
  obtain ⟨a0, a1, a2, a3, a4, a5, a6, a7⟩ := hagree c
  obtain ⟨r0, r1, r2, r3, r4, r5, r6, r7, rest⟩ := h c
  refine ⟨?_, ?_, ?_, ?_, ?_, ?_, ?_, ?_, rest⟩
  · rw [r0, a0, a1, a5, a6]
  · rw [r1, a0, a1, a5, a6]
  · rw [r2, a0, a1, a2, a3, a5, a6]
  · rw [r3, a0, a1, a2, a3, a4, a5, a6]
  · rw [r4, a0, a1, a2, a3, a5, a6]
    rfl
  · rw [r5, a0, a1, a2, a3, a4, a5, a6]
  · rw [r6, a0, a1, a2, a3, a4, a5, a6, a7]
  · rw [r7, a0, a1, a5, a6, a7]

theorem claim : Cert.Claim := ⟨Cert.Kernel.Gen.facts, Cert.KernelIdeal.Gen.facts, Cert.ReferenceIdeal.Gen.facts, Cert.Pre_finite_inputs.Gen.facts,
  fun m ρ _ => Cert.Kernel.GenP.frame m ρ,
  fun m ρ _ => Cert.KernelIdeal.GenP.frame m ρ,
  fun m ρ _ => (θ_run Cert.ReferenceIdeal.defs _ _).mono (fun _ h c => (h c).2.2.2.2.2.2.2.2) (Cert.ReferenceIdeal.Value.run (F := Ideal) m ρ),
  IdealRules.sign_bit.statement Cert.KernelIdeal.S16x11008 .f32,
  algebraic⟩

end Cert.Proof

end
